-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v44_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v44_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v169) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x25000x64 : Shape := ⟨3, ![4, 25000, 64]⟩
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S4x25000x64 : S_.BroadcastsInDim S4x25000x64 (![] : Fin 0 → Fin S4x25000x64.rank)
  reducesTo_S4x25000x64_S_d0_1_2 : S4x25000x64.ReducesTo [0, 1, 2] S_
  h_S_ : 0 < S_.numel
  bcast_S_S1600000 : S_.BroadcastsInDim S1600000 (![] : Fin 0 → Fin S1600000.rank)
  reducesTo_S1600000_S_d0 : S1600000.ReducesTo [0] S_
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S64 .f32) (main_arg17 : FVec F S64x1 .f32) (main_arg18 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg17
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S128x64 .f32) (main_arg14 : FVec F S64 .f32) (main_arg15 : FVec F S128x64 .f32) (main_arg16 : FVec F S64 .f32) (main_arg17 : FVec F S64x1 .f32) (main_arg18 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_arg17 main_arg18 main_v63 main_v67

def fn_part2 {F : FTy → Type} [FloatOps F] (main_arg9 : FVec F S64x64 .f32) (main_arg10 : FVec F S64 .f32) (main_arg11 : FVec F S128x64 .f32) (main_arg12 : FVec F S64 .f32) (main_arg13 : FVec F S128x64 .f32) (main_arg14 : FVec F S64 .f32) (main_arg15 : FVec F S128x64 .f32) (main_arg16 : FVec F S64 .f32) (main_arg17 : FVec F S64x1 .f32) (main_arg18 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S128x64 .f32) (main_arg12 : FVec F S64 .f32) (main_arg13 : FVec F S128x64 .f32) (main_arg14 : FVec F S64 .f32) (main_arg15 : FVec F S128x64 .f32) (main_arg16 : FVec F S64 .f32) (main_arg17 : FVec F S64x1 .f32) (main_arg18 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S4x25000x64 .f32) (main_arg1 : IVec S1600000 32) (main_arg2 : IVec S1600000 32) (main_arg3 : FVec F S1600000 .f32) (main_arg4 : FVec F S100000x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S128x64 .f32) (main_arg12 : FVec F S64 .f32) (main_arg13 : FVec F S128x64 .f32) (main_arg14 : FVec F S64 .f32) (main_arg15 : FVec F S128x64 .f32) (main_arg16 : FVec F S64 .f32) (main_arg17 : FVec F S64x1 .f32) (main_arg18 : FVec F S1 .f32) : IVec S_ 1 :=
  let main_v0 : FVec F S4x25000x64 .f32 := Host.absf main_arg0
  let main_cst : FVec F S_ .f32 := constant S_ .f32 0x7F800000#32
  let main_v1 : FVec F S4x25000x64 .f32 := broadcastInDim S4x25000x64 ![] bcast_S_S4x25000x64 main_cst
  let main_v2 : IVec S4x25000x64 1 := cmpf .olt main_v0 main_v1
  let main_c : IVec S_ 1 := constantI S_ 1 1#1
  let main_v3 : IVec S_ 1 := (fun x v => Host.reduce IntOp.andi x v reducesTo_S4x25000x64_S_d0_1_2 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S4x25000x64 : Shape := ⟨3, ![4, 25000, 64]⟩
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S64x192 : Shape := ⟨2, ![64, 192]⟩
abbrev S192 : Shape := ⟨1, ![192]⟩
abbrev S100000x1 : Shape := ⟨2, ![100000, 1]⟩
abbrev S2000x64 : Shape := ⟨2, ![2000, 64]⟩
abbrev S2000x1 : Shape := ⟨2, ![2000, 1]⟩
abbrev S2000x192 : Shape := ⟨2, ![2000, 192]⟩
abbrev S1x64 : Shape := ⟨2, ![1, 64]⟩
abbrev S2000x128 : Shape := ⟨2, ![2000, 128]⟩
abbrev S1x1 : Shape := ⟨2, ![1, 1]⟩
abbrev S4x25000x1 : Shape := ⟨3, ![4, 25000, 1]⟩

abbrev nBuf : Space → Nat
  | .hbm => 79
  | .vmem => 18
  | .smem => 0
  | _ => 0

abbrev bufTy : (tb : Table) → Fin (tcTables nBuf tb) → BufTy
  | .hbm, ⟨0, _⟩ => ⟨S4x25000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S128x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S100000x64, .f32⟩
  | .hbm, ⟨20, _⟩ => ⟨S100000, .i32⟩
  | .hbm, ⟨21, _⟩ => ⟨S1700000, .i32⟩
  | .hbm, ⟨22, _⟩ => ⟨S1700000, .i32⟩
  | .hbm, ⟨23, _⟩ => ⟨S_, .f32⟩
  | .hbm, ⟨24, _⟩ => ⟨S100000, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000, .f32⟩
  | .hbm, ⟨57, _⟩ => ⟨S1700000, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x1, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S64x192, .f32⟩
  | .hbm, ⟨75, _⟩ => ⟨S192, .f32⟩
  | .hbm, ⟨76, _⟩ => ⟨S100000x64, .f32⟩
  | .hbm, ⟨77, _⟩ => ⟨S100000x1, .f32⟩
  | .hbm, ⟨78, _⟩ => ⟨S4x25000x1, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x192, .f32⟩
  | .local _ .vmem, ⟨5, _⟩ => ⟨S192, .f32⟩
  | .local _ .vmem, ⟨6, _⟩ => ⟨S128x64, .f32⟩
  | .local _ .vmem, ⟨7, _⟩ => ⟨S64, .f32⟩
  | .local _ .vmem, ⟨8, _⟩ => ⟨S128x64, .f32⟩
  | .local _ .vmem, ⟨9, _⟩ => ⟨S64, .f32⟩
  | .local _ .vmem, ⟨10, _⟩ => ⟨S128x64, .f32⟩
  | .local _ .vmem, ⟨11, _⟩ => ⟨S64, .f32⟩
  | .local _ .vmem, ⟨12, _⟩ => ⟨S64x1, .f32⟩
  | .local _ .vmem, ⟨13, _⟩ => ⟨S1, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | _, _ => ⟨S4x25000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_c : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_4 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_c_7 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44_0 : Ref sig .tc := ⟨.hbm, 76, rfl⟩
abbrev main_v44_1 : Ref sig .tc := ⟨.hbm, 77, rfl⟩
abbrev main_v45 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S4x25000x64_S100000x64 : S4x25000x64.ShapeCasts S100000x64
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S64x64_S64x64_S64x64_S64x192_d1 : Shape.Concatenates [S64x64, S64x64, S64x64] S64x192 1
  concatenates_S64_S64_S64_S192_d0 : Shape.Concatenates [S64, S64, S64] S192 0
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  bitsLt_bf16_f32 : FTy.bits .bf16 < FTy.bits .f32
  inb_S192_S192_0 : ∀ a, (![0] : Fin 1 → Nat) a + S192.size a ≤ S192.size a
  h_S192 : 0 < S192.numel
  shapeCasts_S192_S192 : S192.ShapeCasts S192
  slices_S2000x192_o0_0_S2000x64 : S2000x192.Slices ![0, 0] S2000x64
  slices_S192_o0_S64 : S192.Slices ![0] S64
  shapeCasts_S64_S1x64 : S64.ShapeCasts S1x64
  broadcasts_S1x64_S2000x64 : S1x64.Broadcasts S2000x64
  slices_S2000x192_o0_64_S2000x64 : S2000x192.Slices ![0, 64] S2000x64
  slices_S192_o64_S64 : S192.Slices ![64] S64
  slices_S2000x192_o0_128_S2000x64 : S2000x192.Slices ![0, 128] S2000x64
  slices_S192_o128_S64 : S192.Slices ![128] S64
  concatenates_S2000x64_S2000x64_S2000x128_d1 : Shape.Concatenates [S2000x64, S2000x64] S2000x128 1
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S4x25000x1 : S100000x1.ShapeCasts S4x25000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x192_S2000x192_1_0_0_1_n_n_wf : DotDims.WF S2000x64 S64x192 S2000x192 [1] [0] [0] [1] [] []
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x192.size a ≤ S64x192.size a
  hwx0_2 : ∀ i : grid0.Coords, EltTy.bits .f32 = 32 ∨ (Rect.block (s := S64x192) S64x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192.size a ≤ S192.size a
  hwx0_3 : ∀ i : grid0.Coords, EltTy.bits .f32 = 32 ∨ (Rect.block (s := S192) S192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S64x1.size a
  hwx0_10 : ∀ i : grid0.Coords, EltTy.bits .f32 = 32 ∨ (Rect.block (s := S64x1) S64x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x64.size a ≤ S100000x64.size a
  hwx0_12 : ∀ i : grid0.Coords, EltTy.bits .f32 = 32 ∨ (Rect.block (s := S100000x64) S2000x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x1.size a ≤ S100000x1.size a
  hwx0_13 : ∀ i : grid0.Coords, EltTy.bits .f32 = 32 ∨ (Rect.block (s := S100000x1) S2000x1.size (cc0_transform_13 i) (hinb0_13 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v41) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S64x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg16) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S64x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg18) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v44_0) S2000x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v44_1) S2000x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4x25000x64 : Shape := ⟨3, ![4, 25000, 64]⟩
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x128 : Shape := ⟨2, ![100000, 128]⟩
abbrev S100000x1 : Shape := ⟨2, ![100000, 1]⟩
abbrev S1x1 : Shape := ⟨2, ![1, 1]⟩
abbrev S4x25000x1 : Shape := ⟨3, ![4, 25000, 1]⟩

abbrev nBuf : Space → Nat
  | .hbm => 241
  | .vmem => 0
  | .smem => 0
  | _ => 0

abbrev hbmTy0_0 (i : Nat) : BufTy := match i % 128 with
  | 0 => ⟨S4x25000x64, .f32⟩
  | 1 => ⟨S1600000, .i32⟩
  | 2 => ⟨S1600000, .i32⟩
  | 3 => ⟨S1600000, .f32⟩
  | 4 => ⟨S100000x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S128x64, .f32⟩
  | 12 => ⟨S64, .f32⟩
  | 13 => ⟨S128x64, .f32⟩
  | 14 => ⟨S64, .f32⟩
  | 15 => ⟨S128x64, .f32⟩
  | 16 => ⟨S64, .f32⟩
  | 17 => ⟨S64x1, .f32⟩
  | 18 => ⟨S1, .f32⟩
  | 19 => ⟨S100000x64, .f32⟩
  | 20 => ⟨S100000, .i32⟩
  | 21 => ⟨S1700000, .i32⟩
  | 22 => ⟨S1700000, .i32⟩
  | 23 => ⟨S_, .f32⟩
  | 24 => ⟨S100000, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x64, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x64, .f32⟩
  | 68 => ⟨S1700000x1, .f32⟩
  | 69 => ⟨S1700000x64, .f32⟩
  | 70 => ⟨S1700000x64, .f32⟩
  | 71 => ⟨S_, .f32⟩
  | 72 => ⟨S100000x64, .f32⟩
  | 73 => ⟨S1700000x1, .i32⟩
  | 74 => ⟨S100000x64, .f32⟩
  | 75 => ⟨S1x64, .f32⟩
  | 76 => ⟨S100000x64, .f32⟩
  | 77 => ⟨S100000x64, .f32⟩
  | 78 => ⟨S100000x128, .f32⟩
  | 79 => ⟨S100000x64, .f32⟩
  | 80 => ⟨S1x64, .f32⟩
  | 81 => ⟨S100000x64, .f32⟩
  | 82 => ⟨S100000x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000, .i32⟩
  | 92 => ⟨S1700000, .i32⟩
  | 93 => ⟨S1700000, .i32⟩
  | 94 => ⟨S_, .f32⟩
  | 95 => ⟨S100000, .f32⟩
  | 96 => ⟨S1700000, .f32⟩
  | 97 => ⟨S_, .f32⟩
  | 98 => ⟨S100000, .f32⟩
  | 99 => ⟨S1700000x1, .i32⟩
  | 100 => ⟨S100000, .f32⟩
  | 101 => ⟨S_, .f32⟩
  | 102 => ⟨S100000, .f32⟩
  | 103 => ⟨S100000, .i1⟩
  | 104 => ⟨S100000, .f32⟩
  | 105 => ⟨S_, .f32⟩
  | 106 => ⟨S_, .f32⟩
  | 107 => ⟨S100000, .f32⟩
  | 108 => ⟨S100000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000, .f32⟩
  | _ => ⟨S4x25000x64, .f32⟩

abbrev hbmTy0_1 (i : Nat) : BufTy := match i % 128 with
  | 0 => ⟨S1700000, .f32⟩
  | 1 => ⟨S100000x64, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x64, .f32⟩
  | 11 => ⟨S1700000x1, .f32⟩
  | 12 => ⟨S1700000x64, .f32⟩
  | 13 => ⟨S1700000x64, .f32⟩
  | 14 => ⟨S_, .f32⟩
  | 15 => ⟨S100000x64, .f32⟩
  | 16 => ⟨S1700000x1, .i32⟩
  | 17 => ⟨S100000x64, .f32⟩
  | 18 => ⟨S1x64, .f32⟩
  | 19 => ⟨S100000x64, .f32⟩
  | 20 => ⟨S100000x64, .f32⟩
  | 21 => ⟨S100000x128, .f32⟩
  | 22 => ⟨S100000x64, .f32⟩
  | 23 => ⟨S1x64, .f32⟩
  | 24 => ⟨S100000x64, .f32⟩
  | 25 => ⟨S100000x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S100000, .i32⟩
  | 35 => ⟨S1700000, .i32⟩
  | 36 => ⟨S1700000, .i32⟩
  | 37 => ⟨S_, .f32⟩
  | 38 => ⟨S100000, .f32⟩
  | 39 => ⟨S1700000, .f32⟩
  | 40 => ⟨S_, .f32⟩
  | 41 => ⟨S100000, .f32⟩
  | 42 => ⟨S1700000x1, .i32⟩
  | 43 => ⟨S100000, .f32⟩
  | 44 => ⟨S_, .f32⟩
  | 45 => ⟨S100000, .f32⟩
  | 46 => ⟨S100000, .i1⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000, .f32⟩
  | 71 => ⟨S1700000, .f32⟩
  | 72 => ⟨S100000x64, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x64, .f32⟩
  | 82 => ⟨S1700000x1, .f32⟩
  | 83 => ⟨S1700000x64, .f32⟩
  | 84 => ⟨S1700000x64, .f32⟩
  | 85 => ⟨S_, .f32⟩
  | 86 => ⟨S100000x64, .f32⟩
  | 87 => ⟨S1700000x1, .i32⟩
  | 88 => ⟨S100000x64, .f32⟩
  | 89 => ⟨S1x64, .f32⟩
  | 90 => ⟨S100000x64, .f32⟩
  | 91 => ⟨S100000x64, .f32⟩
  | 92 => ⟨S100000x64, .f32⟩
  | 93 => ⟨S100000x128, .f32⟩
  | 94 => ⟨S100000x64, .f32⟩
  | 95 => ⟨S1x64, .f32⟩
  | 96 => ⟨S100000x64, .f32⟩
  | 97 => ⟨S100000x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S100000x1, .f32⟩
  | 109 => ⟨S1x1, .f32⟩
  | 110 => ⟨S100000x1, .f32⟩
  | 111 => ⟨S100000x1, .f32⟩
  | 112 => ⟨S4x25000x1, .f32⟩
  | _ => ⟨S4x25000x64, .f32⟩

abbrev hbmTy (i : Nat) : BufTy := match i / 128 with
  | 0 => hbmTy0_0 i
  | 1 => hbmTy0_1 i
  | _ => ⟨S4x25000x64, .f32⟩

abbrev bufTy : (tb : Table) → Fin (tcTables nBuf tb) → BufTy
  | .hbm, ⟨i, _⟩ => hbmTy i
  | _, _ => ⟨S4x25000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_c : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_4 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_11 : Ref sig .tc := ⟨.hbm, 94, rfl⟩
abbrev main_v60 : Ref sig .tc := ⟨.hbm, 95, rfl⟩
abbrev main_v61 : Ref sig .tc := ⟨.hbm, 96, rfl⟩
abbrev main_cst_12 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_14 : Ref sig .tc := ⟨.hbm, 105, rfl⟩
abbrev main_call1_v0 : Ref sig .tc := ⟨.hbm, 106, rfl⟩
abbrev main_call1_v1 : Ref sig .tc := ⟨.hbm, 107, rfl⟩
abbrev main_v68 : Ref sig .tc := ⟨.hbm, 108, rfl⟩
abbrev main_c_15 : Ref sig .tc := ⟨.hbm, 109, rfl⟩
abbrev main_v69 : Ref sig .tc := ⟨.hbm, 110, rfl⟩
abbrev main_v70 : Ref sig .tc := ⟨.hbm, 111, rfl⟩
abbrev main_c_16 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_17 : Ref sig .tc := ⟨.hbm, 119, rfl⟩
abbrev main_v77 : Ref sig .tc := ⟨.hbm, 120, rfl⟩
abbrev main_v78 : Ref sig .tc := ⟨.hbm, 121, rfl⟩
abbrev main_c_18 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_19 : Ref sig .tc := ⟨.hbm, 130, rfl⟩
abbrev main_v86 : Ref sig .tc := ⟨.hbm, 131, rfl⟩
abbrev main_v87 : Ref sig .tc := ⟨.hbm, 132, rfl⟩
abbrev main_c_20 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_21 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_22 : Ref sig .tc := ⟨.hbm, 156, rfl⟩
abbrev main_v109 : Ref sig .tc := ⟨.hbm, 157, rfl⟩
abbrev main_v110 : Ref sig .tc := ⟨.hbm, 158, rfl⟩
abbrev main_cst_23 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_24 : Ref sig .tc := ⟨.hbm, 165, rfl⟩
abbrev main_v116 : Ref sig .tc := ⟨.hbm, 166, rfl⟩
abbrev main_v117 : Ref sig .tc := ⟨.hbm, 167, rfl⟩
abbrev main_cst_25 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_26 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_27 : Ref sig .tc := ⟨.hbm, 176, rfl⟩
abbrev main_call2_v0 : Ref sig .tc := ⟨.hbm, 177, rfl⟩
abbrev main_call2_v1 : Ref sig .tc := ⟨.hbm, 178, rfl⟩
abbrev main_v124 : Ref sig .tc := ⟨.hbm, 179, rfl⟩
abbrev main_c_28 : Ref sig .tc := ⟨.hbm, 180, rfl⟩
abbrev main_v125 : Ref sig .tc := ⟨.hbm, 181, rfl⟩
abbrev main_v126 : Ref sig .tc := ⟨.hbm, 182, rfl⟩
abbrev main_c_29 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_c_30 : Ref sig .tc := ⟨.hbm, 190, rfl⟩
abbrev main_v133 : Ref sig .tc := ⟨.hbm, 191, rfl⟩
abbrev main_v134 : Ref sig .tc := ⟨.hbm, 192, rfl⟩
abbrev main_c_31 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_c_32 : Ref sig .tc := ⟨.hbm, 201, rfl⟩
abbrev main_v142 : Ref sig .tc := ⟨.hbm, 202, rfl⟩
abbrev main_v143 : Ref sig .tc := ⟨.hbm, 203, rfl⟩
abbrev main_c_33 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_cst_34 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_cst_35 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_call3_cst : Ref sig .tc := ⟨.hbm, 233, rfl⟩
abbrev main_call3_v0 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩

abbrev nD : Nat := 1
abbrev τ : Topo := Topo.v7x

variable {F : FTy → Type} [FloatOps F]

class Facts₀ : Prop where
  shapeCasts_S4x25000x64_S100000x64 : S4x25000x64.ShapeCasts S100000x64
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S4x25000x1 : S100000x1.ShapeCasts S4x25000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRunHost.lean ====
/- The entry function of the program is a stretch of host operations, one pipelined region, and one more host
   operation.  This module fixes what every buffer of a core holds when the region is entered (the launch memory
   folded through the host operations before the region), shows that the entry function is that region continued by
   the last host operation, that no host operation before the region writes an argument array, that the one after
   it writes neither an argument array nor an array the pipeline stages, and reads the statement "every argument
   array ends as it was launched" off the library's description of the final memory: a staged input array is never
   written back, and an array the region bypasses ends as the last host operation leaves it. -/
import proofs.«162937_j28424093565280_2_alg».proof.Proof.Gen.Kernel.Launch
import proofs.«162937_j28424093565280_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ) (ρ : Dev nD → PrngReg)

/-! ## The entry function around the region -/

/-- What core `c`'s buffers hold when the region is entered: the launch memory after the three stretches of host
    operations that precede it. -/
abbrev V0 (c : Dev nD) : Valuation τ sig (Elt F) := StableHlo.after (List.flatten [Gen.hostOps0, Gen.hostOps0_1, Gen.hostOps0_2]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is: the host operations before the region, which take the launch memory to `V`; the region;
    the host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operation after the region touches unscoped TensorCore buffers only: the pipeline's arrays and the buffers
    that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays at the region's entry and after the last host operation -/

/-- Every host operation before the region writes a buffer of its own, never `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg12`. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg13`. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg14`. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg15`. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg16`. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg17`. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg18`. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the one after it: `main_arg0`, which no window stages, ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the one after it: `main_arg1`, which no window stages, ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the one after it: `main_arg2`, which no window stages, ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the one after it: `main_arg3`, which no window stages, ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the one after it: `main_arg5`, which no window stages, ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does the one after it: `main_arg6`, which no window stages, ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does the one after it: `main_arg7`, which no window stages, ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nor does the one after it: `main_arg8`, which no window stages, ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nor does the one after it: `main_arg9`, which no window stages, ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Nor does the one after it: `main_arg10`, which no window stages, ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not the pipeline fetched it
    there, for any proof data whose array is the region-entry contents and whose body leaves the block in place:
    where it is not fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not the pipeline fetched it
    there, for any proof data whose array is the region-entry contents and whose body leaves the block in place:
    where it is not fetched the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether or not the pipeline fetched it
    there, for any proof data whose array is the region-entry contents and whose body leaves the block in place:
    where it is not fetched the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether or not the pipeline fetched it
    there, for any proof data whose array is the region-entry contents and whose body leaves the block in place:
    where it is not fetched the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether or not the pipeline fetched it
    there, for any proof data whose array is the region-entry contents and whose body leaves the block in place:
    where it is not fetched the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether or not the pipeline fetched it
    there, for any proof data whose array is the region-entry contents and whose body leaves the block in place:
    where it is not fetched the block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether or not the pipeline fetched it
    there, for any proof data whose array is the region-entry contents and whose body leaves the block in place:
    where it is not fetched the block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether or not the pipeline fetched it
    there, for any proof data whose array is the region-entry contents and whose body leaves the block in place:
    where it is not fetched the block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether or not the pipeline fetched it
    there, for any proof data whose array is the region-entry contents and whose body leaves the block in place:
    where it is not fetched the block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, whether or not the pipeline fetched it
    there, for any proof data whose array is the region-entry contents and whose body leaves the block in place:
    where it is not fetched the block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, whether or not the pipeline fetched it
    there, for any proof data whose array is the region-entry contents and whose body leaves the block in place:
    where it is not fetched the block index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, whether or not the pipeline fetched it
    there, for any proof data whose array is the region-entry contents and whose body leaves the block in place:
    where it is not fetched the block index has not moved. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame's postcondition from the library's -/

/-- At one final state: for any proof data whose arrays are the region-entry contents, a memory the library's
    description of the end of the run holds of has every argument array as launched.  A staged input's array is never
    written back, so it ends at its entry contents, which are the launch contents; an argument the region bypasses
    ends as the last host operation leaves it, which is again as launched. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) :
    ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  fun c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 1).trans (((dats 0 c).arrAt_in 1 rfl _).trans ((hA c 1).trans (V_main_arg4 m c))),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      ((h c).1 4).trans (((dats 0 c).arrAt_in 4 rfl _).trans ((hA c 4).trans (V_main_arg11 m c))),
      ((h c).1 5).trans (((dats 0 c).arrAt_in 5 rfl _).trans ((hA c 5).trans (V_main_arg12 m c))),
      ((h c).1 6).trans (((dats 0 c).arrAt_in 6 rfl _).trans ((hA c 6).trans (V_main_arg13 m c))),
      ((h c).1 7).trans (((dats 0 c).arrAt_in 7 rfl _).trans ((hA c 7).trans (V_main_arg14 m c))),
      ((h c).1 8).trans (((dats 0 c).arrAt_in 8 rfl _).trans ((hA c 8).trans (V_main_arg15 m c))),
      ((h c).1 9).trans (((dats 0 c).arrAt_in 9 rfl _).trans ((hA c 9).trans (V_main_arg16 m c))),
      ((h c).1 10).trans (((dats 0 c).arrAt_in 10 rfl _).trans ((hA c 10).trans (V_main_arg17 m c))),
      ((h c).1 11).trans (((dats 0 c).arrAt_in 11 rfl _).trans ((hA c 11).trans (V_main_arg18 m c)))⟩

/-- So a run ending in the library's description of the final memory is a run leaving every argument array as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h => args_of_post m dats hA r h) h

end Cert.Kernel.Hand

end
-- ==== Proof.KernelRunBody.lean ====
/- One run of the kernel function on whole staging buffers.  The function loads each of its twelve input buffers
   whole, computes the gated recurrent update and the linear head from what it read, and stores each result over
   the whole of its output buffer (after a load of that buffer whose value it never uses).  So from the inputs'
   buffers at contents x0 … x11 and the outputs' buffers at anything, it ends with the inputs' buffers as they
   were and each output's buffer holding the stored value as a function of x0 … x11 alone. -/
import proofs.«162937_j28424093565280_2_alg».proof.Proof.Gen.Kernel.Skeleton
import proofs.«162937_j28424093565280_2_alg».proof.Proof.KernelRunHost
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The rectangles of the body's loads and stores: each is the whole of its buffer -/

theorem zeros1 : (![0] : Fin 1 → Nat) = fun _ => 0 := by funext a; fin_cases a <;> rfl
theorem zeros2 : (![0, 0] : Fin 2 → Nat) = fun _ => 0 := by funext a; fin_cases a <;> rfl
abbrev r_S2000x64 : Rect S2000x64 := Rect.unit (s := S2000x64) ![0, 0] S2000x64.size inb_S2000x64_S2000x64_0_0
abbrev r_S64x192 : Rect S64x192 := Rect.unit (s := S64x192) ![0, 0] S64x192.size inb_S64x192_S64x192_0_0
abbrev r_S192 : Rect S192 := Rect.unit (s := S192) ![0] S192.size inb_S192_S192_0
abbrev r_S128x64 : Rect S128x64 := Rect.unit (s := S128x64) ![0, 0] S128x64.size inb_S128x64_S128x64_0_0
abbrev r_S64 : Rect S64 := Rect.unit (s := S64) ![0] S64.size inb_S64_S64_0
abbrev r_S64x1 : Rect S64x1 := Rect.unit (s := S64x1) ![0, 0] S64x1.size inb_S64x1_S64x1_0_0
abbrev r_S1 : Rect S1 := Rect.unit (s := S1) ![0] S1.size inb_S1_S1_0
abbrev r_S2000x1 : Rect S2000x1 := Rect.unit (s := S2000x1) ![0, 0] S2000x1.size inb_S2000x1_S2000x1_0_0

/-! ## What the body leaves in each output buffer -/

/-- The first output's buffer after the body: its one store, over the whole buffer, of the new hidden state computed
    from what the loads read of the inputs. -/
def outc12 (x0 : Vec F S2000x64 .f32) (x1 : Vec F S2000x64 .f32) (x2 : Vec F S64x192 .f32) (x3 : Vec F S192 .f32) (x4 : Vec F S128x64 .f32) (x5 : Vec F S64 .f32) (x6 : Vec F S128x64 .f32) (x7 : Vec F S64 .f32) (x8 : Vec F S128x64 .f32) (x9 : Vec F S64 .f32) (x10 : Vec F S64x1 .f32) (x11 : Vec F S1 .f32) : Vec F S2000x64 .f32 :=
  View.canon [⟨r_S2000x64, k0_pay1 (View.ld x1 r_S2000x64) (k0_pay5 (View.ld x0 r_S2000x64) (View.ld x2 r_S64x192) (View.ld x3 r_S192)) (k0_pay6 (View.ld x0 r_S2000x64) (View.ld x1 r_S2000x64) (View.ld x2 r_S64x192) (View.ld x3 r_S192) (View.ld x4 r_S128x64) (View.ld x5 r_S64)) (k0_pay7 (View.ld x0 r_S2000x64) (View.ld x1 r_S2000x64) (View.ld x2 r_S64x192) (View.ld x3 r_S192) (View.ld x6 r_S128x64)) (k0_pay8 (View.ld x7 r_S64)) (View.ld x8 r_S128x64) (View.ld x9 r_S64)⟩]

/-- The second output's buffer after the body: its one store, over the whole buffer, of the head's value. -/
def outc13 (x0 : Vec F S2000x64 .f32) (x1 : Vec F S2000x64 .f32) (x2 : Vec F S64x192 .f32) (x3 : Vec F S192 .f32) (x4 : Vec F S128x64 .f32) (x5 : Vec F S64 .f32) (x6 : Vec F S128x64 .f32) (x7 : Vec F S64 .f32) (x8 : Vec F S128x64 .f32) (x9 : Vec F S64 .f32) (x10 : Vec F S64x1 .f32) (x11 : Vec F S1 .f32) : Vec F S2000x1 .f32 :=
  View.canon [⟨r_S2000x1, k0_pay2 (View.ld x1 r_S2000x64) (k0_pay5 (View.ld x0 r_S2000x64) (View.ld x2 r_S64x192) (View.ld x3 r_S192)) (k0_pay6 (View.ld x0 r_S2000x64) (View.ld x1 r_S2000x64) (View.ld x2 r_S64x192) (View.ld x3 r_S192) (View.ld x4 r_S128x64) (View.ld x5 r_S64)) (k0_pay7 (View.ld x0 r_S2000x64) (View.ld x1 r_S2000x64) (View.ld x2 r_S64x192) (View.ld x3 r_S192) (View.ld x6 r_S128x64)) (k0_pay8 (View.ld x7 r_S64)) (View.ld x8 r_S128x64) (View.ld x9 r_S64) (View.ld x10 r_S64x1) (View.ld x11 r_S1)⟩]

/-- A load of a whole buffer reads its contents and a store over a whole buffer leaves the stored value: so the first
    output's buffer holds the new hidden state as a function of the inputs' contents. -/
theorem outc12_eq (x0 : Vec F S2000x64 .f32) (x1 : Vec F S2000x64 .f32) (x2 : Vec F S64x192 .f32) (x3 : Vec F S192 .f32) (x4 : Vec F S128x64 .f32) (x5 : Vec F S64 .f32) (x6 : Vec F S128x64 .f32) (x7 : Vec F S64 .f32) (x8 : Vec F S128x64 .f32) (x9 : Vec F S64 .f32) (x10 : Vec F S64x1 .f32) (x11 : Vec F S1 .f32) :
    outc12 x0 x1 x2 x3 x4 x5 x6 x7 x8 x9 x10 x11 = k0_pay1 x1 (k0_pay5 x0 x2 x3) (k0_pay6 x0 x1 x2 x3 x4 x5) (k0_pay7 x0 x1 x2 x3 x6) (k0_pay8 x7) x8 x9 := by
  unfold outc12
  rw [View.canon_unit_zero (S := S2000x64) zeros2 inb_S2000x64_S2000x64_0_0]
  simp only [View.ld_unit_zero (S := S2000x64) zeros2 inb_S2000x64_S2000x64_0_0, View.ld_unit_zero (S := S64x192) zeros2 inb_S64x192_S64x192_0_0, View.ld_unit_zero (S := S192) zeros1 inb_S192_S192_0, View.ld_unit_zero (S := S128x64) zeros2 inb_S128x64_S128x64_0_0, View.ld_unit_zero (S := S64) zeros1 inb_S64_S64_0, View.ld_unit_zero (S := S64x1) zeros2 inb_S64x1_S64x1_0_0, View.ld_unit_zero (S := S1) zeros1 inb_S1_S1_0, View.ld_unit_zero (S := S2000x1) zeros2 inb_S2000x1_S2000x1_0_0]

/-- Likewise the second output's buffer holds the head's value as a function of the inputs' contents. -/
theorem outc13_eq (x0 : Vec F S2000x64 .f32) (x1 : Vec F S2000x64 .f32) (x2 : Vec F S64x192 .f32) (x3 : Vec F S192 .f32) (x4 : Vec F S128x64 .f32) (x5 : Vec F S64 .f32) (x6 : Vec F S128x64 .f32) (x7 : Vec F S64 .f32) (x8 : Vec F S128x64 .f32) (x9 : Vec F S64 .f32) (x10 : Vec F S64x1 .f32) (x11 : Vec F S1 .f32) :
    outc13 x0 x1 x2 x3 x4 x5 x6 x7 x8 x9 x10 x11 = k0_pay2 x1 (k0_pay5 x0 x2 x3) (k0_pay6 x0 x1 x2 x3 x4 x5) (k0_pay7 x0 x1 x2 x3 x6) (k0_pay8 x7) x8 x9 x10 x11 := by
  unfold outc13
  rw [View.canon_unit_zero (S := S2000x1) zeros2 inb_S2000x1_S2000x1_0_0]
  simp only [View.ld_unit_zero (S := S2000x64) zeros2 inb_S2000x64_S2000x64_0_0, View.ld_unit_zero (S := S64x192) zeros2 inb_S64x192_S64x192_0_0, View.ld_unit_zero (S := S192) zeros1 inb_S192_S192_0, View.ld_unit_zero (S := S128x64) zeros2 inb_S128x64_S128x64_0_0, View.ld_unit_zero (S := S64) zeros1 inb_S64_S64_0, View.ld_unit_zero (S := S64x1) zeros2 inb_S64x1_S64x1_0_0, View.ld_unit_zero (S := S1) zeros1 inb_S1_S1_0, View.ld_unit_zero (S := S2000x1) zeros2 inb_S2000x1_S2000x1_0_0]

/-! ## The body's triple -/

set_option maxHeartbeats 1000000 in
/-- The kernel function on whole staging buffers, the inputs' at contents `x0 … x11` and the outputs' at anything,
    runs to the continuation with the inputs' buffers as they were and the outputs' at `outc12`, `outc13` of the
    inputs' contents. -/
theorem sound_kernel (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S64x192 .f32) (harg3 : arg3.IsWhole) (arg4 : Memref sig .tc .vmem S192 .f32) (harg4 : arg4.IsWhole) (arg5 : Memref sig .tc .vmem S128x64 .f32) (harg5 : arg5.IsWhole) (arg6 : Memref sig .tc .vmem S64 .f32) (harg6 : arg6.IsWhole) (arg7 : Memref sig .tc .vmem S128x64 .f32) (harg7 : arg7.IsWhole) (arg8 : Memref sig .tc .vmem S64 .f32) (harg8 : arg8.IsWhole) (arg9 : Memref sig .tc .vmem S128x64 .f32) (harg9 : arg9.IsWhole) (arg10 : Memref sig .tc .vmem S64 .f32) (harg10 : arg10.IsWhole) (arg11 : Memref sig .tc .vmem S64x1 .f32) (harg11 : arg11.IsWhole) (arg12 : Memref sig .tc .vmem S1 .f32) (harg12 : arg12.IsWhole) (arg13 : Memref sig .tc .vmem S2000x64 .f32) (harg13 : arg13.IsWhole) (arg14 : Memref sig .tc .vmem S2000x1 .f32) (harg14 : arg14.IsWhole)
    (x0 : Vec F S2000x64 .f32) (x1 : Vec F S2000x64 .f32) (x2 : Vec F S64x192 .f32) (x3 : Vec F S192 .f32) (x4 : Vec F S128x64 .f32) (x5 : Vec F S64 .f32) (x6 : Vec F S128x64 .f32) (x7 : Vec F S64 .f32) (x8 : Vec F S128x64 .f32) (x9 : Vec F S64 .f32) (x10 : Vec F S64x1 .f32) (x11 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (outc12 x0 x1 x2 x3 x4 x5 x6 x7 x8 x9 x10 x11)
            ∗ owns (c : Thread nD τ) arg14 fullShare (outc13 x0 x1 x2 x3 x4 x5 x6 x7 x8 x9 x10 x11)) -∗ K ⟨⟩))
      ⊢ wp frame (wpE (defs₀ (F := F)) Variants.none c none) E (cc0__gru_head_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gru_head_kernel_eq_skeleton]; unfold cc0__gru_head_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (fun y => ⟨_, List.mem_singleton_self _, View.mem_set_unit_zero (S := S2000x64) zeros2 inb_S2000x64_S2000x64_0_0 y⟩)
  iexists _; isplitr
  swap; · iexact H13
  ipureintro
  exact View.read_writes_eq_canon _ _ _ (fun y => ⟨_, List.mem_singleton_self _, View.mem_set_unit_zero (S := S2000x1) zeros2 inb_S2000x1_S2000x1_0_0 y⟩)

end Cert.Kernel.Hand

end
-- ==== Proof.KernelRun.lean ====
/- The frame run of the program.  The proof data of its one pipeline say: each array starts at what the host
   operations before the region left; after the body at a grid point each input window's staging buffer still holds
   that window's block and each output window's buffer holds the value the body stored, a function of the twelve
   input blocks at the point.  The body meets its obligation at every point because every input buffer holds its
   block there, fetched at the point or not.  The library's launch theorem then gives that every fair execution of
   the entry function terminates without fault in a memory it describes, from which every argument array is read
   back as launched. -/
import proofs.«162937_j28424093565280_2_alg».proof.Proof.KernelRunHost
import proofs.«162937_j28424093565280_2_alg».proof.Proof.KernelRunBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline on core `c`: the arrays as the region finds them; after the body at point `t` each
    input's buffer at its block and each output's at the stored value over the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => k0_pay1 (iblk m c 1 t) (k0_pay5 (iblk m c 0 t) (iblk m c 2 t) (iblk m c 3 t)) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 6 t)) (k0_pay8 (iblk m c 7 t)) (iblk m c 8 t) (iblk m c 9 t)
    | ⟨13, _⟩ => k0_pay2 (iblk m c 1 t) (k0_pay5 (iblk m c 0 t) (iblk m c 2 t) (iblk m c 3 t)) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 6 t)) (k0_pay8 (iblk m c 7 t)) (iblk m c 8 t) (iblk m c 9 t) (iblk m c 10 t) (iblk m c 11 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = k0_pay1 (iblk m c 1 t) (k0_pay5 (iblk m c 0 t) (iblk m c 2 t) (iblk m c 3 t)) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 6 t)) (k0_pay8 (iblk m c 7 t)) (iblk m c 8 t) (iblk m c 9 t) := by dsimp only [dats]
theorem after13 (c : Dev nD) (t : Fin cfg0.N) : (dats m 0 c).after 13 t = k0_pay2 (iblk m c 1 t) (k0_pay5 (iblk m c 0 t) (iblk m c 2 t) (iblk m c 3 t)) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 6 t)) (k0_pay8 (iblk m c 7 t)) (iblk m c 8 t) (iblk m c 9 t) (iblk m c 10 t) (iblk m c 11 t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13,
    ← outc12_eq, ← outc13_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the entry function on the TensorCores
    terminates, and every final state has every array of the pipeline at what the library computes from the proof
    data and every other unscoped buffer as the host operation after the region leaves it. -/
theorem run_main : θ_run defs (onTc (τ := τ) (main (F := F))) (s₀ m ρ) (Pipeline.FramePost cfgs (dats m) 0 (Pipeline.afterTail₀ cfgs (dats m) 0 (V0 m) [Gen.hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.KernelIdealRunHost.lean ====
/- The entry function of the program is a stretch of host operations, one pipelined region, and one more host
   operation.  This module fixes what every buffer of a core holds when the region is entered (the launch memory
   folded through the host operations before the region), shows that the entry function is that region continued by
   the last host operation, that no host operation before the region writes an argument array, that the one after
   it writes neither an argument array nor an array the pipeline stages, and reads the statement "every argument
   array ends as it was launched" off the library's description of the final memory: a staged input array is never
   written back, and an array the region bypasses ends as the last host operation leaves it. -/
import proofs.«162937_j28424093565280_2_alg».proof.Proof.Gen.KernelIdeal.Launch
import proofs.«162937_j28424093565280_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The entry function around the region -/

/-- What core `c`'s buffers hold when the region is entered: the launch memory after the three stretches of host
    operations that precede it. -/
abbrev V0 (c : Dev nD) : Valuation τ sig (Elt F) := StableHlo.after (List.flatten [Gen.hostOps0, Gen.hostOps0_1, Gen.hostOps0_2]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is: the host operations before the region, which take the launch memory to `V`; the region;
    the host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operation after the region touches unscoped TensorCore buffers only: the pipeline's arrays and the buffers
    that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays at the region's entry and after the last host operation -/

/-- Every host operation before the region writes a buffer of its own, never `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg12`. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg13`. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg14`. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg15`. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg16`. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg17`. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Every host operation before the region writes a buffer of its own, never `main_arg18`. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the one after it: `main_arg0`, which no window stages, ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the one after it: `main_arg1`, which no window stages, ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the one after it: `main_arg2`, which no window stages, ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the one after it: `main_arg3`, which no window stages, ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the one after it: `main_arg5`, which no window stages, ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does the one after it: `main_arg6`, which no window stages, ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does the one after it: `main_arg7`, which no window stages, ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nor does the one after it: `main_arg8`, which no window stages, ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nor does the one after it: `main_arg9`, which no window stages, ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Nor does the one after it: `main_arg10`, which no window stages, ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not the pipeline fetched it
    there, for any proof data whose array is the region-entry contents and whose body leaves the block in place:
    where it is not fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not the pipeline fetched it
    there, for any proof data whose array is the region-entry contents and whose body leaves the block in place:
    where it is not fetched the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether or not the pipeline fetched it
    there, for any proof data whose array is the region-entry contents and whose body leaves the block in place:
    where it is not fetched the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether or not the pipeline fetched it
    there, for any proof data whose array is the region-entry contents and whose body leaves the block in place:
    where it is not fetched the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether or not the pipeline fetched it
    there, for any proof data whose array is the region-entry contents and whose body leaves the block in place:
    where it is not fetched the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether or not the pipeline fetched it
    there, for any proof data whose array is the region-entry contents and whose body leaves the block in place:
    where it is not fetched the block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether or not the pipeline fetched it
    there, for any proof data whose array is the region-entry contents and whose body leaves the block in place:
    where it is not fetched the block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether or not the pipeline fetched it
    there, for any proof data whose array is the region-entry contents and whose body leaves the block in place:
    where it is not fetched the block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether or not the pipeline fetched it
    there, for any proof data whose array is the region-entry contents and whose body leaves the block in place:
    where it is not fetched the block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, whether or not the pipeline fetched it
    there, for any proof data whose array is the region-entry contents and whose body leaves the block in place:
    where it is not fetched the block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, whether or not the pipeline fetched it
    there, for any proof data whose array is the region-entry contents and whose body leaves the block in place:
    where it is not fetched the block index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, whether or not the pipeline fetched it
    there, for any proof data whose array is the region-entry contents and whose body leaves the block in place:
    where it is not fetched the block index has not moved. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame's postcondition from the library's -/

/-- At one final state: for any proof data whose arrays are the region-entry contents, a memory the library's
    description of the end of the run holds of has every argument array as launched.  A staged input's array is never
    written back, so it ends at its entry contents, which are the launch contents; an argument the region bypasses
    ends as the last host operation leaves it, which is again as launched. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) :
    ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  fun c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 1).trans (((dats 0 c).arrAt_in 1 rfl _).trans ((hA c 1).trans (V_main_arg4 m c))),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      ((h c).1 4).trans (((dats 0 c).arrAt_in 4 rfl _).trans ((hA c 4).trans (V_main_arg11 m c))),
      ((h c).1 5).trans (((dats 0 c).arrAt_in 5 rfl _).trans ((hA c 5).trans (V_main_arg12 m c))),
      ((h c).1 6).trans (((dats 0 c).arrAt_in 6 rfl _).trans ((hA c 6).trans (V_main_arg13 m c))),
      ((h c).1 7).trans (((dats 0 c).arrAt_in 7 rfl _).trans ((hA c 7).trans (V_main_arg14 m c))),
      ((h c).1 8).trans (((dats 0 c).arrAt_in 8 rfl _).trans ((hA c 8).trans (V_main_arg15 m c))),
      ((h c).1 9).trans (((dats 0 c).arrAt_in 9 rfl _).trans ((hA c 9).trans (V_main_arg16 m c))),
      ((h c).1 10).trans (((dats 0 c).arrAt_in 10 rfl _).trans ((hA c 10).trans (V_main_arg17 m c))),
      ((h c).1 11).trans (((dats 0 c).arrAt_in 11 rfl _).trans ((hA c 11).trans (V_main_arg18 m c)))⟩

/-- So a run ending in the library's description of the final memory is a run leaving every argument array as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h => args_of_post m dats hA r h) h

end Cert.KernelIdeal.Hand

end
-- ==== Proof.KernelIdealRunBody.lean ====
/- One run of the kernel function on whole staging buffers.  The function loads each of its twelve input buffers
   whole, computes the gated recurrent update and the linear head from what it read, and stores each result over
   the whole of its output buffer (after a load of that buffer whose value it never uses).  So from the inputs'
   buffers at contents x0 … x11 and the outputs' buffers at anything, it ends with the inputs' buffers as they
   were and each output's buffer holding the stored value as a function of x0 … x11 alone. -/
import proofs.«162937_j28424093565280_2_alg».proof.Proof.Gen.KernelIdeal.Skeleton
import proofs.«162937_j28424093565280_2_alg».proof.Proof.KernelIdealRunHost
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The rectangles of the body's loads and stores: each is the whole of its buffer -/

theorem zeros1 : (![0] : Fin 1 → Nat) = fun _ => 0 := by funext a; fin_cases a <;> rfl
theorem zeros2 : (![0, 0] : Fin 2 → Nat) = fun _ => 0 := by funext a; fin_cases a <;> rfl
abbrev r_S2000x64 : Rect S2000x64 := Rect.unit (s := S2000x64) ![0, 0] S2000x64.size inb_S2000x64_S2000x64_0_0
abbrev r_S64x192 : Rect S64x192 := Rect.unit (s := S64x192) ![0, 0] S64x192.size inb_S64x192_S64x192_0_0
abbrev r_S192 : Rect S192 := Rect.unit (s := S192) ![0] S192.size inb_S192_S192_0
abbrev r_S128x64 : Rect S128x64 := Rect.unit (s := S128x64) ![0, 0] S128x64.size inb_S128x64_S128x64_0_0
abbrev r_S64 : Rect S64 := Rect.unit (s := S64) ![0] S64.size inb_S64_S64_0
abbrev r_S64x1 : Rect S64x1 := Rect.unit (s := S64x1) ![0, 0] S64x1.size inb_S64x1_S64x1_0_0
abbrev r_S1 : Rect S1 := Rect.unit (s := S1) ![0] S1.size inb_S1_S1_0
abbrev r_S2000x1 : Rect S2000x1 := Rect.unit (s := S2000x1) ![0, 0] S2000x1.size inb_S2000x1_S2000x1_0_0

/-! ## What the body leaves in each output buffer -/

/-- The first output's buffer after the body: its one store, over the whole buffer, of the new hidden state computed
    from what the loads read of the inputs. -/
def outc12 (x0 : Vec F S2000x64 .f32) (x1 : Vec F S2000x64 .f32) (x2 : Vec F S64x192 .f32) (x3 : Vec F S192 .f32) (x4 : Vec F S128x64 .f32) (x5 : Vec F S64 .f32) (x6 : Vec F S128x64 .f32) (x7 : Vec F S64 .f32) (x8 : Vec F S128x64 .f32) (x9 : Vec F S64 .f32) (x10 : Vec F S64x1 .f32) (x11 : Vec F S1 .f32) : Vec F S2000x64 .f32 :=
  View.canon [⟨r_S2000x64, k0_pay1 (View.ld x1 r_S2000x64) (k0_pay5 (View.ld x0 r_S2000x64) (View.ld x2 r_S64x192) (View.ld x3 r_S192)) (k0_pay6 (View.ld x0 r_S2000x64) (View.ld x1 r_S2000x64) (View.ld x2 r_S64x192) (View.ld x3 r_S192) (View.ld x4 r_S128x64) (View.ld x5 r_S64)) (k0_pay7 (View.ld x0 r_S2000x64) (View.ld x1 r_S2000x64) (View.ld x2 r_S64x192) (View.ld x3 r_S192) (View.ld x6 r_S128x64)) (k0_pay8 (View.ld x7 r_S64)) (View.ld x8 r_S128x64) (View.ld x9 r_S64)⟩]

/-- The second output's buffer after the body: its one store, over the whole buffer, of the head's value. -/
def outc13 (x0 : Vec F S2000x64 .f32) (x1 : Vec F S2000x64 .f32) (x2 : Vec F S64x192 .f32) (x3 : Vec F S192 .f32) (x4 : Vec F S128x64 .f32) (x5 : Vec F S64 .f32) (x6 : Vec F S128x64 .f32) (x7 : Vec F S64 .f32) (x8 : Vec F S128x64 .f32) (x9 : Vec F S64 .f32) (x10 : Vec F S64x1 .f32) (x11 : Vec F S1 .f32) : Vec F S2000x1 .f32 :=
  View.canon [⟨r_S2000x1, k0_pay2 (View.ld x1 r_S2000x64) (k0_pay5 (View.ld x0 r_S2000x64) (View.ld x2 r_S64x192) (View.ld x3 r_S192)) (k0_pay6 (View.ld x0 r_S2000x64) (View.ld x1 r_S2000x64) (View.ld x2 r_S64x192) (View.ld x3 r_S192) (View.ld x4 r_S128x64) (View.ld x5 r_S64)) (k0_pay7 (View.ld x0 r_S2000x64) (View.ld x1 r_S2000x64) (View.ld x2 r_S64x192) (View.ld x3 r_S192) (View.ld x6 r_S128x64)) (k0_pay8 (View.ld x7 r_S64)) (View.ld x8 r_S128x64) (View.ld x9 r_S64) (View.ld x10 r_S64x1) (View.ld x11 r_S1)⟩]

/-- A load of a whole buffer reads its contents and a store over a whole buffer leaves the stored value: so the first
    output's buffer holds the new hidden state as a function of the inputs' contents. -/
theorem outc12_eq (x0 : Vec F S2000x64 .f32) (x1 : Vec F S2000x64 .f32) (x2 : Vec F S64x192 .f32) (x3 : Vec F S192 .f32) (x4 : Vec F S128x64 .f32) (x5 : Vec F S64 .f32) (x6 : Vec F S128x64 .f32) (x7 : Vec F S64 .f32) (x8 : Vec F S128x64 .f32) (x9 : Vec F S64 .f32) (x10 : Vec F S64x1 .f32) (x11 : Vec F S1 .f32) :
    outc12 x0 x1 x2 x3 x4 x5 x6 x7 x8 x9 x10 x11 = k0_pay1 x1 (k0_pay5 x0 x2 x3) (k0_pay6 x0 x1 x2 x3 x4 x5) (k0_pay7 x0 x1 x2 x3 x6) (k0_pay8 x7) x8 x9 := by
  unfold outc12
  rw [View.canon_unit_zero (S := S2000x64) zeros2 inb_S2000x64_S2000x64_0_0]
  simp only [View.ld_unit_zero (S := S2000x64) zeros2 inb_S2000x64_S2000x64_0_0, View.ld_unit_zero (S := S64x192) zeros2 inb_S64x192_S64x192_0_0, View.ld_unit_zero (S := S192) zeros1 inb_S192_S192_0, View.ld_unit_zero (S := S128x64) zeros2 inb_S128x64_S128x64_0_0, View.ld_unit_zero (S := S64) zeros1 inb_S64_S64_0, View.ld_unit_zero (S := S64x1) zeros2 inb_S64x1_S64x1_0_0, View.ld_unit_zero (S := S1) zeros1 inb_S1_S1_0, View.ld_unit_zero (S := S2000x1) zeros2 inb_S2000x1_S2000x1_0_0]

/-- Likewise the second output's buffer holds the head's value as a function of the inputs' contents. -/
theorem outc13_eq (x0 : Vec F S2000x64 .f32) (x1 : Vec F S2000x64 .f32) (x2 : Vec F S64x192 .f32) (x3 : Vec F S192 .f32) (x4 : Vec F S128x64 .f32) (x5 : Vec F S64 .f32) (x6 : Vec F S128x64 .f32) (x7 : Vec F S64 .f32) (x8 : Vec F S128x64 .f32) (x9 : Vec F S64 .f32) (x10 : Vec F S64x1 .f32) (x11 : Vec F S1 .f32) :
    outc13 x0 x1 x2 x3 x4 x5 x6 x7 x8 x9 x10 x11 = k0_pay2 x1 (k0_pay5 x0 x2 x3) (k0_pay6 x0 x1 x2 x3 x4 x5) (k0_pay7 x0 x1 x2 x3 x6) (k0_pay8 x7) x8 x9 x10 x11 := by
  unfold outc13
  rw [View.canon_unit_zero (S := S2000x1) zeros2 inb_S2000x1_S2000x1_0_0]
  simp only [View.ld_unit_zero (S := S2000x64) zeros2 inb_S2000x64_S2000x64_0_0, View.ld_unit_zero (S := S64x192) zeros2 inb_S64x192_S64x192_0_0, View.ld_unit_zero (S := S192) zeros1 inb_S192_S192_0, View.ld_unit_zero (S := S128x64) zeros2 inb_S128x64_S128x64_0_0, View.ld_unit_zero (S := S64) zeros1 inb_S64_S64_0, View.ld_unit_zero (S := S64x1) zeros2 inb_S64x1_S64x1_0_0, View.ld_unit_zero (S := S1) zeros1 inb_S1_S1_0, View.ld_unit_zero (S := S2000x1) zeros2 inb_S2000x1_S2000x1_0_0]

/-! ## The body's triple -/

set_option maxHeartbeats 1000000 in
/-- The kernel function on whole staging buffers, the inputs' at contents `x0 … x11` and the outputs' at anything,
    runs to the continuation with the inputs' buffers as they were and the outputs' at `outc12`, `outc13` of the
    inputs' contents. -/
theorem sound_kernel (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S64x192 .f32) (harg3 : arg3.IsWhole) (arg4 : Memref sig .tc .vmem S192 .f32) (harg4 : arg4.IsWhole) (arg5 : Memref sig .tc .vmem S128x64 .f32) (harg5 : arg5.IsWhole) (arg6 : Memref sig .tc .vmem S64 .f32) (harg6 : arg6.IsWhole) (arg7 : Memref sig .tc .vmem S128x64 .f32) (harg7 : arg7.IsWhole) (arg8 : Memref sig .tc .vmem S64 .f32) (harg8 : arg8.IsWhole) (arg9 : Memref sig .tc .vmem S128x64 .f32) (harg9 : arg9.IsWhole) (arg10 : Memref sig .tc .vmem S64 .f32) (harg10 : arg10.IsWhole) (arg11 : Memref sig .tc .vmem S64x1 .f32) (harg11 : arg11.IsWhole) (arg12 : Memref sig .tc .vmem S1 .f32) (harg12 : arg12.IsWhole) (arg13 : Memref sig .tc .vmem S2000x64 .f32) (harg13 : arg13.IsWhole) (arg14 : Memref sig .tc .vmem S2000x1 .f32) (harg14 : arg14.IsWhole)
    (x0 : Vec F S2000x64 .f32) (x1 : Vec F S2000x64 .f32) (x2 : Vec F S64x192 .f32) (x3 : Vec F S192 .f32) (x4 : Vec F S128x64 .f32) (x5 : Vec F S64 .f32) (x6 : Vec F S128x64 .f32) (x7 : Vec F S64 .f32) (x8 : Vec F S128x64 .f32) (x9 : Vec F S64 .f32) (x10 : Vec F S64x1 .f32) (x11 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (outc12 x0 x1 x2 x3 x4 x5 x6 x7 x8 x9 x10 x11)
            ∗ owns (c : Thread nD τ) arg14 fullShare (outc13 x0 x1 x2 x3 x4 x5 x6 x7 x8 x9 x10 x11)) -∗ K ⟨⟩))
      ⊢ wp frame (wpE (defs₀ (F := F)) Variants.none c none) E (cc0__gru_head_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gru_head_kernel_eq_skeleton]; unfold cc0__gru_head_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (fun y => ⟨_, List.mem_singleton_self _, View.mem_set_unit_zero (S := S2000x64) zeros2 inb_S2000x64_S2000x64_0_0 y⟩)
  iexists _; isplitr
  swap; · iexact H13
  ipureintro
  exact View.read_writes_eq_canon _ _ _ (fun y => ⟨_, List.mem_singleton_self _, View.mem_set_unit_zero (S := S2000x1) zeros2 inb_S2000x1_S2000x1_0_0 y⟩)

end Cert.KernelIdeal.Hand

end
-- ==== Proof.KernelIdealRun.lean ====
/- The frame run of the program.  The proof data of its one pipeline say: each array starts at what the host
   operations before the region left; after the body at a grid point each input window's staging buffer still holds
   that window's block and each output window's buffer holds the value the body stored, a function of the twelve
   input blocks at the point.  The body meets its obligation at every point because every input buffer holds its
   block there, fetched at the point or not.  The library's launch theorem then gives that every fair execution of
   the entry function terminates without fault in a memory it describes, from which every argument array is read
   back as launched. -/
import proofs.«162937_j28424093565280_2_alg».proof.Proof.KernelIdealRunHost
import proofs.«162937_j28424093565280_2_alg».proof.Proof.KernelIdealRunBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline on core `c`: the arrays as the region finds them; after the body at point `t` each
    input's buffer at its block and each output's at the stored value over the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => k0_pay1 (iblk m c 1 t) (k0_pay5 (iblk m c 0 t) (iblk m c 2 t) (iblk m c 3 t)) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 6 t)) (k0_pay8 (iblk m c 7 t)) (iblk m c 8 t) (iblk m c 9 t)
    | ⟨13, _⟩ => k0_pay2 (iblk m c 1 t) (k0_pay5 (iblk m c 0 t) (iblk m c 2 t) (iblk m c 3 t)) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 6 t)) (k0_pay8 (iblk m c 7 t)) (iblk m c 8 t) (iblk m c 9 t) (iblk m c 10 t) (iblk m c 11 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = k0_pay1 (iblk m c 1 t) (k0_pay5 (iblk m c 0 t) (iblk m c 2 t) (iblk m c 3 t)) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 6 t)) (k0_pay8 (iblk m c 7 t)) (iblk m c 8 t) (iblk m c 9 t) := by dsimp only [dats]
theorem after13 (c : Dev nD) (t : Fin cfg0.N) : (dats m 0 c).after 13 t = k0_pay2 (iblk m c 1 t) (k0_pay5 (iblk m c 0 t) (iblk m c 2 t) (iblk m c 3 t)) (k0_pay6 (iblk m c 0 t) (iblk m c 1 t) (iblk m c 2 t) (iblk m c 3 t) (iblk m c 4 t) (iblk m c 5 t)) (k0_pay7 (iblk m c 0 t) (iblk m c 1 t) (iblk m c 2 t) (iblk m c 3 t) (iblk m c 6 t)) (k0_pay8 (iblk m c 7 t)) (iblk m c 8 t) (iblk m c 9 t) (iblk m c 10 t) (iblk m c 11 t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13,
    ← outc12_eq, ← outc13_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the entry function on the TensorCores
    terminates, and every final state has every array of the pipeline at what the library computes from the proof
    data and every other unscoped buffer as the host operation after the region leaves it. -/
theorem run_main : θ_run defs (onTc (τ := τ) (main (F := F))) (s₀ m ρ) (Pipeline.FramePost cfgs (dats m) 0 (Pipeline.afterTail₀ cfgs (dats m) 0 (V0 m) [Gen.hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.Spec.lean ====
/-
  The arithmetic of one graph node's gated-recurrent update and read-out, as functions of rows of extended reals.

  For a node with convolution outputs `cz`, `cr`, `ch` (one row of 64 per gate) and hidden row `h`:
      Z  = σ([cz, h]·Wz + bz),   R = σ([cr, h]·Wr + br),   H = tanh([ch, h ⊙ R]·Wh + bh),
      h' = Z ⊙ h + (1 − Z) ⊙ H,  z = relu(h')·Whead + bhead,
  where [u, v] joins two rows of 64 into one of 128 and σ is the logistic function. Every operation is the exact one
  on the extended reals; the constants 1 and 0 are kept as the float words the programs spell.
-/
import Idealize.ShloMosaic.PureOps.Ideal.Laws
import Idealize.ShloMosaic.Lib.ValueIdx

noncomputable section

namespace Cert.Spec

open Idealize.ShloMosaic Idealize.ShloMosaic.ValueIdx

/-- Two rows of 64 joined into one of 128: the first 64 places from `u`, the last 64 from `v`. -/
def join (u v : Fin 64 → EReal) : Fin 128 → EReal :=
  fun k => if h : k.val < 64 then u ⟨k.val, h⟩ else v ⟨k.val - 64, by have := k.isLt; omega⟩

/-- A row times a matrix plus a bias row: `j ↦ (∑ k, u k · W (k, j)) + b j`. -/
def dense {K M : Nat} (u : Fin K → EReal) (W : (⟨2, ![K, M]⟩ : Shape).Idx → EReal) (b : (⟨1, ![M]⟩ : Shape).Idx → EReal) :
    Fin M → EReal :=
  fun j => (∑ k : Fin K, u k * W (ix2 k j)) + b (ix1 j)

/-- The float word of 1.0 and of 0.0 read exactly. -/
abbrev one : EReal := Ideal.ofBits .f32 0x3F800000#32
abbrev zero : EReal := Ideal.ofBits .f32 0x00000000#32

/-- The update gate, the reset gate and the candidate of one node. -/
def gateZ (cz h : Fin 64 → EReal) (Wz : (⟨2, ![128, 64]⟩ : Shape).Idx → EReal) (bz : (⟨1, ![64]⟩ : Shape).Idx → EReal) :
    Fin 64 → EReal := fun j => Ideal.logistic (dense (join cz h) Wz bz j)

def cand (ch h R : Fin 64 → EReal) (Wh : (⟨2, ![128, 64]⟩ : Shape).Idx → EReal) (bh : (⟨1, ![64]⟩ : Shape).Idx → EReal) :
    Fin 64 → EReal := fun j => Ideal.tanh (dense (join ch (fun k => h k * R k)) Wh bh j)

/-- The new hidden row of one node. -/
def gruRow (cz cr ch h : Fin 64 → EReal)
    (Wz : (⟨2, ![128, 64]⟩ : Shape).Idx → EReal) (bz : (⟨1, ![64]⟩ : Shape).Idx → EReal)
    (Wr : (⟨2, ![128, 64]⟩ : Shape).Idx → EReal) (br : (⟨1, ![64]⟩ : Shape).Idx → EReal)
    (Wh : (⟨2, ![128, 64]⟩ : Shape).Idx → EReal) (bh : (⟨1, ![64]⟩ : Shape).Idx → EReal) : Fin 64 → EReal :=
  fun j => gateZ cz h Wz bz j * h j + (one - gateZ cz h Wz bz j) * cand ch h (gateZ cr h Wr br) Wh bh j

/-- The read-out of one node: the rectified hidden row against the head column, plus the head bias. -/
def headRow (h' : Fin 64 → EReal) (Whead : (⟨2, ![64, 1]⟩ : Shape).Idx → EReal) (bhead : (⟨1, ![1]⟩ : Shape).Idx → EReal) : EReal :=
  (∑ k : Fin 64, max (h' k) zero * Whead (ix2 k 0)) + bhead (ix1 0)

/-- The gates depend on the convolution rows only through their values: congruence in the three rows. -/
theorem gruRow_congr {cz cr ch cz' cr' ch' : Fin 64 → EReal} (hz : cz = cz') (hr : cr = cr') (hh : ch = ch')
    (h : Fin 64 → EReal) (Wz bz Wr br Wh bh) :
    gruRow cz cr ch h Wz bz Wr br Wh bh = gruRow cz' cr' ch' h Wz bz Wr br Wh bh := by
  subst hz; subst hr; subst hh; rfl

end Cert.Spec

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.KernelPayload.lean ====
/-
  The kernel body's two stored values read at an index of the block, at the exact (extended-real) values.

  One grid point handles 2000 nodes. From the block of propagated features (2000×64), the block of hidden rows
  (2000×64), the joined projection matrix (64×192) with its joined bias (192), the three gate matrices (128×64) with
  their biases (64), and the head column (64×1) with its bias (1), the body stores
    * row p, column q of the new hidden block: the gated-recurrent update of node p (Cert.Spec.gruRow) at q, where the
      three convolution rows of node p are the projections of its propagated row by the three 64-column bands of the
      joined matrix, plus the matching bands of the joined bias;
    * row p of the read-out block: the head (Cert.Spec.headRow) of that new hidden row.
  Narrowing to the 16-bit format is the identity at the exact values; a matrix product into a zero accumulator is the
  plain sum of products.
-/
import proofs.«162937_j28424093565280_2_alg».proof.Proof.Gen.KernelIdeal.Skeleton
import proofs.«162937_j28424093565280_2_alg».proof.Proof.Spec
import proofs.«162937_j28424093565280_2_alg».proof.Proof.LibPlainDot
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen Cert.Spec Cert.Lib.PlainDot

/-- The convolution row of node `p` for the gate whose columns of the joined matrix start at `off`:
    `q ↦ (∑ k, x0 (p, k) · x2 (k, off + q)) + x3 (off + q)`. -/
def crow (x0 : (⟨2, ![2000, 64]⟩ : Shape).Idx → EReal) (x2 : (⟨2, ![64, 192]⟩ : Shape).Idx → EReal)
    (x3 : (⟨1, ![192]⟩ : Shape).Idx → EReal) (off : Nat) (hoff : off + 64 ≤ 192) (p : Fin 2000) : Fin 64 → EReal :=
  fun q => (∑ k : Fin 64, x0 (ix2 p k) * x2 (ix2 k ⟨off + q.val, by have := q.isLt; omega⟩))
    + x3 (ix1 ⟨off + q.val, by have := q.isLt; omega⟩)

variable (x0 x1 : Vec Ideal S2000x64 .f32) (x2 : Vec Ideal S64x192 .f32) (x3 : Vec Ideal S192 .f32)
  (x4 : Vec Ideal S128x64 .f32) (x5 : Vec Ideal S64 .f32) (x6 : Vec Ideal S128x64 .f32) (x7 : Vec Ideal S64 .f32)
  (x8 : Vec Ideal S128x64 .f32) (x9 : Vec Ideal S64 .f32) (x10 : Vec Ideal S64x1 .f32) (x11 : Vec Ideal S1 .f32)

/-- The first product: propagated block times joined matrix. -/
theorem pay3_eq : k0_pay3 (F := Ideal) x0 x2 = mm x0 x2 := by
  unfold k0_pay3
  simp only [shapeCast_self]
  exact matmul_zero none _ _

/-- A 64-column band of the first product plus the matching band of the joined bias, at (p, q). -/
theorem band_apply (off : Nat) (hoff : off + 64 ≤ 192)
    (hs : S2000x192.Slices ![0, off] S2000x64) (hb : S192.Slices ![off] S64) (p : Fin 2000) (q : Fin 64) :
    addf (extractStridedSlice S2000x64 ![0, off] (k0_pay3 (F := Ideal) x0 x2) hs)
      (broadcastTo S2000x64 (shapeCast S1x64 (extractStridedSlice S64 ![off] (k0_pay4 (F := Ideal) x3) hb) shapeCasts_S64_S1x64) broadcasts_S1x64_S2000x64) (ix2 p q)
      = crow x0 x2 x3 off hoff p q := by
  rw [addf_apply, slice2_axis1_apply off _ hs p q ⟨off + q.val, by have := q.isLt; omega⟩ rfl,
    broadcastTo_1b_ab_apply, shapeCast_a_1a_apply,
    extractStridedSlice_apply ![off] _ hb (ix1 q) (ix1 ⟨off + q.val, by have := q.isLt; omega⟩) (fun a => by
      match a with
      | ⟨0, _⟩ => rfl)]
  unfold k0_pay4
  rw [shapeCast_self, pay3_eq, mm_apply]
  rfl

/-- Two blocks of 64 columns joined along the columns, at (p, k): the row of the first for k < 64, of the second after. -/
theorem cat_apply (a b : FVec Ideal S2000x64 .f32) (p : Fin 2000) (k : Fin 128) :
    concatenate S2000x128 1 [⟨S2000x64, a⟩, ⟨S2000x64, b⟩] concatenates_S2000x64_S2000x64_S2000x128_d1 (ix2 p k)
      = join (fun k => a (ix2 p k)) (fun k => b (ix2 p k)) k := by
  unfold join
  by_cases hk : k.val < 64
  · rw [dif_pos hk]
    exact concatenate_pair_apply_left (1 : Fin 2) a b _ (ix2 p k) rfl (ix2 p ⟨k.val, hk⟩) (fun ax => by
      match ax with
      | ⟨0, _⟩ => rfl
      | ⟨1, _⟩ => rfl)
  · rw [dif_neg hk]
    exact concatenate_pair_apply_right (1 : Fin 2) a b _ (ix2 p k) rfl rfl (ix2 p ⟨k.val - 64, by have := k.isLt; omega⟩)
      (fun ax hne => by
        match ax with
        | ⟨0, _⟩ => rfl
        | ⟨1, _⟩ => exact absurd rfl hne)
      (by show (k.val - 64) + 64 = k.val; omega)

/-- A bias row broadcast over the block, at (p, q). -/
theorem bias_apply (b : Vec Ideal S64 .f32) (p : Fin 2000) (q : Fin 64) :
    broadcastTo S2000x64 (shapeCast S1x64 b shapeCasts_S64_S1x64) broadcasts_S1x64_S2000x64 (ix2 p q) = b (ix1 q) := by
  rw [broadcastTo_1b_ab_apply, shapeCast_a_1a_apply]

/-- A joined block times a gate matrix, at (p, q): the row's dot products. -/
theorem gatemm_apply (a b : FVec Ideal S2000x64 .f32) (W : Vec Ideal S128x64 .f32) (p : Fin 2000) (q : Fin 64) :
    matmul (F := Ideal) dot_S2000x128_S128x64_S2000x64_1_0_0_1_n_n none
        (truncf .bf16 (concatenate S2000x128 1 [⟨S2000x64, a⟩, ⟨S2000x64, b⟩] concatenates_S2000x64_S2000x64_S2000x128_d1) bitsLt_bf16_f32)
        (truncf .bf16 W bitsLt_bf16_f32) (constant S2000x64 .f32 0x00000000#32) (ix2 p q)
      = ∑ k : Fin 128, join (fun k => a (ix2 p k)) (fun k => b (ix2 p k)) k * W (ix2 k q) := by
  have h := congrFun (matmul_zero (M := 2000) (K := 128) (N := 64) none
    (truncf .bf16 (concatenate S2000x128 1 [⟨S2000x64, a⟩, ⟨S2000x64, b⟩] concatenates_S2000x64_S2000x64_S2000x128_d1) bitsLt_bf16_f32)
    (truncf .bf16 W bitsLt_bf16_f32)) (ix2 p q)
  refine h.trans ?_
  rw [mm_apply]
  refine Finset.sum_congr rfl fun k _ => ?_
  rw [truncf_apply, truncf_apply, cat_apply]

/-- The hidden row of node `p` of the block. -/
abbrev hrow (p : Fin 2000) : Fin 64 → EReal := fun k => x1 (ix2 p k)

/-- The candidate's convolution block, at (p, q). -/
theorem pay5_apply (p : Fin 2000) (q : Fin 64) :
    k0_pay5 (F := Ideal) x0 x2 x3 (ix2 p q) = crow x0 x2 x3 128 (by omega) p q := by
  unfold k0_pay5
  exact band_apply x0 x2 x3 128 (by omega) _ _ p q

/-- The update gate's block, at (p, q). -/
theorem pay6_apply (p : Fin 2000) (q : Fin 64) :
    k0_pay6 (F := Ideal) x0 x1 x2 x3 x4 x5 (ix2 p q) = gateZ (crow x0 x2 x3 0 (by omega) p) (hrow x1 p) x4 x5 q := by
  unfold k0_pay6
  show Ideal.logistic ((addf (F := Ideal) _ _ : FVec Ideal S2000x64 .f32) (ix2 p q)) = _
  unfold gateZ dense
  rw [addf_apply, gatemm_apply, bias_apply]
  have e : (fun k => addf (extractStridedSlice S2000x64 ![0, 0] (k0_pay3 (F := Ideal) x0 x2) slices_S2000x192_o0_0_S2000x64)
      (broadcastTo S2000x64 (shapeCast S1x64 (extractStridedSlice S64 ![0] (k0_pay4 (F := Ideal) x3) slices_S192_o0_S64) shapeCasts_S64_S1x64) broadcasts_S1x64_S2000x64) (ix2 p k))
      = crow x0 x2 x3 0 (by omega) p := funext fun k => band_apply x0 x2 x3 0 (by omega) _ _ p k
  rw [e]

/-- The reset gate's product block, at (p, q). -/
theorem pay7_apply (p : Fin 2000) (q : Fin 64) :
    k0_pay7 (F := Ideal) x0 x1 x2 x3 x6 (ix2 p q) = ∑ k : Fin 128, join (crow x0 x2 x3 64 (by omega) p) (hrow x1 p) k * x6 (ix2 k q) := by
  unfold k0_pay7
  rw [gatemm_apply]
  have e : (fun k => addf (extractStridedSlice S2000x64 ![0, 64] (k0_pay3 (F := Ideal) x0 x2) slices_S2000x192_o0_64_S2000x64)
      (broadcastTo S2000x64 (shapeCast S1x64 (extractStridedSlice S64 ![64] (k0_pay4 (F := Ideal) x3) slices_S192_o64_S64) shapeCasts_S64_S1x64) broadcasts_S1x64_S2000x64) (ix2 p k))
      = crow x0 x2 x3 64 (by omega) p := funext fun k => band_apply x0 x2 x3 64 (by omega) _ _ p k
  rw [e]

/-- The reset gate's bias block, at (p, q). -/
theorem pay8_apply (p : Fin 2000) (q : Fin 64) : k0_pay8 (F := Ideal) x7 (ix2 p q) = x7 (ix1 q) := by
  unfold k0_pay8
  exact bias_apply x7 p q

/-- The new hidden block at (p, q), from the rows of the intermediate blocks. -/
theorem pay1_apply (v24 v34 v39 v42 : FVec Ideal S2000x64 .f32) (cz cr ch : Fin 64 → EReal) (p : Fin 2000) (q : Fin 64)
    (h24 : ∀ k, v24 (ix2 p k) = ch k) (h34 : ∀ k, v34 (ix2 p k) = gateZ cz (hrow x1 p) x4 x5 k)
    (hR : ∀ k, v39 (ix2 p k) + v42 (ix2 p k) = dense (join cr (hrow x1 p)) x6 x7 k) :
    k0_pay1 (F := Ideal) x1 v24 v34 v39 v42 x8 x9 (ix2 p q) = gruRow cz cr ch (hrow x1 p) x4 x5 x6 x7 x8 x9 q := by
  unfold k0_pay1
  show v34 (ix2 p q) * x1 (ix2 p q) + (Ideal.ofBits .f32 0x3F800000#32 - v34 (ix2 p q)) * Ideal.tanh ((addf (F := Ideal) _ _ : FVec Ideal S2000x64 .f32) (ix2 p q)) = _
  unfold gruRow cand dense
  rw [addf_apply, gatemm_apply, bias_apply, h34 q]
  have e1 : (fun k => v24 (ix2 p k)) = ch := funext h24
  have e2 : (fun k => mulf x1 (logistic (addf v39 v42)) (ix2 p k)) = fun k => hrow x1 p k * gateZ cr (hrow x1 p) x6 x7 k := funext fun k => by
    show x1 (ix2 p k) * Ideal.logistic (v39 (ix2 p k) + v42 (ix2 p k)) = _
    rw [hR k]; rfl
  rw [e1, e2]

/-- THE NEW HIDDEN BLOCK at (p, q): the gated-recurrent update of node `p`, its three convolution rows the projections of
    its propagated row by the three bands of the joined matrix. -/
theorem hidden_apply (p : Fin 2000) (q : Fin 64) :
    k0_pay1 (F := Ideal) x1 (k0_pay5 x0 x2 x3) (k0_pay6 x0 x1 x2 x3 x4 x5) (k0_pay7 x0 x1 x2 x3 x6) (k0_pay8 x7) x8 x9 (ix2 p q)
      = gruRow (crow x0 x2 x3 0 (by omega) p) (crow x0 x2 x3 64 (by omega) p) (crow x0 x2 x3 128 (by omega) p) (hrow x1 p)
          x4 x5 x6 x7 x8 x9 q :=
  pay1_apply x1 x4 x5 x6 x7 x8 x9 _ _ _ _ _ _ _ p q (fun k => pay5_apply x0 x2 x3 p k) (fun k => pay6_apply x0 x1 x2 x3 x4 x5 p k)
    (fun k => by rw [pay7_apply, pay8_apply]; rfl)

/-- THE READ-OUT BLOCK at row p: the head of the new hidden row. -/
theorem head_apply (v24 v34 v39 v42 : FVec Ideal S2000x64 .f32) (p : Fin 2000) :
    k0_pay2 (F := Ideal) x1 v24 v34 v39 v42 x8 x9 x10 x11 (ix2 p 0)
      = headRow (fun k => k0_pay1 (F := Ideal) x1 v24 v34 v39 v42 x8 x9 (ix2 p k)) x10 x11 := by
  unfold k0_pay2 headRow
  rw [addf_apply, broadcastTo_1b_ab_apply, shapeCast_a_1a_apply]
  refine congrArg (· + x11 (ix1 0)) ?_
  refine (congrFun (matmul_zero (M := 2000) (K := 64) (N := 1) none _ _) (ix2 p 0)).trans ?_
  rw [mm_apply]
  rfl

end Cert.KernelIdeal.Pay

end
-- ==== Proof.KernelJoin.lean ====
/-
  The joined projection matrix and joined bias read at an index.

  The kernel program joins the three 64×64 projection matrices side by side into one 64×192 matrix, and the three
  bias rows end to end into one row of 192. Column `off + q` of the joined matrix, for `off` = 0, 64, 128 and q < 64,
  is column q of the first, second, third matrix; likewise for the joined bias.
-/
import proofs.«162937_j28424093565280_2_alg».proof.Proof.Gen.KernelIdeal
import Idealize.ShloMosaic.Lib.Pipeline.Value
import Idealize.ShloMosaic.Lib.ValueIdx

noncomputable section

namespace Cert.KernelIdeal.Join

open Idealize.ShloMosaic Idealize.ShloMosaic.ValueIdx Cert.KernelIdeal Cert.KernelIdeal.Gen

variable {α : Type} (a b c : S64x64.Idx → α) (u v w : S64.Idx → α)

theorem wall_0 (k q : Fin 64) :
    concatenate S64x192 1 [⟨S64x64, a⟩, ⟨S64x64, b⟩, ⟨S64x64, c⟩] concatenates_S64x64_S64x64_S64x64_S64x192_d1
      (ix2 k ⟨0 + q.val, by have := q.isLt; omega⟩) = a (ix2 k q) := by
  refine concatenate_apply_piece (t := S64x192) (1 : Fin 2) [⟨S64x64, a⟩, ⟨S64x64, b⟩, ⟨S64x64, c⟩] _ _ 0 (by simp) S64x64 a rfl rfl 0 rfl
    (ix2 k q) (fun ax hne => ?_) rfl
  match ax with
  | ⟨0, _⟩ => rfl
  | ⟨1, _⟩ => exact absurd rfl hne

theorem wall_64 (k q : Fin 64) :
    concatenate S64x192 1 [⟨S64x64, a⟩, ⟨S64x64, b⟩, ⟨S64x64, c⟩] concatenates_S64x64_S64x64_S64x64_S64x192_d1
      (ix2 k ⟨64 + q.val, by have := q.isLt; omega⟩) = b (ix2 k q) := by
  refine concatenate_apply_piece (t := S64x192) (1 : Fin 2) [⟨S64x64, a⟩, ⟨S64x64, b⟩, ⟨S64x64, c⟩] _ _ 1 (by simp) S64x64 b rfl rfl 64 rfl
    (ix2 k q) (fun ax hne => ?_) rfl
  match ax with
  | ⟨0, _⟩ => rfl
  | ⟨1, _⟩ => exact absurd rfl hne

theorem wall_128 (k q : Fin 64) :
    concatenate S64x192 1 [⟨S64x64, a⟩, ⟨S64x64, b⟩, ⟨S64x64, c⟩] concatenates_S64x64_S64x64_S64x64_S64x192_d1
      (ix2 k ⟨128 + q.val, by have := q.isLt; omega⟩) = c (ix2 k q) := by
  refine concatenate_apply_piece (t := S64x192) (1 : Fin 2) [⟨S64x64, a⟩, ⟨S64x64, b⟩, ⟨S64x64, c⟩] _ _ 2 (by simp) S64x64 c rfl rfl 128 rfl
    (ix2 k q) (fun ax hne => ?_) rfl
  match ax with
  | ⟨0, _⟩ => rfl
  | ⟨1, _⟩ => exact absurd rfl hne

theorem ball_0 (q : Fin 64) :
    concatenate S192 0 [⟨S64, u⟩, ⟨S64, v⟩, ⟨S64, w⟩] concatenates_S64_S64_S64_S192_d0
      (ix1 ⟨0 + q.val, by have := q.isLt; omega⟩) = u (ix1 q) := by
  refine concatenate_apply_piece (t := S192) (0 : Fin 1) [⟨S64, u⟩, ⟨S64, v⟩, ⟨S64, w⟩] _ _ 0 (by simp) S64 u rfl rfl 0 rfl
    (ix1 q) (fun ax hne => ?_) rfl
  match ax with
  | ⟨0, _⟩ => exact absurd rfl hne

theorem ball_64 (q : Fin 64) :
    concatenate S192 0 [⟨S64, u⟩, ⟨S64, v⟩, ⟨S64, w⟩] concatenates_S64_S64_S64_S192_d0
      (ix1 ⟨64 + q.val, by have := q.isLt; omega⟩) = v (ix1 q) := by
  refine concatenate_apply_piece (t := S192) (0 : Fin 1) [⟨S64, u⟩, ⟨S64, v⟩, ⟨S64, w⟩] _ _ 1 (by simp) S64 v rfl rfl 64 rfl
    (ix1 q) (fun ax hne => ?_) rfl
  match ax with
  | ⟨0, _⟩ => exact absurd rfl hne

theorem ball_128 (q : Fin 64) :
    concatenate S192 0 [⟨S64, u⟩, ⟨S64, v⟩, ⟨S64, w⟩] concatenates_S64_S64_S64_S192_d0
      (ix1 ⟨128 + q.val, by have := q.isLt; omega⟩) = w (ix1 q) := by
  refine concatenate_apply_piece (t := S192) (0 : Fin 1) [⟨S64, u⟩, ⟨S64, v⟩, ⟨S64, w⟩] _ _ 2 (by simp) S64 w rfl rfl 128 rfl
    (ix1 q) (fun ax hne => ?_) rfl
  match ax with
  | ⟨0, _⟩ => exact absurd rfl hne

end Cert.KernelIdeal.Join

end
-- ==== Proof.KernelBlocks.lean ====
/-
  The kernel program's two result arrays after the region, index by index, at the exact values.

  The grid has 50 points; point t handles nodes 2000·t … 2000·t + 1999: its blocks of the propagated features, of the
  hidden array and of the two results are rows 2000·t … of those arrays, and its other ten windows are whole arrays (the
  joined projection matrix and bias, the gate matrices and biases, the head column and bias), the same at every point.
  So row p of point t's stored blocks is node 2000·t + p's update, and, the 50 blocks tiling the arrays, the first
  result array holds at (i, j) the gated-recurrent update of node i at j (`hidden`), the second at (i, 0) its read-out.
-/
import proofs.«162937_j28424093565280_2_alg».proof.Proof.KernelIdealRun
import proofs.«162937_j28424093565280_2_alg».proof.Proof.KernelPayload
import proofs.«162937_j28424093565280_2_alg».proof.Proof.KernelJoin
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Pay Cert.KernelIdeal.Join
open Cert.Spec

variable (m : (ℓ : Loc nD τ sig) → Buf (Elt Ideal) ℓ)

/-! ## Where each window's block sits: block row t for the four row-blocked windows, block 0 for the ten whole-array ones -/

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows12 : ∀ t : Fin cfg0.N, win0_12.index t (0 : Fin 2) = t.val ∧ win0_12.index t (1 : Fin 2) = 0 :=
  (by decide +kernel : ∀ t : Fin grid0.N, _)
theorem idx_rows13 : ∀ t : Fin cfg0.N, win0_13.index t (0 : Fin 2) = t.val ∧ win0_13.index t (1 : Fin 2) = 0 :=
  (by decide +kernel : ∀ t : Fin grid0.N, _)
theorem idx_const2 : ∀ t : Fin cfg0.N, win0_2.index t (0 : Fin 2) = 0 ∧ win0_2.index t (1 : Fin 2) = 0 :=
  (by decide +kernel : ∀ t : Fin grid0.N, _)
theorem idx_const4 : ∀ t : Fin cfg0.N, win0_4.index t (0 : Fin 2) = 0 ∧ win0_4.index t (1 : Fin 2) = 0 :=
  (by decide +kernel : ∀ t : Fin grid0.N, _)
theorem idx_const6 : ∀ t : Fin cfg0.N, win0_6.index t (0 : Fin 2) = 0 ∧ win0_6.index t (1 : Fin 2) = 0 :=
  (by decide +kernel : ∀ t : Fin grid0.N, _)
theorem idx_const8 : ∀ t : Fin cfg0.N, win0_8.index t (0 : Fin 2) = 0 ∧ win0_8.index t (1 : Fin 2) = 0 :=
  (by decide +kernel : ∀ t : Fin grid0.N, _)
theorem idx_const10 : ∀ t : Fin cfg0.N, win0_10.index t (0 : Fin 2) = 0 ∧ win0_10.index t (1 : Fin 2) = 0 :=
  (by decide +kernel : ∀ t : Fin grid0.N, _)
theorem idx_const3 : ∀ t : Fin cfg0.N, win0_3.index t (0 : Fin 1) = 0 :=
  (by decide +kernel : ∀ t : Fin grid0.N, _)
theorem idx_const5 : ∀ t : Fin cfg0.N, win0_5.index t (0 : Fin 1) = 0 :=
  (by decide +kernel : ∀ t : Fin grid0.N, _)
theorem idx_const7 : ∀ t : Fin cfg0.N, win0_7.index t (0 : Fin 1) = 0 :=
  (by decide +kernel : ∀ t : Fin grid0.N, _)
theorem idx_const9 : ∀ t : Fin cfg0.N, win0_9.index t (0 : Fin 1) = 0 :=
  (by decide +kernel : ∀ t : Fin grid0.N, _)
theorem idx_const11 : ∀ t : Fin cfg0.N, win0_11.index t (0 : Fin 1) = 0 :=
  (by decide +kernel : ∀ t : Fin grid0.N, _)

/-- Node 2000·t + p. -/
def node (t : Fin cfg0.N) (p : Fin 2000) : Fin 100000 :=
  ⟨t.val * 2000 + p.val, by have h : t.val < 50 := lt_of_lt_of_eq t.isLt N_0
                            have := p.isLt; omega⟩

/-! ## An array read through a point's block -/

theorem read0 (A : S100000x64.Idx → EReal) (t : Fin cfg0.N) (p : Fin 2000) (k : Fin 64) :
    ((cfg0.win 0).blk t).view.read (Elt Ideal) A (ix2 p k) = A (ix2 (node t p) k) := by
  have e0 := (idx_rows0 t).1
  have e1 := (idx_rows0 t).2
  show A (((cfg0.win 0).blk t).view.emb (ix2 p k)) = _
  refine congrArg A (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 64 + 1 * k.val = k.val; rw [e1]; omega
theorem read1 (A : S100000x64.Idx → EReal) (t : Fin cfg0.N) (p : Fin 2000) (k : Fin 64) :
    ((cfg0.win 1).blk t).view.read (Elt Ideal) A (ix2 p k) = A (ix2 (node t p) k) := by
  have e0 := (idx_rows1 t).1
  have e1 := (idx_rows1 t).2
  show A (((cfg0.win 1).blk t).view.emb (ix2 p k)) = _
  refine congrArg A (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 64 + 1 * k.val = k.val; rw [e1]; omega
theorem read2 (A : S64x192.Idx → EReal) (t : Fin cfg0.N) : ((cfg0.win 2).blk t).view.read (Elt Ideal) A = A := by
  have e0 := (idx_const2 t).1
  have e1 := (idx_const2 t).2
  funext y
  show A (((cfg0.win 2).blk t).view.emb y) = _
  refine congrArg A (funext fun a => Fin.ext ?_)
  match a with
  | ⟨0, _⟩ => show win0_2.index t (0 : Fin 2) * 64 + 1 * (y 0).val = (y 0).val; rw [e0]; omega
  | ⟨1, _⟩ => show win0_2.index t (1 : Fin 2) * 192 + 1 * (y 1).val = (y 1).val; rw [e1]; omega
theorem read3 (A : S192.Idx → EReal) (t : Fin cfg0.N) : ((cfg0.win 3).blk t).view.read (Elt Ideal) A = A := by
  have e0 := idx_const3 t
  funext y
  show A (((cfg0.win 3).blk t).view.emb y) = _
  refine congrArg A (funext fun a => Fin.ext ?_)
  match a with
  | ⟨0, _⟩ => show win0_3.index t (0 : Fin 1) * 192 + 1 * (y 0).val = (y 0).val; rw [e0]; omega
theorem read4 (A : S128x64.Idx → EReal) (t : Fin cfg0.N) : ((cfg0.win 4).blk t).view.read (Elt Ideal) A = A := by
  have e0 := (idx_const4 t).1
  have e1 := (idx_const4 t).2
  funext y
  show A (((cfg0.win 4).blk t).view.emb y) = _
  refine congrArg A (funext fun a => Fin.ext ?_)
  match a with
  | ⟨0, _⟩ => show win0_4.index t (0 : Fin 2) * 128 + 1 * (y 0).val = (y 0).val; rw [e0]; omega
  | ⟨1, _⟩ => show win0_4.index t (1 : Fin 2) * 64 + 1 * (y 1).val = (y 1).val; rw [e1]; omega
theorem read5 (A : S64.Idx → EReal) (t : Fin cfg0.N) : ((cfg0.win 5).blk t).view.read (Elt Ideal) A = A := by
  have e0 := idx_const5 t
  funext y
  show A (((cfg0.win 5).blk t).view.emb y) = _
  refine congrArg A (funext fun a => Fin.ext ?_)
  match a with
  | ⟨0, _⟩ => show win0_5.index t (0 : Fin 1) * 64 + 1 * (y 0).val = (y 0).val; rw [e0]; omega
theorem read6 (A : S128x64.Idx → EReal) (t : Fin cfg0.N) : ((cfg0.win 6).blk t).view.read (Elt Ideal) A = A := by
  have e0 := (idx_const6 t).1
  have e1 := (idx_const6 t).2
  funext y
  show A (((cfg0.win 6).blk t).view.emb y) = _
  refine congrArg A (funext fun a => Fin.ext ?_)
  match a with
  | ⟨0, _⟩ => show win0_6.index t (0 : Fin 2) * 128 + 1 * (y 0).val = (y 0).val; rw [e0]; omega
  | ⟨1, _⟩ => show win0_6.index t (1 : Fin 2) * 64 + 1 * (y 1).val = (y 1).val; rw [e1]; omega
theorem read7 (A : S64.Idx → EReal) (t : Fin cfg0.N) : ((cfg0.win 7).blk t).view.read (Elt Ideal) A = A := by
  have e0 := idx_const7 t
  funext y
  show A (((cfg0.win 7).blk t).view.emb y) = _
  refine congrArg A (funext fun a => Fin.ext ?_)
  match a with
  | ⟨0, _⟩ => show win0_7.index t (0 : Fin 1) * 64 + 1 * (y 0).val = (y 0).val; rw [e0]; omega
theorem read8 (A : S128x64.Idx → EReal) (t : Fin cfg0.N) : ((cfg0.win 8).blk t).view.read (Elt Ideal) A = A := by
  have e0 := (idx_const8 t).1
  have e1 := (idx_const8 t).2
  funext y
  show A (((cfg0.win 8).blk t).view.emb y) = _
  refine congrArg A (funext fun a => Fin.ext ?_)
  match a with
  | ⟨0, _⟩ => show win0_8.index t (0 : Fin 2) * 128 + 1 * (y 0).val = (y 0).val; rw [e0]; omega
  | ⟨1, _⟩ => show win0_8.index t (1 : Fin 2) * 64 + 1 * (y 1).val = (y 1).val; rw [e1]; omega
theorem read9 (A : S64.Idx → EReal) (t : Fin cfg0.N) : ((cfg0.win 9).blk t).view.read (Elt Ideal) A = A := by
  have e0 := idx_const9 t
  funext y
  show A (((cfg0.win 9).blk t).view.emb y) = _
  refine congrArg A (funext fun a => Fin.ext ?_)
  match a with
  | ⟨0, _⟩ => show win0_9.index t (0 : Fin 1) * 64 + 1 * (y 0).val = (y 0).val; rw [e0]; omega
theorem read10 (A : S64x1.Idx → EReal) (t : Fin cfg0.N) : ((cfg0.win 10).blk t).view.read (Elt Ideal) A = A := by
  have e0 := (idx_const10 t).1
  have e1 := (idx_const10 t).2
  funext y
  show A (((cfg0.win 10).blk t).view.emb y) = _
  refine congrArg A (funext fun a => Fin.ext ?_)
  match a with
  | ⟨0, _⟩ => show win0_10.index t (0 : Fin 2) * 64 + 1 * (y 0).val = (y 0).val; rw [e0]; omega
  | ⟨1, _⟩ => show win0_10.index t (1 : Fin 2) * 1 + 1 * (y 1).val = (y 1).val; rw [e1]; omega
theorem read11 (A : S1.Idx → EReal) (t : Fin cfg0.N) : ((cfg0.win 11).blk t).view.read (Elt Ideal) A = A := by
  have e0 := idx_const11 t
  funext y
  show A (((cfg0.win 11).blk t).view.emb y) = _
  refine congrArg A (funext fun a => Fin.ext ?_)
  match a with
  | ⟨0, _⟩ => show win0_11.index t (0 : Fin 1) * 1 + 1 * (y 0).val = (y 0).val; rw [e0]; omega

/-! ## The windows' blocks of the arrays the region finds -/

theorem blk0 (c : Dev nD) (t : Fin cfg0.N) (p : Fin 2000) (k : Fin 64) :
    iblk m c 0 t (ix2 p k) = V m c main_v41 (ix2 (node t p) k) := read0 (V m c main_v41) t p k
theorem blk1 (c : Dev nD) (t : Fin cfg0.N) (p : Fin 2000) (k : Fin 64) :
    iblk m c 1 t (ix2 p k) = V m c main_arg4 (ix2 (node t p) k) := read1 (V m c main_arg4) t p k
theorem blk2 (c : Dev nD) (t : Fin cfg0.N) : iblk m c 2 t = V m c main_v42 := read2 (V m c main_v42) t
theorem blk3 (c : Dev nD) (t : Fin cfg0.N) : iblk m c 3 t = V m c main_v43 := read3 (V m c main_v43) t
theorem blk4 (c : Dev nD) (t : Fin cfg0.N) : iblk m c 4 t = V m c main_arg11 := read4 (V m c main_arg11) t
theorem blk5 (c : Dev nD) (t : Fin cfg0.N) : iblk m c 5 t = V m c main_arg12 := read5 (V m c main_arg12) t
theorem blk6 (c : Dev nD) (t : Fin cfg0.N) : iblk m c 6 t = V m c main_arg13 := read6 (V m c main_arg13) t
theorem blk7 (c : Dev nD) (t : Fin cfg0.N) : iblk m c 7 t = V m c main_arg14 := read7 (V m c main_arg14) t
theorem blk8 (c : Dev nD) (t : Fin cfg0.N) : iblk m c 8 t = V m c main_arg15 := read8 (V m c main_arg15) t
theorem blk9 (c : Dev nD) (t : Fin cfg0.N) : iblk m c 9 t = V m c main_arg16 := read9 (V m c main_arg16) t
theorem blk10 (c : Dev nD) (t : Fin cfg0.N) : iblk m c 10 t = V m c main_arg17 := read10 (V m c main_arg17) t
theorem blk11 (c : Dev nD) (t : Fin cfg0.N) : iblk m c 11 t = V m c main_arg18 := read11 (V m c main_arg18) t

end Cert.KernelIdeal.Blocks

end
-- ==== Proof.KernelHostVals.lean ====
/-
  What the kernel program's host part hands to the region besides the propagated features, at the exact values:
  the three projection matrices joined side by side, and the three bias rows joined end to end.
-/
import proofs.«162937_j28424093565280_2_alg».proof.Proof.KernelIdealRunHost
import Idealize.ShloMosaic.Lib.StableHlo.Run
import Idealize.ShloMosaic.PureOps.Ideal

set_option maxRecDepth 65536

noncomputable section

namespace Cert.KernelIdeal.HostVals

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ)

/-- The joined projection matrix. -/
theorem V_wall (c : Dev nD) :
    (V m c main_v42 : S64x192.Idx → EReal)
      = concatenate S64x192 1 [⟨S64x64, (m ((c : Thread nD τ).loc main_arg5) : S64x64.Idx → EReal)⟩,
          ⟨S64x64, (m ((c : Thread nD τ).loc main_arg7) : S64x64.Idx → EReal)⟩,
          ⟨S64x64, (m ((c : Thread nD τ).loc main_arg9) : S64x64.Idx → EReal)⟩] concatenates_S64x64_S64x64_S64x64_S64x192_d1 := by
  dsimp only [V, V0]
  simp only [Gen.hostOps0, Gen.hostOps0_1, Gen.hostOps0_2, List.flatten_cons, List.flatten_nil, List.append_nil, List.cons_append,
    List.nil_append]
  after_results
  rfl

/-- The joined bias row. -/
theorem V_ball (c : Dev nD) :
    (V m c main_v43 : S192.Idx → EReal)
      = concatenate S192 0 [⟨S64, (m ((c : Thread nD τ).loc main_arg6) : S64.Idx → EReal)⟩,
          ⟨S64, (m ((c : Thread nD τ).loc main_arg8) : S64.Idx → EReal)⟩,
          ⟨S64, (m ((c : Thread nD τ).loc main_arg10) : S64.Idx → EReal)⟩] concatenates_S64_S64_S64_S192_d0 := by
  dsimp only [V, V0]
  simp only [Gen.hostOps0, Gen.hostOps0_1, Gen.hostOps0_2, List.flatten_cons, List.flatten_nil, List.append_nil, List.cons_append,
    List.nil_append]
  after_results
  rfl

end Cert.KernelIdeal.HostVals

end
-- ==== Proof.KernelArrays.lean ====
/-
  The kernel program's two result arrays after the region as whole-array functions of what the region found, at the
  exact values.

  `convRow P W b i` is node i's convolution row: its propagated row projected by W, plus the bias row b. `hiddenOf` is
  node i's gated-recurrent update from its three convolution rows and its hidden row; `headOf` its read-out. Point t of
  the grid writes back rows 2000·t … 2000·t + 1999 of both result arrays, each row p the update / read-out of node
  2000·t + p, and the 50 blocks tile the arrays.
-/
import proofs.«162937_j28424093565280_2_alg».proof.Proof.KernelBlocks
import proofs.«162937_j28424093565280_2_alg».proof.Proof.KernelHostVals

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Pay Cert.KernelIdeal.Join
open Cert.KernelIdeal.Blocks Cert.KernelIdeal.HostVals Cert.Spec

/-- Node i's convolution row: `q ↦ (∑ k, P (i, k) · W (k, q)) + b q`. -/
def convRow (Pr : S100000x64.Idx → EReal) (W : S64x64.Idx → EReal) (b : S64.Idx → EReal) (i : Fin 100000) : Fin 64 → EReal :=
  fun q => (∑ k : Fin 64, Pr (ix2 i k) * W (ix2 k q)) + b (ix1 q)

/-- Node i's new hidden row at j. -/
def hiddenOf (Pr H : S100000x64.Idx → EReal) (W5 : S64x64.Idx → EReal) (b6 : S64.Idx → EReal) (W7 : S64x64.Idx → EReal)
    (b8 : S64.Idx → EReal) (W9 : S64x64.Idx → EReal) (b10 : S64.Idx → EReal) (Wz : S128x64.Idx → EReal) (bz : S64.Idx → EReal)
    (Wr : S128x64.Idx → EReal) (br : S64.Idx → EReal) (Wh : S128x64.Idx → EReal) (bh : S64.Idx → EReal)
    (i : Fin 100000) (j : Fin 64) : EReal :=
  gruRow (convRow Pr W5 b6 i) (convRow Pr W7 b8 i) (convRow Pr W9 b10 i) (fun k => H (ix2 i k)) Wz bz Wr br Wh bh j

variable (m : (ℓ : Loc nD τ sig) → Buf (Elt Ideal) ℓ)

/-- The update of node i at j, from the arrays the region finds. -/
def hidden (c : Dev nD) (i : Fin 100000) (j : Fin 64) : EReal :=
  hiddenOf (V m c main_v41) (V m c main_arg4) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (V m c main_arg11) (V m c main_arg12) (V m c main_arg13) (V m c main_arg14)
    (V m c main_arg15) (V m c main_arg16) i j

/-- The first result array: row i, column j holds node i's update at j. -/
def G12 (c : Dev nD) : S100000x64.Idx → EReal := fun y => hidden m c ⟨(y 0).val, idx2_lt0 y⟩ ⟨(y 1).val, idx2_lt1 y⟩

/-- The second result array: row i holds node i's read-out. -/
def G13 (c : Dev nD) : S100000x1.Idx → EReal :=
  fun y => headRow (fun k => hidden m c ⟨(y 0).val, idx2_lt0 y⟩ k) (V m c main_arg17) (V m c main_arg18)

/-! ## A point's convolution rows are the nodes' -/

theorem crow_z (c : Dev nD) (t : Fin cfg0.N) (p : Fin 2000) :
    crow (iblk m c 0 t) (iblk m c 2 t) (iblk m c 3 t) 0 (by omega) p
      = convRow (V m c main_v41) (m ((c : Thread nD τ).loc main_arg5)) (m ((c : Thread nD τ).loc main_arg6)) (node t p) := by
  funext q
  unfold crow convRow
  rw [blk2, blk3, V_wall, V_ball, ball_0]
  simp only [blk0, wall_0]

theorem crow_r (c : Dev nD) (t : Fin cfg0.N) (p : Fin 2000) :
    crow (iblk m c 0 t) (iblk m c 2 t) (iblk m c 3 t) 64 (by omega) p
      = convRow (V m c main_v41) (m ((c : Thread nD τ).loc main_arg7)) (m ((c : Thread nD τ).loc main_arg8)) (node t p) := by
  funext q
  unfold crow convRow
  rw [blk2, blk3, V_wall, V_ball, ball_64]
  simp only [blk0, wall_64]

theorem crow_h (c : Dev nD) (t : Fin cfg0.N) (p : Fin 2000) :
    crow (iblk m c 0 t) (iblk m c 2 t) (iblk m c 3 t) 128 (by omega) p
      = convRow (V m c main_v41) (m ((c : Thread nD τ).loc main_arg9)) (m ((c : Thread nD τ).loc main_arg10)) (node t p) := by
  funext q
  unfold crow convRow
  rw [blk2, blk3, V_wall, V_ball, ball_128]
  simp only [blk0, wall_128]

/-- Row p of point t's stored hidden block is node 2000·t + p's update. -/
theorem hidden_block (c : Dev nD) (t : Fin cfg0.N) (p : Fin 2000) (q : Fin 64) :
    k0_pay1 (F := Ideal) (iblk m c 1 t) (k0_pay5 (iblk m c 0 t) (iblk m c 2 t) (iblk m c 3 t))
        (k0_pay6 (iblk m c 0 t) (iblk m c 1 t) (iblk m c 2 t) (iblk m c 3 t) (iblk m c 4 t) (iblk m c 5 t))
        (k0_pay7 (iblk m c 0 t) (iblk m c 1 t) (iblk m c 2 t) (iblk m c 3 t) (iblk m c 6 t)) (k0_pay8 (iblk m c 7 t))
        (iblk m c 8 t) (iblk m c 9 t) (ix2 p q)
      = hidden m c (node t p) q := by
  rw [hidden_apply, crow_z, crow_r, crow_h, blk4, blk5, blk6, blk7, blk8, blk9]
  unfold hidden hiddenOf
  have e : hrow (iblk m c 1 t) p = fun k => V m c main_arg4 (ix2 (node t p) k) := funext fun k => blk1 m c t p k
  rw [e]

/-! ## What a point writes back, and the whole arrays -/

/-- Where point t's block of a row-blocked window sits in its array. -/
theorem emb12 (t : Fin cfg0.N) (p : Fin 2000) (q : Fin 64) :
    ((cfg0.win 12).blk t).view.emb (ix2 p q) = ix2 (node t p) q := by
  have e0 := (idx_rows12 t).1
  have e1 := (idx_rows12 t).2
  refine funext fun a => Fin.ext ?_
  match a with
  | ⟨0, _⟩ => show win0_12.index t (0 : Fin 2) * 2000 + 1 * p.val = t.val * 2000 + p.val; rw [e0]; omega
  | ⟨1, _⟩ => show win0_12.index t (1 : Fin 2) * 64 + 1 * q.val = q.val; rw [e1]; omega

theorem emb13 (t : Fin cfg0.N) (p : Fin 2000) (q : Fin 1) :
    ((cfg0.win 13).blk t).view.emb (ix2 p q) = ix2 (node t p) q := by
  have e0 := (idx_rows13 t).1
  have e1 := (idx_rows13 t).2
  refine funext fun a => Fin.ext ?_
  match a with
  | ⟨0, _⟩ => show win0_13.index t (0 : Fin 2) * 2000 + 1 * p.val = t.val * 2000 + p.val; rw [e0]; omega
  | ⟨1, _⟩ => show win0_13.index t (1 : Fin 2) * 1 + 1 * q.val = q.val; rw [e1]; omega

/-- The result arrays read at explicit coordinates. -/
theorem G12_apply (c : Dev nD) (i : Fin 100000) (j : Fin 64) : G12 m c (ix2 i j) = hidden m c i j := rfl
theorem G13_apply (c : Dev nD) (i : Fin 100000) :
    G13 m c (ix2 i 0) = headRow (fun k => hidden m c i k) (V m c main_arg17) (V m c main_arg18) := rfl

/-- A block of 2000 rows whose row p is row 2000·t + p of a whole array is that array read through point t's block
    (first result window). -/
theorem cut12_eq (t : Fin cfg0.N) (A : Vec Ideal S2000x64 .f32) (G : S100000x64.Idx → EReal)
    (h : ∀ (p : Fin 2000) (q : Fin 64), A (ix2 p q) = G (ix2 (node t p) q)) :
    (cfg0.win 12).cut (grid0.coords t) A = ((cfg0.win 12).blk t).view.read (Elt Ideal) G := by
  funext y
  obtain ⟨p, q, rfl⟩ : ∃ (p : Fin 2000) (q : Fin 64), y = ix2 p q := ⟨y 0, y 1, eq_ix2 y⟩
  show A (ix2 p q) = G (((cfg0.win 12).blk t).view.emb (ix2 p q))
  rw [emb12]
  exact h p q

/-- The same for the second result window (one column). -/
theorem cut13_eq (t : Fin cfg0.N) (A : Vec Ideal S2000x1 .f32) (G : S100000x1.Idx → EReal)
    (h : ∀ (p : Fin 2000), A (ix2 p 0) = G (ix2 (node t p) 0)) :
    (cfg0.win 13).cut (grid0.coords t) A = ((cfg0.win 13).blk t).view.read (Elt Ideal) G := by
  funext y
  obtain ⟨p, q, rfl⟩ : ∃ (p : Fin 2000) (q : Fin 1), y = ix2 p q := ⟨y 0, y 1, eq_ix2 y⟩
  obtain rfl : q = 0 := Subsingleton.elim _ _
  show A (ix2 p 0) = G (((cfg0.win 13).blk t).view.emb (ix2 p 0))
  rw [emb13]
  exact h p

/-- Row p of point t's stored read-out block is node 2000·t + p's read-out. -/
theorem head_block (c : Dev nD) (t : Fin cfg0.N) (p : Fin 2000) :
    k0_pay2 (F := Ideal) (iblk m c 1 t) (k0_pay5 (iblk m c 0 t) (iblk m c 2 t) (iblk m c 3 t))
        (k0_pay6 (iblk m c 0 t) (iblk m c 1 t) (iblk m c 2 t) (iblk m c 3 t) (iblk m c 4 t) (iblk m c 5 t))
        (k0_pay7 (iblk m c 0 t) (iblk m c 1 t) (iblk m c 2 t) (iblk m c 3 t) (iblk m c 6 t)) (k0_pay8 (iblk m c 7 t))
        (iblk m c 8 t) (iblk m c 9 t) (iblk m c 10 t) (iblk m c 11 t) (ix2 p 0)
      = headRow (fun k => hidden m c (node t p) k) (V m c main_arg17) (V m c main_arg18) := by
  rw [head_apply, blk10, blk11]
  have e : (fun k => k0_pay1 (F := Ideal) (iblk m c 1 t) (k0_pay5 (iblk m c 0 t) (iblk m c 2 t) (iblk m c 3 t))
        (k0_pay6 (iblk m c 0 t) (iblk m c 1 t) (iblk m c 2 t) (iblk m c 3 t) (iblk m c 4 t) (iblk m c 5 t))
        (k0_pay7 (iblk m c 0 t) (iblk m c 1 t) (iblk m c 2 t) (iblk m c 3 t) (iblk m c 6 t)) (k0_pay8 (iblk m c 7 t))
        (iblk m c 8 t) (iblk m c 9 t) (ix2 p k)) = fun k => hidden m c (node t p) k := funext fun k => hidden_block m c t p k
  rw [e]

/-- WHAT POINT t WRITES BACK into the first result array is block t of `G12`. -/
theorem flushed12_eq (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after12]
  exact cut12_eq t _ _ fun p q => (hidden_block m c t p q).trans (G12_apply m c (node t p) q).symm

/-- WHAT POINT t WRITES BACK into the second result array is block t of `G13`. -/
theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after13]
  exact cut13_eq t _ _ fun p => (head_block m c t p).trans (G13_apply m c (node t p)).symm

/-- An index of the first result array is in point t's block iff its row is among the block's 2000. -/
theorem mem_blk12 (t : Fin cfg0.N) (i : S100000x64.Idx) :
    i ∈ ((cfg0.win 12).blk t).view.set ↔ ∀ a : Fin 2, win0_12.index t a * S2000x64.size a ≤ (i a).val ∧ (i a).val < win0_12.index t a * S2000x64.size a + S2000x64.size a := by
  show i ∈ ((View.whole main_v44_0).slice (win0_12.rect t)).set ↔ _
  rw [View.set_slice_whole, Rect.mem_set_unit]
  exact Iff.rfl

theorem mem_blk13 (t : Fin cfg0.N) (i : S100000x1.Idx) :
    i ∈ ((cfg0.win 13).blk t).view.set ↔ ∀ a : Fin 2, win0_13.index t a * S2000x1.size a ≤ (i a).val ∧ (i a).val < win0_13.index t a * S2000x1.size a + S2000x1.size a := by
  show i ∈ ((View.whole main_v44_1).slice (win0_13.rect t)).set ↔ _
  rw [View.set_slice_whole, Rect.mem_set_unit]
  exact Iff.rfl

/-- Row r of the arrays is covered by point r / 2000. -/
def pointOf (r : Nat) (hr : r < 100000) : Fin cfg0.N := ⟨r / 2000, by rw [show cfg0.N = 50 from N_0]; omega⟩

theorem cover12 (i : S100000x64.Idx) : ∃ t : Fin cfg0.N, (cfg0.win 12).flush t = true ∧ i ∈ ((cfg0.win 12).blk t).view.set := by
  have h0 : (i 0).val < 100000 := idx2_lt0 i
  have h1 : (i 1).val < 64 := idx2_lt1 i
  refine ⟨pointOf (i 0).val h0, flush0_12 _, ?_⟩
  have e0 := (idx_rows12 (pointOf (i 0).val h0)).1
  have e1 := (idx_rows12 (pointOf (i 0).val h0)).2
  have ev : (pointOf (i 0).val h0).val = (i 0).val / 2000 := rfl
  rw [mem_blk12]
  intro a
  match a with
  | ⟨0, _⟩ => show win0_12.index _ (0 : Fin 2) * 2000 ≤ (i 0).val ∧ (i 0).val < win0_12.index _ (0 : Fin 2) * 2000 + 2000; rw [e0, ev]; omega
  | ⟨1, _⟩ => show win0_12.index _ (1 : Fin 2) * 64 ≤ (i 1).val ∧ (i 1).val < win0_12.index _ (1 : Fin 2) * 64 + 64; rw [e1]; omega

theorem cover13 (i : S100000x1.Idx) : ∃ t : Fin cfg0.N, (cfg0.win 13).flush t = true ∧ i ∈ ((cfg0.win 13).blk t).view.set := by
  have h0 : (i 0).val < 100000 := idx2_lt0 i
  have h1 : (i 1).val < 1 := idx2_lt1 i
  refine ⟨pointOf (i 0).val h0, flush0_13 _, ?_⟩
  have e0 := (idx_rows13 (pointOf (i 0).val h0)).1
  have e1 := (idx_rows13 (pointOf (i 0).val h0)).2
  have ev : (pointOf (i 0).val h0).val = (i 0).val / 2000 := rfl
  rw [mem_blk13]
  intro a
  match a with
  | ⟨0, _⟩ => show win0_13.index _ (0 : Fin 2) * 2000 ≤ (i 0).val ∧ (i 0).val < win0_13.index _ (0 : Fin 2) * 2000 + 2000; rw [e0, ev]; omega
  | ⟨1, _⟩ => show win0_13.index _ (1 : Fin 2) * 1 ≤ (i 1).val ∧ (i 1).val < win0_13.index _ (1 : Fin 2) * 1 + 1; rw [e1]; omega

/-- THE FIRST RESULT ARRAY after the region. -/
theorem final12 (c : Dev nD) : (dats m 0 c).arrAt 12 cfg0.N = G12 m c :=
  (dats m 0 c).arrAt_eq_of_cover 12 (G12 m c) (fun t _ => flushed12_eq m c t) cover12

/-- THE SECOND RESULT ARRAY after the region. -/
theorem final13 (c : Dev nD) : (dats m 0 c).arrAt 13 cfg0.N = G13 m c :=
  (dats m 0 c).arrAt_eq_of_cover 13 (G13 m c) (fun t _ => flushed13_eq m c t) cover13

end Cert.KernelIdeal.Arrays

end
-- ==== Proof.KernelValueRun.lean ====
/-
  The kernel program's run, read: every weakly fair execution terminates with the first result array at `G12` (node
  i's update at column j), the second — after the host's reshape to [4, 25000, 1] — at the read-outs laid out batch by
  batch, and the nineteen argument arrays unchanged.
-/
import proofs.«162937_j28424093565280_2_alg».proof.Proof.KernelArrays
import Idealize.ShloMosaic.Lib.StableHlo.Run

set_option maxRecDepth 16384

noncomputable section

namespace Cert.KernelIdeal.ValueRun

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Hand Cert.KernelIdeal.Arrays

variable (m : (ℓ : Loc nD τ sig) → Buf (Elt Ideal) ℓ) (ρ : Dev nD → PrngReg)

/-- The read-outs reshaped to [4, 25000, 1]. -/
def zOut (c : Dev nD) : S4x25000x1.Idx → EReal := shapeCast S4x25000x1 (G13 m c) shapeCasts_S100000x1_S4x25000x1

/-- The host's reshape after the region reads the second result array as the region left it. -/
theorem tail_v45 (c : Dev nD) :
    Pipeline.afterTail₀ cfgs (dats m) 0 (V0 m) [Gen.hostOps1] c main_v45 = zOut m c := by
  unfold Pipeline.afterTail₀
  show StableHlo.after hostOps1 _ (Proc.devRef .tc main_v45) = _
  after_results
  unfold zOut
  rw [show Pipeline.withArrays spec0 c (V0 m c) (fun w => (dats m 0 c).arrAt w cfg0.N) (Proc.devRef .tc main_v44_1) = G13 m c from
    (Pipeline.withArrays_arr spec0 launch0.win.arr_inj c _ _ 13).trans (final13 m c)]
  rfl

/-- THE RUN, READ. -/
theorem run : θ_run defs (onTc (τ := τ) (main (F := Ideal))) ⟨m, fun _ => 0, ρ⟩ fun r => ∀ c : Dev nD,
      r.2.mem ((c.tc : Thread nD τ).loc main_v45) = zOut m c
      ∧ r.2.mem ((c.tc : Thread nD τ).loc main_v44_0) = G12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c =>
      ⟨((h c).2 main_v45 (Pipeline.mem_restRefs_of main_v45 (by decide) (by decide))).trans (tail_v45 m c),
        ((h c).1 12).trans (final12 m c),
        args_of_post m (dats m) (A_eq m) r h c⟩)
    (run_main m ρ)

end Cert.KernelIdeal.ValueRun

end
-- ==== Proof.GraphTerms.lean ====
/-
  The propagated node features, as one array-level term in the reference program's vocabulary.

  Both programs build the same edge list (the given edges followed by one self-loop per node), the same symmetric
  normalisation weight per edge, and accumulate, into each destination node, the weighted rows of the source nodes.
  The kernel program accumulates the RAW 64-wide feature rows and projects afterwards; this term is that accumulation:
      prop (i, k) = 0 + ∑ over edges e into node i of  x (source e, k) · norm e.
-/
import proofs.«162937_j28424093565280_2_alg».proof.Proof.Gen.ReferenceIdeal.Read

noncomputable section

namespace Cert.Graph

open Idealize.ShloMosaic Cert.ReferenceIdeal Cert.ReferenceIdeal.Gen Cert.ReferenceIdeal.Read

/-- The segment sum over destination nodes of the gathered raw feature rows, each scaled by its edge's normalisation weight. -/
def prop (x0 : FVec Ideal S4x25000x64 .f32) (x1 x2 : IVec S1600000 32) (x3 : FVec Ideal S1600000 .f32) :
    FVec Ideal S100000x64 .f32 :=
  Host.scatterAdd (F := Ideal) scatter_S100000x64_S1700000x1_S1700000x64_1_0_0_1 (val_main_v40 (F := Ideal)) (val_main_v41 (F := Ideal) x2)
    (mulf (Host.gather gather_S100000x64_S1700000x1_S1700000x64_1_0_n_n_0_1_164 (val_main_v0 (F := Ideal) x0) (val_main_v35 (F := Ideal) x1))
      (val_main_v38 (F := Ideal) x1 x2 x3))

end Cert.Graph

end
-- ==== Proof.KernelHostProp.lean ====
/-
  The propagated features the kernel program's host part hands to the region, at the exact values.

  Before the region the program computes, from its argument arrays, the segment sum over destination nodes of the
  gathered raw feature rows, each scaled by its edge's normalisation weight. Operation for operation this is the
  array-level term `Cert.Graph.prop` written in the reference program's vocabulary: both programs spell the same host
  operations over the same shapes and the same dimension records. The host part is read in three stretches — up to the
  degrees' test and inverse root; the choice between root and zero; the weights, the gather and the segment sum — each
  over the values the stretch before left, so that no stage is spelt twice.
-/
import proofs.«162937_j28424093565280_2_alg».proof.Proof.KernelIdealRunHost
import proofs.«162937_j28424093565280_2_alg».proof.Proof.GraphTerms
import Idealize.ShloMosaic.Lib.StableHlo.Run
import Idealize.ShloMosaic.PureOps.Ideal

set_option maxRecDepth 65536

noncomputable section

namespace Cert.KernelIdeal.HostVals

open Idealize.ShloMosaic Idealize.ShloMosaic.TcCoe Idealize.SL.Sem Idealize.ShloMosaic.StableHlo
open Cert.KernelIdeal Cert.KernelIdeal.Gen Cert.KernelIdeal.Hand

/-- A line of host operations run in two stretches. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The two programs' dimension records are the same records. -/
theorem scatRows_eq : Cert.KernelIdeal.scatter_S100000x64_S1700000x1_S1700000x64_1_0_0_1 = Cert.ReferenceIdeal.scatter_S100000x64_S1700000x1_S1700000x64_1_0_0_1 := rfl
theorem gathRows_eq : Cert.KernelIdeal.gather_S100000x64_S1700000x1_S1700000x64_1_0_n_n_0_1_164 = Cert.ReferenceIdeal.gather_S100000x64_S1700000x1_S1700000x64_1_0_n_n_0_1_164 := rfl
theorem scatEnt_eq : Cert.KernelIdeal.scatter_S100000_S1700000x1_S1700000_n_0_0_1 = Cert.ReferenceIdeal.scatter_S100000_S1700000x1_S1700000_n_0_0_1 := rfl
theorem gathEnt_eq : Cert.KernelIdeal.gather_S100000_S1700000x1_S1700000_n_0_n_n_0_1_1 = Cert.ReferenceIdeal.gather_S100000_S1700000x1_S1700000_n_0_n_n_0_1_1 := rfl

open Cert.ReferenceIdeal.Read

/-! ## The first stretch: the reshaped features, the edge lists with self-loops, the weights, the degrees' test and root -/

section ChunkOne
variable (f : Valuation τ sig (Elt Ideal))

set_option maxHeartbeats 1000000 in
theorem c0 : StableHlo.after (Gen.hostOps0 (F := Ideal)) f (Proc.devRef .tc main_v0) = val_main_v0 (F := Ideal) (f (Proc.devRef .tc main_arg0)) := by
  simp only [Gen.hostOps0]
  after_results
  rfl

set_option maxHeartbeats 1000000 in
theorem c2 : StableHlo.after (Gen.hostOps0 (F := Ideal)) f (Proc.devRef .tc main_v2) = val_main_v2 (F := Ideal) (f (Proc.devRef .tc main_arg1)) := by
  simp only [Gen.hostOps0]
  after_results
  rfl

set_option maxHeartbeats 1000000 in
theorem c3 : StableHlo.after (Gen.hostOps0 (F := Ideal)) f (Proc.devRef .tc main_v3) = val_main_v3 (F := Ideal) (f (Proc.devRef .tc main_arg2)) := by
  simp only [Gen.hostOps0]
  after_results
  rfl

set_option maxHeartbeats 1000000 in
theorem c5 : StableHlo.after (Gen.hostOps0 (F := Ideal)) f (Proc.devRef .tc main_v5) = val_main_v5 (F := Ideal) (f (Proc.devRef .tc main_arg3)) := by
  simp only [Gen.hostOps0]
  after_results
  rfl

set_option maxHeartbeats 1000000 in
theorem c10 : StableHlo.after (Gen.hostOps0 (F := Ideal)) f (Proc.devRef .tc main_v10)
    = val_main_v10 (F := Ideal) (f (Proc.devRef .tc main_arg2)) (f (Proc.devRef .tc main_arg3)) := by
  simp only [Gen.hostOps0]
  after_results
  rw [scatEnt_eq]
  unfold val_main_v10 val_main_v9 val_main_cst_1 val_main_v8 val_main_v7 val_main_v6 val_main_cst_0 val_main_v5 val_main_v4 val_main_cst val_main_v3 val_main_v1
  rfl

set_option maxHeartbeats 1000000 in
theorem c11 : StableHlo.after (Gen.hostOps0 (F := Ideal)) f (Proc.devRef .tc main_v11)
    = val_main_v11 (F := Ideal) (f (Proc.devRef .tc main_arg2)) (f (Proc.devRef .tc main_arg3)) := by
  simp only [Gen.hostOps0]
  after_results
  rw [scatEnt_eq]
  unfold val_main_v11 val_main_v8 val_main_v7 val_main_v6 val_main_cst_0 val_main_v5 val_main_v4 val_main_cst val_main_v3 val_main_v1
  rfl

set_option maxHeartbeats 1000000 in
theorem ccst2 : StableHlo.after (Gen.hostOps0 (F := Ideal)) f (Proc.devRef .tc main_cst_2) = val_main_cst_2 (F := Ideal) := by
  simp only [Gen.hostOps0]
  after_results
  rfl

end ChunkOne

/-! ## The second stretch: the inverse root where the degree is positive, else zero -/

section ChunkTwo
variable (W : Valuation τ sig (Elt Ideal))

set_option maxHeartbeats 1000000 in
theorem b12 (x2 : IVec Cert.ReferenceIdeal.S1600000 32) (x3 : FVec Ideal Cert.ReferenceIdeal.S1600000 .f32)
    (h10 : W (Proc.devRef .tc main_v10) = val_main_v10 (F := Ideal) x2 x3)
    (h11 : W (Proc.devRef .tc main_v11) = val_main_v11 (F := Ideal) x2 x3)
    (hc : W (Proc.devRef .tc main_cst_2) = val_main_cst_2 (F := Ideal)) :
    StableHlo.after (Gen.hostOps0_1 (F := Ideal)) W (Proc.devRef .tc main_v12) = val_main_v12 (F := Ideal) x2 x3 := by
  simp only [Gen.hostOps0_1]
  after_results
  show select (W (Proc.devRef .tc main_v10)) (W (Proc.devRef .tc main_v11))
    (broadcastInDim S100000 ![] bcast_S_S100000 (id (W (Proc.devRef .tc main_cst_2)))) = _
  rw [h10, h11, hc]
  rfl

set_option maxHeartbeats 1000000 in
theorem b_v0 : StableHlo.after (Gen.hostOps0_1 (F := Ideal)) W (Proc.devRef .tc main_v0) = W (Proc.devRef .tc main_v0) := by
  simp only [Gen.hostOps0_1]
  after_results
set_option maxHeartbeats 1000000 in
theorem b_v2 : StableHlo.after (Gen.hostOps0_1 (F := Ideal)) W (Proc.devRef .tc main_v2) = W (Proc.devRef .tc main_v2) := by
  simp only [Gen.hostOps0_1]
  after_results
set_option maxHeartbeats 1000000 in
theorem b_v3 : StableHlo.after (Gen.hostOps0_1 (F := Ideal)) W (Proc.devRef .tc main_v3) = W (Proc.devRef .tc main_v3) := by
  simp only [Gen.hostOps0_1]
  after_results
set_option maxHeartbeats 1000000 in
theorem b_v5 : StableHlo.after (Gen.hostOps0_1 (F := Ideal)) W (Proc.devRef .tc main_v5) = W (Proc.devRef .tc main_v5) := by
  simp only [Gen.hostOps0_1]
  after_results

end ChunkTwo

/-! ## The third stretch: the normalisation weights, the gathered rows and their segment sum -/

/-- The accumulation the kernel program's last host operations spell, over the earlier stages' values, is the term
    `Cert.Graph.prop`: the same operations over the same records and shapes. -/
theorem propK_eq (x0 : FVec Ideal Cert.ReferenceIdeal.S4x25000x64 .f32) (x1 x2 : IVec Cert.ReferenceIdeal.S1600000 32)
    (x3 : FVec Ideal Cert.ReferenceIdeal.S1600000 .f32) :
    Host.scatterAdd (F := Ideal) scatter_S100000x64_S1700000x1_S1700000x64_1_0_0_1
      (broadcastInDim S100000x64 ![] bcast_S_S100000x64 (constant S_ FTy.f32 0#32))
      (broadcastInDim S1700000x1 ![0] bcast_S1700000_S1700000x1_0 (val_main_v3 (F := Ideal) x2))
      (mulf
        (Host.gather gather_S100000x64_S1700000x1_S1700000x64_1_0_n_n_0_1_164 (val_main_v0 (F := Ideal) x0)
          (broadcastInDim S1700000x1 ![0] bcast_S1700000_S1700000x1_0
            (select
              (cmpi CmpIPredicate.slt (val_main_v2 (F := Ideal) x1)
                (broadcastInDim S1700000 ![] bcast_S_S1700000 (constantI S_ 32 0#32)))
              (addi (val_main_v2 (F := Ideal) x1) (broadcastInDim S1700000 ![] bcast_S_S1700000 (constantI S_ 32 100000#32)))
              (val_main_v2 (F := Ideal) x1))))
        (broadcastInDim S1700000x64 ![0, 1] bcast_S1700000x1_S1700000x64_0_1
          (broadcastInDim S1700000x1 ![0] bcast_S1700000_S1700000x1_0
            (mulf
              (mulf
                (Host.gather gather_S100000_S1700000x1_S1700000_n_0_n_n_0_1_1 (val_main_v12 (F := Ideal) x2 x3)
                  (broadcastInDim S1700000x1 ![0] bcast_S1700000_S1700000x1_0
                    (select
                      (cmpi CmpIPredicate.slt (val_main_v2 (F := Ideal) x1)
                        (broadcastInDim S1700000 ![] bcast_S_S1700000 (constantI S_ 32 0#32)))
                      (addi (val_main_v2 (F := Ideal) x1) (broadcastInDim S1700000 ![] bcast_S_S1700000 (constantI S_ 32 100000#32)))
                      (val_main_v2 (F := Ideal) x1))))
                (val_main_v5 (F := Ideal) x3))
              (Host.gather gather_S100000_S1700000x1_S1700000_n_0_n_n_0_1_1 (val_main_v12 (F := Ideal) x2 x3)
                (broadcastInDim S1700000x1 ![0] bcast_S1700000_S1700000x1_0
                  (select
                    (cmpi CmpIPredicate.slt (val_main_v3 (F := Ideal) x2)
                      (broadcastInDim S1700000 ![] bcast_S_S1700000 (constantI S_ 32 0#32)))
                    (addi (val_main_v3 (F := Ideal) x2) (broadcastInDim S1700000 ![] bcast_S_S1700000 (constantI S_ 32 100000#32)))
                    (val_main_v3 (F := Ideal) x2))))))))
      = Cert.Graph.prop x0 x1 x2 x3 := by
  rw [scatRows_eq, gathRows_eq, gathEnt_eq]
  unfold Cert.Graph.prop val_main_v41 val_main_v40 val_main_cst_8 val_main_v38 val_main_v37 val_main_v28 val_main_v20 val_main_v27
    val_main_v19 val_main_v26 val_main_v25 val_main_v24 val_main_v23 val_main_c_5 val_main_v22 val_main_v21 val_main_c_4
    val_main_v18 val_main_v17 val_main_v16 val_main_v15 val_main_c_3 val_main_v14 val_main_v13 val_main_c val_main_v35
    val_main_v34 val_main_v33 val_main_v32 val_main_c_7 val_main_v31 val_main_v30 val_main_c_6
  rfl

set_option maxHeartbeats 4000000 in
/-- The third stretch's last accumulation, over the values the first two stretches left. -/
theorem stretch3 (W : Valuation τ sig (Elt Ideal)) (x0 : FVec Ideal Cert.ReferenceIdeal.S4x25000x64 .f32)
    (x1 x2 : IVec Cert.ReferenceIdeal.S1600000 32) (x3 : FVec Ideal Cert.ReferenceIdeal.S1600000 .f32)
    (h0 : W (Proc.devRef .tc main_v0) = val_main_v0 (F := Ideal) x0)
    (h2 : W (Proc.devRef .tc main_v2) = val_main_v2 (F := Ideal) x1)
    (h3 : W (Proc.devRef .tc main_v3) = val_main_v3 (F := Ideal) x2)
    (h5 : W (Proc.devRef .tc main_v5) = val_main_v5 (F := Ideal) x3)
    (h12 : W (Proc.devRef .tc main_v12) = val_main_v12 (F := Ideal) x2 x3) :
    StableHlo.after (Gen.hostOps0_2 (F := Ideal)) W (Proc.devRef .tc main_v41) = Cert.Graph.prop x0 x1 x2 x3 := by
  simp only [Gen.hostOps0_2]
  after_results
  rw [h0, h2, h3, h5, h12]
  exact propK_eq x0 x1 x2 x3

variable (m : (ℓ : Loc nD τ sig) → Buf (Elt Ideal) ℓ)

/-- The region finds the propagated features in its first window's array. -/
theorem V_prop (c : Dev nD) :
    (V m c main_v41 : S100000x64.Idx → EReal)
      = Cert.Graph.prop (m ((c : Thread nD τ).loc main_arg0)) (m ((c : Thread nD τ).loc main_arg1))
          (m ((c : Thread nD τ).loc main_arg2)) (m ((c : Thread nD τ).loc main_arg3)) := by
  dsimp only [V, V0]
  simp only [List.flatten_cons, List.flatten_nil, List.append_nil]
  rw [after_append, after_append]
  exact stretch3 _ _ _ _ _ (by rw [b_v0, c0]) (by rw [b_v2, c2]) (by rw [b_v3, c3]) (by rw [b_v5, c5])
    (b12 _ _ _ (c10 _) (c11 _) (ccst2 _))

end Cert.KernelIdeal.HostVals

end
-- ==== Proof.RefGates.lean ====
/-
  The reference program's two results read at an index.

  After its three graph convolutions the reference computes, for every node i (a row of 64),
      Z = σ([cz, h]·Wz + bz),  R = σ([cr, h]·Wr + br),  H = tanh([ch, h ⊙ R]·Wh + bh),
      h' = Z ⊙ h + (1 − Z) ⊙ H,   z = relu(h')·Whead + bhead,
  with σ spelt 1 / (1 + exp(−x)).  The convolution outputs stay opaque arrays here; every later operation is read
  at an index, and the element (i, j) of the new hidden array and the element (b, r, 0) of the read-out are shown to
  be the row functions of the specification applied to row i (respectively row b·25000 + r).
-/
import proofs.«162937_j28424093565280_2_alg».proof.Proof.Gen.ReferenceIdeal.Read
import proofs.«162937_j28424093565280_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.RefGates

open Cert.ReferenceIdeal Cert.ReferenceIdeal.Gen Cert.ReferenceIdeal.Read Idealize.ShloMosaic Idealize.ShloMosaic.ValueIdx

/-! ## Joined rows -/

/-- Two arrays of 64 columns joined along the columns, read at (i, k): column k of the joined row of node i. -/
theorem cat_apply (a b : (⟨S100000x64, .f32⟩ : BufTy).Contents (Elt Ideal)) (i : Fin 100000) (k : Fin 128) :
    concatenate S100000x128 1 [⟨S100000x64, a⟩, ⟨S100000x64, b⟩] concatenates_S100000x64_S100000x64_S100000x128_d1 (ix2 i k)
      = Cert.Spec.join (fun k => a (ix2 i k)) (fun k => b (ix2 i k)) k := by
  unfold Cert.Spec.join
  by_cases hk : k.val < 64
  · rw [dif_pos hk]
    exact concatenate_pair_apply_left (1 : Fin S100000x128.rank) a b _ (ix2 i k) rfl (ix2 i ⟨k.val, hk⟩)
      (fun c => by match c with | ⟨0, _⟩ => rfl | ⟨1, _⟩ => rfl)
  · rw [dif_neg hk]
    exact concatenate_pair_apply_right (1 : Fin S100000x128.rank) a b _ (ix2 i k) rfl rfl
      (ix2 i ⟨k.val - 64, by have := k.isLt; omega⟩)
      (fun c hc => by match c, hc with | ⟨0, _⟩, _ => rfl | ⟨1, _⟩, hc => exact absurd rfl hc)
      (by show (k.val - 64) + 64 = k.val; omega)

/-! ## Index bookkeeping: the contraction and bias indices are the coordinate pairs -/

theorem lidx_v47 (i : Fin 100000) (j : Fin 64) (k : Fin 128) : lidx_main_v47 (ix2 i j) k = ix2 i k :=
  funext fun a => Fin.ext (by match a with | ⟨0, _⟩ => rfl | ⟨1, _⟩ => rfl)
theorem ridx_v47 (i : Fin 100000) (j : Fin 64) (k : Fin 128) : ridx_main_v47 (ix2 i j) k = ix2 k j :=
  funext fun a => Fin.ext (by match a with | ⟨0, _⟩ => rfl | ⟨1, _⟩ => rfl)

theorem lidx_v103 (i : Fin 100000) (j : Fin 64) (k : Fin 128) : lidx_main_v103 (ix2 i j) k = ix2 i k :=
  funext fun a => Fin.ext (by match a with | ⟨0, _⟩ => rfl | ⟨1, _⟩ => rfl)
theorem ridx_v103 (i : Fin 100000) (j : Fin 64) (k : Fin 128) : ridx_main_v103 (ix2 i j) k = ix2 k j :=
  funext fun a => Fin.ext (by match a with | ⟨0, _⟩ => rfl | ⟨1, _⟩ => rfl)

theorem lidx_v160 (i : Fin 100000) (j : Fin 64) (k : Fin 128) : lidx_main_v160 (ix2 i j) k = ix2 i k :=
  funext fun a => Fin.ext (by match a with | ⟨0, _⟩ => rfl | ⟨1, _⟩ => rfl)
theorem ridx_v160 (i : Fin 100000) (j : Fin 64) (k : Fin 128) : ridx_main_v160 (ix2 i j) k = ix2 k j :=
  funext fun a => Fin.ext (by match a with | ⟨0, _⟩ => rfl | ⟨1, _⟩ => rfl)

theorem bias_v49 (i : Fin 100000) (j : Fin 64) : idx_main_v48 (idx_main_v49 (ix2 i j)) = ix1 j :=
  funext fun a => Fin.ext (by match a with | ⟨0, _⟩ => rfl)

theorem bias_v105 (i : Fin 100000) (j : Fin 64) : idx_main_v104 (idx_main_v105 (ix2 i j)) = ix1 j :=
  funext fun a => Fin.ext (by match a with | ⟨0, _⟩ => rfl)

theorem bias_v162 (i : Fin 100000) (j : Fin 64) : idx_main_v161 (idx_main_v162 (ix2 i j)) = ix1 j :=
  funext fun a => Fin.ext (by match a with | ⟨0, _⟩ => rfl)

/-- The logistic function as the reference spells it, with the float word of 1.0. -/
theorem logistic_words (x : EReal) :
    Ideal.div (Ideal.ofBits .f32 0x3F800000#32) (Ideal.ofBits .f32 0x3F800000#32 + Ideal.exp (-x)) = Ideal.logistic x := by
  rw [Ideal.ofBits_one_f32]; rfl

/-- A joined row against a 128 × 64 matrix, plus a bias row, at (i, j): the dense layer of the specification. -/
theorem dense_cat (a b : (⟨S100000x64, .f32⟩ : BufTy).Contents (Elt Ideal)) (W : (⟨S128x64, .f32⟩ : BufTy).Contents (Elt Ideal)) (bias : (⟨S64, .f32⟩ : BufTy).Contents (Elt Ideal))
    (i : Fin 100000) (j : Fin 64) :
    (∑ k : Fin 128, concatenate S100000x128 1 [⟨S100000x64, a⟩, ⟨S100000x64, b⟩]
        concatenates_S100000x64_S100000x64_S100000x128_d1 (ix2 i k) * W (ix2 k j)) + bias (ix1 j)
      = Cert.Spec.dense (Cert.Spec.join (fun k => a (ix2 i k)) (fun k => b (ix2 i k))) W bias j := by
  unfold Cert.Spec.dense
  congr 1
  exact Finset.sum_congr rfl fun k _ => by rw [cat_apply]

variable (x0 : (⟨S4x25000x64, .f32⟩ : BufTy).Contents (Elt Ideal)) (x1 x2 : (⟨S1600000, .i32⟩ : BufTy).Contents (Elt Ideal)) (x3 : (⟨S1600000, .f32⟩ : BufTy).Contents (Elt Ideal))
  (x4 : (⟨S100000x64, .f32⟩ : BufTy).Contents (Elt Ideal))
  (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
  (x9 : (⟨S64x64, .f32⟩ : BufTy).Contents (Elt Ideal)) (x10 : (⟨S64, .f32⟩ : BufTy).Contents (Elt Ideal))
  (x11 : (⟨S128x64, .f32⟩ : BufTy).Contents (Elt Ideal)) (x12 : (⟨S64, .f32⟩ : BufTy).Contents (Elt Ideal)) (x13 : (⟨S128x64, .f32⟩ : BufTy).Contents (Elt Ideal)) (x14 : (⟨S64, .f32⟩ : BufTy).Contents (Elt Ideal))
  (x15 : (⟨S128x64, .f32⟩ : BufTy).Contents (Elt Ideal)) (x16 : (⟨S64, .f32⟩ : BufTy).Contents (Elt Ideal)) (x17 : (⟨S64x1, .f32⟩ : BufTy).Contents (Elt Ideal)) (x18 : (⟨S1, .f32⟩ : BufTy).Contents (Elt Ideal))

/-! ## The two gates -/

/-- The reference's spelled-out gate over arbitrary arrays: logistic of the dense layer of the joined rows. -/
theorem gate_words (c h : (⟨S100000x64, .f32⟩ : BufTy).Contents (Elt Ideal)) (W : (⟨S128x64, .f32⟩ : BufTy).Contents (Elt Ideal)) (b : (⟨S64, .f32⟩ : BufTy).Contents (Elt Ideal))
    (i : Fin 100000) (j : Fin 64) :
    Ideal.div (Ideal.ofBits .f32 0x3F800000#32) (Ideal.ofBits .f32 0x3F800000#32 + Ideal.exp (-((∑ k : Fin 128,
        concatenate S100000x128 1 [⟨S100000x64, c⟩, ⟨S100000x64, h⟩]
          concatenates_S100000x64_S100000x64_S100000x128_d1 (ix2 i k) * W (ix2 k j)) + b (ix1 j))))
      = Cert.Spec.gateZ (fun k => c (ix2 i k)) (fun k => h (ix2 i k)) W b j := by
  rw [logistic_words]
  exact congrArg Ideal.logistic (dense_cat c h W b i j)

/-- The update gate at (i, j). -/
theorem ref_Z_apply (i : Fin 100000) (j : Fin 64) :
    val_main_v56 (F := Ideal) x0 x1 x2 x3 x4 x5 x6 x11 x12 (ix2 i j)
      = Cert.Spec.gateZ (fun k => val_main_v45 (F := Ideal) x0 x1 x2 x3 x5 x6 (ix2 i k)) (fun k => x4 (ix2 i k)) x11 x12 j := by
  rw [val_main_v56_apply, val_main_v55_apply, val_main_cst_10_apply, val_main_v54_apply, val_main_v53_apply,
    val_main_cst_9_apply, val_main_v52_apply, val_main_v51_apply, val_main_v50_apply, val_main_v49_apply,
    val_main_v48_apply, val_main_v47_apply]
  unfold val_main_v46
  generalize val_main_v45 (F := Ideal) x0 x1 x2 x3 x5 x6 = C
  simp only [lidx_v47, ridx_v47, bias_v49, Ideal.hostDivf_def, Ideal.addf_def,
    Ideal.hostUnary_exp_def, Ideal.hostNegf_def, Ideal.negf_def, Ideal.ofBits_def]
  exact gate_words C x4 x11 x12 i j

/-- The reset gate at (i, j). -/
theorem ref_R_apply (i : Fin 100000) (j : Fin 64) :
    val_main_v112 (F := Ideal) x0 x1 x2 x3 x4 x7 x8 x13 x14 (ix2 i j)
      = Cert.Spec.gateZ (fun k => val_main_v101 (F := Ideal) x0 x1 x2 x3 x7 x8 (ix2 i k)) (fun k => x4 (ix2 i k)) x13 x14 j := by
  rw [val_main_v112_apply, val_main_v111_apply, val_main_cst_23_apply, val_main_v110_apply, val_main_v109_apply,
    val_main_cst_22_apply, val_main_v108_apply, val_main_v107_apply, val_main_v106_apply, val_main_v105_apply,
    val_main_v104_apply, val_main_v103_apply]
  unfold val_main_v102
  generalize val_main_v101 (F := Ideal) x0 x1 x2 x3 x7 x8 = C
  simp only [lidx_v103, ridx_v103, bias_v105, Ideal.hostDivf_def, Ideal.addf_def,
    Ideal.hostUnary_exp_def, Ideal.hostNegf_def, Ideal.negf_def, Ideal.ofBits_def]
  exact gate_words C x4 x13 x14 i j

/-! ## The candidate and the new hidden row -/

/-- The reference's candidate over arbitrary arrays: the second joined piece is the hidden row times the reset gate. -/
theorem cand_words (c h : (⟨S100000x64, .f32⟩ : BufTy).Contents (Elt Ideal)) (R : Fin 64 → EReal) (p : (⟨S100000x64, .f32⟩ : BufTy).Contents (Elt Ideal))
    (i : Fin 100000) (hp : ∀ k : Fin 64, p (ix2 i k) = h (ix2 i k) * R k)
    (W : (⟨S128x64, .f32⟩ : BufTy).Contents (Elt Ideal)) (b : (⟨S64, .f32⟩ : BufTy).Contents (Elt Ideal)) (j : Fin 64) :
    Ideal.tanh ((∑ k : Fin 128, concatenate S100000x128 1 [⟨S100000x64, c⟩, ⟨S100000x64, p⟩]
          concatenates_S100000x64_S100000x64_S100000x128_d1 (ix2 i k) * W (ix2 k j)) + b (ix1 j))
      = Cert.Spec.cand (fun k => c (ix2 i k)) (fun k => h (ix2 i k)) R W b j := by
  rw [dense_cat c p W b i j, show (fun k => p (ix2 i k)) = fun k => h (ix2 i k) * R k from funext hp]
  rfl

/-- The candidate at (i, j): the reset gate enters through the product with the hidden row. -/
theorem ref_cand_apply (i : Fin 100000) (j : Fin 64) :
    val_main_v164 (F := Ideal) x0 x1 x2 x3 x4 x7 x8 x9 x10 x13 x14 x15 x16 (ix2 i j)
      = Cert.Spec.cand (fun k => val_main_v157 (F := Ideal) x0 x1 x2 x3 x9 x10 (ix2 i k)) (fun k => x4 (ix2 i k))
          (Cert.Spec.gateZ (fun k => val_main_v101 (F := Ideal) x0 x1 x2 x3 x7 x8 (ix2 i k)) (fun k => x4 (ix2 i k)) x13 x14)
          x15 x16 j := by
  have h158 : ∀ k : Fin 64, val_main_v158 (F := Ideal) x0 x1 x2 x3 x4 x7 x8 x13 x14 (ix2 i k)
      = x4 (ix2 i k) * Cert.Spec.gateZ (fun k => val_main_v101 (F := Ideal) x0 x1 x2 x3 x7 x8 (ix2 i k))
          (fun k => x4 (ix2 i k)) x13 x14 k :=
    fun k => by rw [val_main_v158_apply, ref_R_apply, Ideal.mulf_def]
  rw [val_main_v164_apply, val_main_v163_apply, val_main_v162_apply, val_main_v161_apply, val_main_v160_apply]
  unfold val_main_v159
  generalize val_main_v157 (F := Ideal) x0 x1 x2 x3 x9 x10 = C at *
  generalize val_main_v158 (F := Ideal) x0 x1 x2 x3 x4 x7 x8 x13 x14 = P at *
  generalize Cert.Spec.gateZ (fun k => val_main_v101 (F := Ideal) x0 x1 x2 x3 x7 x8 (ix2 i k)) (fun k => x4 (ix2 i k)) x13 x14 = R at *
  simp only [lidx_v160, ridx_v160, bias_v162, Ideal.addf_def, Ideal.hostUnary_tanh_def]
  exact cand_words C x4 R P i h158 x15 x16 j

/-- The convex combination of the hidden entry and the candidate, with the float word of 1.0. -/
theorem gru_words (z c hv : EReal) :
    FloatOps.addf (F := Ideal) (φ := .f32) (FloatOps.mulf z hv)
        (FloatOps.mulf (FloatOps.subf (FloatOps.ofBits .f32 0x3F800000#32) z) c)
      = z * hv + (Cert.Spec.one - z) * c := rfl

/-- RESULT 1: the new hidden array at (i, j) is the gated-recurrent row function of node i's rows. -/
theorem ref_hidden_apply (i : Fin 100000) (j : Fin 64) :
    val_main_v169 (F := Ideal) x0 x1 x2 x3 x4 x5 x6 x7 x8 x9 x10 x11 x12 x13 x14 x15 x16 (ix2 i j)
      = Cert.Spec.gruRow (fun k => val_main_v45 (F := Ideal) x0 x1 x2 x3 x5 x6 (ix2 i k))
          (fun k => val_main_v101 (F := Ideal) x0 x1 x2 x3 x7 x8 (ix2 i k))
          (fun k => val_main_v157 (F := Ideal) x0 x1 x2 x3 x9 x10 (ix2 i k))
          (fun k => x4 (ix2 i k)) x11 x12 x13 x14 x15 x16 j := by
  rw [val_main_v169_apply, val_main_v165_apply, val_main_v168_apply, val_main_v167_apply, val_main_v166_apply,
    val_main_cst_35_apply, ref_Z_apply, ref_cand_apply]
  generalize val_main_v45 (F := Ideal) x0 x1 x2 x3 x5 x6 = C45
  generalize val_main_v101 (F := Ideal) x0 x1 x2 x3 x7 x8 = C101
  generalize val_main_v157 (F := Ideal) x0 x1 x2 x3 x9 x10 = C157
  exact gru_words _ _ _

/-! ## The read-out -/

theorem lidx_v171 (n : Fin 100000) (k : Fin 64) : lidx_main_v171 (ix2 n (0 : Fin 1)) k = ix2 n k :=
  funext fun a => Fin.ext (by match a with | ⟨0, _⟩ => rfl | ⟨1, _⟩ => rfl)
theorem ridx_v171 (n : Fin 100000) (k : Fin 64) : ridx_main_v171 (ix2 n (0 : Fin 1)) k = ix2 k (0 : Fin 1) :=
  funext fun a => Fin.ext (by match a with | ⟨0, _⟩ => rfl | ⟨1, _⟩ => rfl)
theorem bias_v173 (n : Fin 100000) : idx_main_v172 (idx_main_v173 (ix2 n (0 : Fin 1))) = ix1 (0 : Fin 1) :=
  funext fun a => Fin.ext (by match a with | ⟨0, _⟩ => rfl)
/-- The reshape [100000, 1] → [4, 25000, 1] reads row b·25000 + r. -/
theorem idx_v175 (b : Fin 4) (r : Fin 25000) :
    idx_main_v175 (ix3 b r (0 : Fin 1)) = ix2 (⟨b.val * 25000 + r.val, by have := b.isLt; have := r.isLt; omega⟩ : Fin 100000) (0 : Fin 1) :=
  funext fun a => Fin.ext (by
    match a with
    | ⟨0, _⟩ => show ((b.val * 25000 + r.val) * 1 + 0) / 1 = b.val * 25000 + r.val; omega
    | ⟨1, _⟩ => rfl)

/-- The product of ANY 100000 × 64 array with the head column, read at an index: the sum over the 64 columns. -/
theorem head_dot (Y : FVec Ideal S100000x64 .f32) (Wh : FVec Ideal S64x1 .f32) (i : S100000x1.Idx) :
    Host.dotGeneral (F := Ideal) (φ₁ := .f32) (φ₂ := .f32) dot_S100000x64_S64x1_S100000x1_1_0_0_1_n_n none Y Wh i
      = ∑ k : Fin 64, Y (lidx_main_v171 i k) * Wh (ridx_main_v171 i k) := by
  simp only [Host.dotGeneral]
  rw [Ideal.dotGeneral_apply, ← Equiv.sum_comp (ValueIdx.contrEquiv1 dot_S100000x64_S64x1_S100000x1_1_0_0_1_n_n 64 rfl rfl).symm]
  refine Finset.sum_congr rfl fun k _ => ?_
  have hk := ValueIdx.contrEquiv1_symm_val dot_S100000x64_S64x1_S100000x1_1_0_0_1_n_n 64 rfl rfl k
  have el : dot_S100000x64_S64x1_S100000x1_1_0_0_1_n_n.lhsIdx i ((ValueIdx.contrEquiv1 dot_S100000x64_S64x1_S100000x1_1_0_0_1_n_n 64 rfl rfl).symm k) = lidx_main_v171 i k := funext fun a => Fin.ext (by
    match a with
    | ⟨0, _⟩ => exact lhs_main_v171_0 _ _
    | ⟨1, _⟩ => exact (lhs_main_v171_1 _ _).trans hk)
  have er : dot_S100000x64_S64x1_S100000x1_1_0_0_1_n_n.rhsIdx i ((ValueIdx.contrEquiv1 dot_S100000x64_S64x1_S100000x1_1_0_0_1_n_n 64 rfl rfl).symm k) = ridx_main_v171 i k := funext fun a => Fin.ext (by
    match a with
    | ⟨0, _⟩ => exact (rhs_main_v171_0 _ _).trans hk
    | ⟨1, _⟩ => exact rhs_main_v171_1 _ _)
  rw [el, er]

/-- The read-out chain applied to ANY hidden array H (rectify against the zero word, multiply by the head column, add
    the head bias), at row n: the head row function of row n of H. -/
theorem head_of (H : FVec Ideal S100000x64 .f32) (Wh : FVec Ideal S64x1 .f32) (bh : FVec Ideal S1 .f32) (n : Fin 100000) :
    addf (F := Ideal) (Host.dotGeneral (F := Ideal) (φ₁ := .f32) (φ₂ := .f32) dot_S100000x64_S64x1_S100000x1_1_0_0_1_n_n none
          (maximumf (F := Ideal) H (val_main_call3_v0 (F := Ideal))) Wh)
        (val_main_v173 (F := Ideal) bh) (ix2 n (0 : Fin 1))
      = Cert.Spec.headRow (fun k => H (ix2 n k)) Wh bh := by
  rw [ValueIdx.addf_apply, head_dot, val_main_v173_apply, val_main_v172_apply, bias_v173]
  unfold Cert.Spec.headRow
  congr 1
  refine Finset.sum_congr rfl fun k _ => ?_
  rw [lidx_v171, ridx_v171, ValueIdx.maximumf_apply, val_main_call3_v0_apply, val_main_call3_cst_apply]
  rfl

/-- RESULT 0: the read-out at (b, r, 0) is the head row function of the new hidden row of node b·25000 + r. -/
theorem ref_head_apply (b : Fin 4) (r : Fin 25000) :
    val_main_v175 (F := Ideal) x0 x1 x2 x3 x4 x5 x6 x7 x8 x9 x10 x11 x12 x13 x14 x15 x16 x17 x18 (ix3 b r (0 : Fin 1))
      = Cert.Spec.headRow (fun k => val_main_v169 (F := Ideal) x0 x1 x2 x3 x4 x5 x6 x7 x8 x9 x10 x11 x12 x13 x14 x15 x16
          (ix2 (⟨b.val * 25000 + r.val, by have := b.isLt; have := r.isLt; omega⟩ : Fin 100000) k)) x17 x18 := by
  rw [val_main_v175_apply, idx_v175]
  unfold val_main_v174 val_main_v171 val_main_v170
  generalize val_main_v169 (F := Ideal) x0 x1 x2 x3 x4 x5 x6 x7 x8 x9 x10 x11 x12 x13 x14 x15 x16 = H
  exact head_of H x17 x18 _

end Cert.RefGates

end
-- ==== Proof.LibSegmentRows.lean ====
/-
  Row gathers and row scatter-adds read at an index, and the linearity law that moves a matrix product across a
  segment sum.

  A row gather takes rows of an N × C table at an E × 1 array of signed start indices: result row e is the table's
  row at the start index clamped into [0, N − 1]. A row scatter-add adds the rows of an E × C array of updates into
  an N × C table: update row e lands on table row i exactly when its start index, read signed, IS i (no clamping: a
  start index outside [0, N − 1] drops the update). The one-column forms (a vector of N entries, E updates) are
  stated next to them. Last, the algebra: for real-valued data, multiplying every summand's row by a fixed matrix
  and weighting it commutes with the finite sum.
-/
import Mathlib
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.SegmentRows

open Idealize.ShloMosaic Idealize.ShloMosaic.ValueIdx

/-! ## The four dimension records -/

/-- Gather of rows: operand N × C, start indices E × 1, result E × C; the start index names the row (axis 0, collapsed),
    the column axis is the one offset axis, read whole. -/
abbrev rowsG (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of entries: operand of N entries, start indices E × 1, result of E entries. -/
abbrev entriesG (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Scatter of rows: operand N × C, scatter indices E × 1, updates E × C; the index names the row (axis 0, inserted),
    the updates' column axis is the one window axis. -/
abbrev rowsS (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of entries: operand of N entries, scatter indices E × 1, E updates. -/
abbrev entriesS (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## Gathers at an index -/

/-- The row a gather reads for position e: the start index read signed and clamped into [0, N − 1]. -/
def srcRow {N E w : Nat} (hN : 0 < N) (idx : IVec ⟨2, ![E, 1]⟩ w) (e : Fin E) : Fin N :=
  ⟨min (idx (ix2 e 0)).toInt.toNat (N - 1), by omega⟩

/-! ## Coordinates of an index, typed by the extent itself -/

section Coords

/-- The row coordinate of a rank-2 index, as an element of Fin n0. -/
abbrev row2 {n0 n1 : Nat} (q : (⟨2, ![n0, n1]⟩ : Shape).Idx) : Fin n0 := ⟨(q 0).val, idx2_lt0 q⟩
/-- The column coordinate of a rank-2 index, as an element of Fin n1. -/
abbrev col2 {n0 n1 : Nat} (q : (⟨2, ![n0, n1]⟩ : Shape).Idx) : Fin n1 := ⟨(q 1).val, idx2_lt1 q⟩
/-- A rank-2 index is ix2 of its row and column. -/
theorem eq_ix2_row_col {n0 n1 : Nat} (q : (⟨2, ![n0, n1]⟩ : Shape).Idx) : q = ix2 (row2 q) (col2 q) := by
  funext a; match a with | ⟨0, _⟩ => rfl | ⟨1, _⟩ => rfl
/-- The coordinate of a rank-1 index, as an element of Fin n. -/
abbrev pos1 {n : Nat} (q : (⟨1, ![n]⟩ : Shape).Idx) : Fin n := ⟨(q 0).val, (q 0).isLt⟩
/-- A rank-1 index is ix1 of its coordinate. -/
theorem eq_ix1_pos {n : Nat} (q : (⟨1, ![n]⟩ : Shape).Idx) : q = ix1 (pos1 q) := by
  funext a; match a with | ⟨0, _⟩ => rfl

end Coords
section Gather
variable {α : Type}

/-- In Fin 2, 1 is not 0. -/
theorem fin2_one_ne_zero : (1 : Fin 2) ≠ 0 := by decide

/-- Axis 0 of the operand index a row gather reads at (e, c): the clamped start index. -/
theorem rowsG_operandIdx_zero {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    ((rowsG N E C wf).operandIdx (ix2 e c) idx 0).val = min (idx (ix2 e 0)).toInt.toNat (N - 1) := by
  show (rowsG N E C wf).start (ix2 e c) idx 0 + (rowsG N E C wf).batchCoord (ix2 e c) 0
      + (rowsG N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsG N E C wf).startIndexMap from List.mem_singleton.mpr rfl)]
  have hsi : (rowsG N E C wf).siIdx (ix2 e c) ⟨List.idxOf (0 : Fin 2) (rowsG N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Axis 1 of the operand index a row gather reads at (e, c): the column c. -/
theorem rowsG_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    ((rowsG N E C wf).operandIdx (ix2 e c) idx 1).val = c.val := by
  show (rowsG N E C wf).start (ix2 e c) idx 1 + (rowsG N E C wf).batchCoord (ix2 e c) 1
      + (rowsG N E C wf).offCoord (ix2 e c) 1 = _
  rw [GatherDims.batchCoord_eq_zero _ _ _ List.not_mem_nil]
  have hs : (rowsG N E C wf).start (ix2 e c) idx 1 = 0 := by
    unfold GatherDims.start
    rw [dif_neg (show ¬ (1 : Fin 2) ∈ (rowsG N E C wf).startIndexMap from fun h => fin2_one_ne_zero (List.mem_singleton.mp h))]
  rw [hs]
  simp only [Nat.add_zero, Nat.zero_add]
  rfl

/-- THE ROW GATHER AT (e, c): the operand at row srcRow e, column c. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsG N E C wf) x idx (ix2 e c) = x (ix2 (srcRow hN idx e) c) := by
  unfold Host.gather
  congr 1
  funext a
  match a with
  | ⟨0, _⟩ => exact Fin.ext (rowsG_operandIdx_zero wf idx e c)
  | ⟨1, _⟩ => exact Fin.ext (rowsG_operandIdx_one wf idx e c)

/-- THE ENTRY GATHER AT e: the operand at entry srcRow e. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesG N E wf) x idx (ix1 e) = x (ix1 (srcRow hN idx e)) := by
  unfold Host.gather
  congr 1
  funext a
  obtain rfl : a = 0 := Subsingleton.elim _ _
  refine Fin.ext ?_
  show (entriesG N E wf).start (ix1 e) idx 0 + (entriesG N E wf).batchCoord (ix1 e) 0
      + (entriesG N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesG N E wf).startIndexMap from List.mem_singleton.mpr rfl)]
  have hsi : (entriesG N E wf).siIdx (ix1 e) ⟨List.idxOf (0 : Fin 1) (entriesG N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Scatter-adds at an index -/

section Scatter

/-- An operand axis is kept by a scatter (receives a window axis) exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- A row scatter's start on axis 0 for update (e, c): the scatter index of row e, read signed. -/
theorem rowsS_start_zero {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowsS N E C wf).start (ix2 e c) idx 0 = (idx (ix2 e 0)).toInt := by
  unfold ScatterDims.start
  rw [dif_pos (show (0 : Fin 2) ∈ (rowsS N E C wf).scatterDimsToOperandDims from List.mem_singleton.mpr rfl)]
  have hsi : (rowsS N E C wf).siIdx (ix2 e c) ⟨List.idxOf (0 : Fin 2) (rowsS N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- A row scatter's start on axis 1 is 0: the scatter index names the row only. -/
theorem rowsS_start_one {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowsS N E C wf).start j idx 1 = 0 := by
  unfold ScatterDims.start
  rw [dif_neg (show ¬ (1 : Fin 2) ∈ (rowsS N E C wf).scatterDimsToOperandDims from fun h => fin2_one_ne_zero (List.mem_singleton.mp h))]

/-- A row scatter's window coordinate on axis 0 is 0: the row axis is inserted. -/
theorem rowsS_window_zero {N E C : Nat} (wf : ScatterDims.WF ⟨2, ![N, C]⟩ ⟨2, ![E, 1]⟩ ⟨2, ![E, C]⟩ [1] [0] [0] 1)
    (j : (⟨2, ![E, C]⟩ : Shape).Idx) : (rowsS N E C wf).window j 0 = 0 := by
  unfold ScatterDims.window
  rw [dif_neg (show ¬ (0 : Fin 2) ∈ (rowsS N E C wf).sKept from fun h => (scatter_mem_sKept _ _).mp h (List.mem_singleton.mpr rfl))]

/-- A row scatter's window coordinate on axis 1 is the update's column. -/
theorem rowsS_window_one {N E C : Nat} (wf : ScatterDims.WF ⟨2, ![N, C]⟩ ⟨2, ![E, 1]⟩ ⟨2, ![E, C]⟩ [1] [0] [0] 1)
    (e : Fin E) (c : Fin C) : (rowsS N E C wf).window (ix2 e c) 1 = c.val := by
  unfold ScatterDims.window
  rw [dif_pos (show (1 : Fin 2) ∈ (rowsS N E C wf).sKept from (scatter_mem_sKept _ _).mpr fun h => fin2_one_ne_zero (List.mem_singleton.mp h))]
  rfl

/-- WHERE A ROW UPDATE LANDS: update (e, c) lands on (i, j) exactly when row e's scatter index, read signed, is i
    and c = j. -/
theorem rowsS_resultIdx_iff {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) (i : Fin N) (j : Fin C) :
    (rowsS N E C wf).resultIdx? (ix2 e c) idx = some (ix2 i j) ↔ (idx (ix2 e 0)).toInt = (i.val : ℤ) ∧ c = j := by
  have h0 := rowsS_start_zero wf idx e c
  have h1 := rowsS_start_one wf idx (ix2 e c)
  have w0 := rowsS_window_zero wf (ix2 e c)
  have w1 := rowsS_window_one wf e c
  unfold ScatterDims.resultIdx?
  constructor
  · intro h
    split at h
    · rename_i hall
      have hf := Option.some.inj h
      have e0 : ((rowsS N E C wf).start (ix2 e c) idx 0 + ((rowsS N E C wf).window (ix2 e c) 0 : ℤ)).toNat = i.val :=
        congrArg Fin.val (congrFun hf 0)
      have e1 : ((rowsS N E C wf).start (ix2 e c) idx 1 + ((rowsS N E C wf).window (ix2 e c) 1 : ℤ)).toNat = j.val :=
        congrArg Fin.val (congrFun hf 1)
      have p0 := (hall 0).1
      rw [h0, w0] at e0 p0
      rw [h1, w1] at e1
      refine ⟨by omega, Fin.ext (by omega)⟩
    · exact absurd h (by simp)
  · rintro ⟨hi, rfl⟩
    have hall : ∀ a, 0 ≤ (rowsS N E C wf).start (ix2 e c) idx a + ((rowsS N E C wf).window (ix2 e c) a : ℤ) ∧
        (rowsS N E C wf).start (ix2 e c) idx a + ((rowsS N E C wf).window (ix2 e c) a : ℤ)
          < ((⟨2, ![N, C]⟩ : Shape).size a : ℤ) := by
      intro a
      match a with
      | ⟨0, _⟩ =>
        show 0 ≤ (rowsS N E C wf).start (ix2 e c) idx 0 + ((rowsS N E C wf).window (ix2 e c) 0 : ℤ) ∧
          (rowsS N E C wf).start (ix2 e c) idx 0 + ((rowsS N E C wf).window (ix2 e c) 0 : ℤ) < (N : ℤ)
        rw [h0, w0, hi]; have := i.isLt; omega
      | ⟨1, _⟩ =>
        show 0 ≤ (rowsS N E C wf).start (ix2 e c) idx 1 + ((rowsS N E C wf).window (ix2 e c) 1 : ℤ) ∧
          (rowsS N E C wf).start (ix2 e c) idx 1 + ((rowsS N E C wf).window (ix2 e c) 1 : ℤ) < (C : ℤ)
        rw [h1, w1]; have := c.isLt; omega
    rw [dif_pos hall]
    congr 1
    funext a
    refine Fin.ext ?_
    match a with
    | ⟨0, _⟩ =>
      show ((rowsS N E C wf).start (ix2 e c) idx 0 + ((rowsS N E C wf).window (ix2 e c) 0 : ℤ)).toNat = i.val
      rw [h0, w0, hi]; simp
    | ⟨1, _⟩ =>
      show ((rowsS N E C wf).start (ix2 e c) idx 1 + ((rowsS N E C wf).window (ix2 e c) 1 : ℤ)).toNat = c.val
      rw [h1, w1]; simp

end Scatter

section ScatterApply

/-- THE ROW SCATTER-ADD AT (i, j): the operand's element plus the updates' column-j entries over the rows e whose
    scatter index, read signed, is i. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (j : Fin C) :
    Ideal.hostScatterAdd (rowsS N E C wf) x idx upd (ix2 i j)
      = x (ix2 i j) + ∑ e ∈ Finset.univ.filter (fun e : Fin E => (idx (ix2 e 0)).toInt = (i.val : ℤ)), upd (ix2 e j) := by
  unfold Ideal.hostScatterAdd
  congr 1
  have key : ∀ q : (⟨2, ![E, C]⟩ : Shape).Idx, (rowsS N E C wf).resultIdx? q idx = some (ix2 i j) →
      (idx (ix2 (row2 q) 0)).toInt = (i.val : ℤ) ∧ q = ix2 (row2 q) j := by
    intro q hq
    have hq' := hq
    rw [eq_ix2_row_col q] at hq'
    obtain ⟨h1, h2⟩ := (rowsS_resultIdx_iff wf idx (row2 q) (col2 q) i j).mp hq'
    refine ⟨h1, ?_⟩
    rw [← h2]
    exact eq_ix2_row_col q
  refine Finset.sum_nbij' (fun q => row2 q) (fun e => ix2 e j) ?_ ?_ ?_ ?_ ?_
  · intro q hq
    rw [Finset.mem_filter] at hq ⊢
    exact ⟨Finset.mem_univ _, (key q hq.2).1⟩
  · intro e he
    rw [Finset.mem_filter] at he ⊢
    exact ⟨Finset.mem_univ _, (rowsS_resultIdx_iff wf idx e j i j).mpr ⟨he.2, rfl⟩⟩
  · intro q hq
    rw [Finset.mem_filter] at hq
    exact (key q hq.2).2.symm
  · intro e _
    rfl
  · intro q hq
    rw [Finset.mem_filter] at hq
    exact congrArg upd (key q hq.2).2

end ScatterApply

section ScatterEntries

/-- An entry scatter's start for update e: the scatter index of e, read signed. -/
theorem entriesS_start_zero {N E w : Nat} (wf : ScatterDims.WF ⟨1, ![N]⟩ ⟨2, ![E, 1]⟩ ⟨1, ![E]⟩ [] [0] [0] 1)
    (idx : IVec ⟨2, ![E, 1]⟩ w) (e : Fin E) :
    (entriesS N E wf).start (ix1 e) idx 0 = (idx (ix2 e 0)).toInt := by
  unfold ScatterDims.start
  rw [dif_pos (show (0 : Fin 1) ∈ (entriesS N E wf).scatterDimsToOperandDims from List.mem_singleton.mpr rfl)]
  have hsi : (entriesS N E wf).siIdx (ix1 e) ⟨List.idxOf (0 : Fin 1) (entriesS N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- An entry scatter's window coordinate is 0: the one operand axis is inserted. -/
theorem entriesS_window_zero {N E : Nat} (wf : ScatterDims.WF ⟨1, ![N]⟩ ⟨2, ![E, 1]⟩ ⟨1, ![E]⟩ [] [0] [0] 1)
    (j : (⟨1, ![E]⟩ : Shape).Idx) : (entriesS N E wf).window j 0 = 0 := by
  unfold ScatterDims.window
  rw [dif_neg (show ¬ (0 : Fin 1) ∈ (entriesS N E wf).sKept from
    fun h => (scatter_mem_sKept _ _).mp h (List.mem_singleton.mpr rfl))]

/-- WHERE AN ENTRY UPDATE LANDS: update e lands on entry i exactly when its scatter index, read signed, is i. -/
theorem entriesS_resultIdx_iff {N E w : Nat} (wf : ScatterDims.WF ⟨1, ![N]⟩ ⟨2, ![E, 1]⟩ ⟨1, ![E]⟩ [] [0] [0] 1)
    (idx : IVec ⟨2, ![E, 1]⟩ w) (e : Fin E) (i : Fin N) :
    (entriesS N E wf).resultIdx? (ix1 e) idx = some (ix1 i) ↔ (idx (ix2 e 0)).toInt = (i.val : ℤ) := by
  have h0 := entriesS_start_zero wf idx e
  have w0 := entriesS_window_zero wf (ix1 e)
  unfold ScatterDims.resultIdx?
  constructor
  · intro h
    split at h
    · rename_i hall
      have hf := Option.some.inj h
      have e0 : ((entriesS N E wf).start (ix1 e) idx 0 + ((entriesS N E wf).window (ix1 e) 0 : ℤ)).toNat = i.val :=
        congrArg Fin.val (congrFun hf 0)
      have p0 := (hall 0).1
      rw [h0, w0] at e0 p0
      omega
    · exact absurd h (by simp)
  · intro hi
    have hall : ∀ a, 0 ≤ (entriesS N E wf).start (ix1 e) idx a + ((entriesS N E wf).window (ix1 e) a : ℤ) ∧
        (entriesS N E wf).start (ix1 e) idx a + ((entriesS N E wf).window (ix1 e) a : ℤ)
          < ((⟨1, ![N]⟩ : Shape).size a : ℤ) := by
      intro a
      obtain rfl : a = 0 := Subsingleton.elim _ _
      show 0 ≤ (entriesS N E wf).start (ix1 e) idx 0 + ((entriesS N E wf).window (ix1 e) 0 : ℤ) ∧
        (entriesS N E wf).start (ix1 e) idx 0 + ((entriesS N E wf).window (ix1 e) 0 : ℤ) < (N : ℤ)
      rw [h0, w0, hi]; have := i.isLt; omega
    rw [dif_pos hall]
    congr 1
    funext a
    obtain rfl : a = 0 := Subsingleton.elim _ _
    refine Fin.ext ?_
    show ((entriesS N E wf).start (ix1 e) idx 0 + ((entriesS N E wf).window (ix1 e) 0 : ℤ)).toNat = i.val
    rw [h0, w0, hi]; simp

/-- THE ENTRY SCATTER-ADD AT i: the operand's entry plus the updates e whose scatter index, read signed, is i. -/
theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (i : Fin N) :
    Ideal.hostScatterAdd (entriesS N E wf) x idx upd (ix1 i)
      = x (ix1 i) + ∑ e ∈ Finset.univ.filter (fun e : Fin E => (idx (ix2 e 0)).toInt = (i.val : ℤ)), upd (ix1 e) := by
  unfold Ideal.hostScatterAdd
  congr 1
  refine Finset.sum_nbij' (fun q => pos1 q) (fun e => ix1 e) ?_ ?_ ?_ ?_ ?_
  · intro q hq
    rw [Finset.mem_filter] at hq ⊢
    have hq2 := hq.2
    rw [eq_ix1_pos q] at hq2
    exact ⟨Finset.mem_univ _, (entriesS_resultIdx_iff wf idx (pos1 q) i).mp hq2⟩
  · intro e he
    rw [Finset.mem_filter] at he ⊢
    exact ⟨Finset.mem_univ _, (entriesS_resultIdx_iff wf idx e i).mpr he.2⟩
  · intro q _
    exact (eq_ix1_pos q).symm
  · intro e _
    rfl
  · intro q _
    exact congrArg upd (eq_ix1_pos q)

end ScatterEntries

/-! ## Real-valued extended reals, and the linearity law -/

section Algebra

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two real-valued extended reals is real-valued. -/
theorem isReal_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two real-valued extended reals is real-valued. -/
theorem isReal_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of real-valued extended reals is real-valued. -/
theorem isReal_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact isReal_add (hf a (Finset.mem_insert_self a s)) (ih fun i hi => hf i (Finset.mem_insert_of_mem hi))

/-- The reciprocal square root of a positive real is real-valued. -/
theorem rsqrt_isReal_of_pos (r : ℝ) (h : 0 < r) : ∃ r' : ℝ, Ideal.rsqrt (r : EReal) = (r' : EReal) :=
  ⟨(Real.sqrt r)⁻¹, by rw [Ideal.rsqrt_coe, if_neg (not_lt.2 h.le), if_neg h.ne']⟩

/-- THE LINEARITY LAW: for real-valued data, projecting each summand's row by W and weighting it by n, then summing
    over S, is summing the weighted rows over S and projecting the sum by W. (On the extended reals a factor does not
    move across a sum at an infinity, hence the three finiteness hypotheses.) -/
theorem sum_proj_comm {E K : Type*} [Fintype K] (S : Finset E) (a : E → K → EReal) (W : K → EReal) (n : E → EReal)
    (ha : ∀ e k, ∃ r : ℝ, a e k = (r : EReal)) (hW : ∀ k, ∃ r : ℝ, W k = (r : EReal))
    (hn : ∀ e, ∃ r : ℝ, n e = (r : EReal)) :
    ∑ e ∈ S, (∑ k, a e k * W k) * n e = ∑ k, (∑ e ∈ S, a e k * n e) * W k := by
  choose ra hra using ha
  choose rW hrW using hW
  choose rn hrn using hn
  have hl : ∀ e, (∑ k, a e k * W k) * n e = (((∑ k, ra e k * rW k) * rn e : ℝ) : EReal) := by
    intro e
    rw [EReal.coe_mul, coe_sum, hrn e]
    congr 1
    exact Finset.sum_congr rfl fun k _ => by rw [hra e k, hrW k, EReal.coe_mul]
  have hr : ∀ k, (∑ e ∈ S, a e k * n e) * W k = (((∑ e ∈ S, ra e k * rn e) * rW k : ℝ) : EReal) := by
    intro k
    rw [EReal.coe_mul, coe_sum, hrW k]
    congr 1
    exact Finset.sum_congr rfl fun e _ => by rw [hra e k, hrn e, EReal.coe_mul]
  rw [Finset.sum_congr rfl fun e _ => hl e, Finset.sum_congr rfl fun k _ => hr k, ← coe_sum, ← coe_sum]
  congr 1
  simp only [Finset.sum_mul]
  rw [Finset.sum_comm]
  exact Finset.sum_congr rfl fun k _ => Finset.sum_congr rfl fun e _ => by ring

end Algebra

end Cert.Lib.SegmentRows

end
-- ==== Proof.LibConvLinear.lean ====
/-
  The projection crosses the segment sum.

  A graph convolution gathers rows of a feature table along the edges' source indices, weights each gathered row by
  its edge's scalar, and adds the weighted rows into the rows named by the edges' destination indices. Doing this to
  the PROJECTED table X·W is the same as doing it to X and projecting the result by W: both are, at row i and column j,
      ∑ over the edges e into i, ∑ over k, X (src e, k) · W (k, j) · n e,
  summed in the two orders. The data must be real-valued: on the extended reals a factor does not move across a sum
  at an infinity.
-/
import proofs.«162937_j28424093565280_2_alg».proof.Proof.LibSegmentRows
import proofs.«162937_j28424093565280_2_alg».proof.Proof.LibPlainDot

noncomputable section

open scoped BigOperators

namespace Cert.Lib.ConvLinear

open Idealize.ShloMosaic Idealize.ShloMosaic.ValueIdx Cert.Lib.SegmentRows Cert.Lib.PlainDot

/-- One weighted gather-and-scatter of a table T (N × C) read at (i, j) from a zero operand: the sum, over the
    edges e whose destination index is i, of T at (source row of e, j) times the edge's weight. -/
theorem propagate_apply {N E C w : Nat} {φ : FTy} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (T : FVec Ideal ⟨2, ![N, C]⟩ φ) (SI DI : IVec ⟨2, ![E, 1]⟩ w) (NB : FVec Ideal ⟨2, ![E, C]⟩ φ) (n : Fin E → EReal)
    (hNB : ∀ e c, NB (ix2 e c) = n e) (Z0 : FVec Ideal ⟨2, ![N, C]⟩ φ) (hZ0 : ∀ i, Z0 i = 0) (i : Fin N) (j : Fin C) :
    Ideal.hostScatterAdd (rowsS N E C wfS) Z0 DI (mulf (F := Ideal) (Host.gather (rowsG N E C wfG) T SI) NB) (ix2 i j)
      = ∑ e ∈ Finset.univ.filter (fun e : Fin E => (DI (ix2 e 0)).toInt = (i.val : ℤ)),
          T (ix2 (srcRow hN SI e) j) * n e := by
  rw [scatterAdd_rows_apply, hZ0, zero_add]
  refine Finset.sum_congr rfl fun e _ => ?_
  rw [mulf_apply, gather_rows_apply hN, hNB]

/-- THE PROJECTION CROSSES THE SEGMENT SUM: the weighted gather-and-scatter of the projected table X·W at (i, j) is
    the projection by W of the weighted gather-and-scatter of X. -/
theorem conv_linear {N E C w : Nat} {φ : FTy} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (X : FVec Ideal ⟨2, ![N, C]⟩ φ) (W : FVec Ideal ⟨2, ![C, C]⟩ φ) (SI DI : IVec ⟨2, ![E, 1]⟩ w)
    (NB : FVec Ideal ⟨2, ![E, C]⟩ φ) (n : Fin E → EReal) (hNB : ∀ e c, NB (ix2 e c) = n e)
    (Z0 : FVec Ideal ⟨2, ![N, C]⟩ φ) (hZ0 : ∀ i, Z0 i = 0)
    (hX : ∀ i, ∃ r : ℝ, X i = (r : EReal)) (hW : ∀ i, ∃ r : ℝ, W i = (r : EReal)) (hn : ∀ e, ∃ r : ℝ, n e = (r : EReal))
    (i : Fin N) (j : Fin C) :
    Ideal.hostScatterAdd (rowsS N E C wfS) Z0 DI
        (mulf (F := Ideal) (Host.gather (rowsG N E C wfG) (mm X W : FVec Ideal ⟨2, ![N, C]⟩ φ) SI) NB) (ix2 i j)
      = ∑ k : Fin C, Ideal.hostScatterAdd (rowsS N E C wfS) Z0 DI
          (mulf (F := Ideal) (Host.gather (rowsG N E C wfG) X SI) NB) (ix2 i k) * W (ix2 k j) := by
  have hR : ∑ k : Fin C, Ideal.hostScatterAdd (rowsS N E C wfS) Z0 DI
        (mulf (F := Ideal) (Host.gather (rowsG N E C wfG) X SI) NB) (ix2 i k) * W (ix2 k j)
      = ∑ k : Fin C, (∑ e ∈ Finset.univ.filter (fun e : Fin E => (DI (ix2 e 0)).toInt = (i.val : ℤ)),
          X (ix2 (srcRow hN SI e) k) * n e) * W (ix2 k j) :=
    Finset.sum_congr rfl fun k _ => by rw [propagate_apply hN wfS wfG X SI DI NB n hNB Z0 hZ0 i k]
  rw [hR, propagate_apply hN wfS wfG _ SI DI NB n hNB Z0 hZ0 i j]
  simp only [mm_apply]
  exact sum_proj_comm _ (fun e k => X (ix2 (srcRow hN SI e) k)) (fun k => W (ix2 k j)) n
    (fun e k => hX _) (fun k => hW _) hn

end Cert.Lib.ConvLinear

end
-- ==== Proof.FiniteInputs.lean ====
/-
  The precondition read back. The predicate `Cert.Pre_finite_inputs.fn` is, for each of the seventeen float arrays,
  "every element has absolute value below +∞", and the conjunction of the seventeen. At the extended reals an element
  whose absolute value `max x (-x)` is below `⊤` is neither `⊤` nor `⊥`: it is a real number. So the
  precondition says that every float array holds reals only.
-/
import proofs.«162937_j28424093565280_2_alg».proof.Pre_finite_inputs
import proofs.«162937_j28424093565280_2_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx Cert.Pre_finite_inputs

/-- Every element of the array is a real number (neither infinity). -/
def IsReal {ι : Type} (x : ι → EReal) : Prop := ∀ i, ∃ r : ℝ, x i = (r : EReal)

/-- The word 0x7F800000 denotes +∞. -/
theorem ofBits_inf : Ideal.ofBits .f32 0x7F800000#32 = ⊤ := by simp [Ideal.ofBits, Ideal.ieee]

/-- An extended real whose absolute value is below +∞ is a real. -/
theorem real_of_abs_lt_top (y : EReal) (h : Ideal.cmp .olt (max y (-y)) ⊤ = 1#1) : ∃ r : ℝ, y = (r : EReal) := by
  induction y using EReal.rec with
  | bot => exact absurd h (by simp [Ideal.cmp])
  | coe r => exact ⟨r, rfl⟩
  | top => exact absurd h (by simp [Ideal.cmp])

/-- One element: where `|x| < +∞` holds at an index, the element there is a real. -/
theorem finite_of_lt_top {s : Shape} (x : FVec Ideal s .f32)
    (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := h
  rw [ofBits_inf] at h'
  exact real_of_abs_lt_top (x i) h'

/-- The scalar shape has one index. -/
instance : Subsingleton S_.Idx := ⟨fun a b => funext fun d => d.elim0⟩

/-- One array: where the conjunction over all elements of `|x| < +∞` is true, every element is a real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) : IsReal x :=
  fun i => finite_of_lt_top x hb i (Host.reduce_andi_all _ _ hr hu ix0 h i)

variable [Cert.Pre_finite_inputs.Facts]

/-- The precondition, split: all seventeen float arrays hold reals only. -/
theorem reals_of_pre_all (a0 : FVec Ideal S4x25000x64 .f32) (a1 a2 : IVec S1600000 32) (a3 : FVec Ideal S1600000 .f32)
    (a4 : FVec Ideal S100000x64 .f32) (a5 : FVec Ideal S64x64 .f32) (a6 : FVec Ideal S64 .f32)
    (a7 : FVec Ideal S64x64 .f32) (a8 : FVec Ideal S64 .f32) (a9 : FVec Ideal S64x64 .f32)
    (a10 : FVec Ideal S64 .f32) (a11 : FVec Ideal S128x64 .f32) (a12 : FVec Ideal S64 .f32)
    (a13 : FVec Ideal S128x64 .f32) (a14 : FVec Ideal S64 .f32) (a15 : FVec Ideal S128x64 .f32)
    (a16 : FVec Ideal S64 .f32) (a17 : FVec Ideal S64x1 .f32) (a18 : FVec Ideal S1 .f32)
    (h : Cert.Pre_finite_inputs.fn (F := Ideal) a0 a1 a2 a3 a4 a5 a6 a7 a8 a9 a10 a11 a12 a13 a14 a15 a16 a17 a18
      = (fun _ => 1#1)) :
    (IsReal a0 ∧ IsReal a3 ∧ IsReal a5 ∧ IsReal a7 ∧ IsReal a9) ∧
    (IsReal a4 ∧ IsReal a6 ∧ IsReal a8 ∧ IsReal a10 ∧ IsReal a11 ∧ IsReal a12 ∧ IsReal a13 ∧ IsReal a14 ∧
      IsReal a15 ∧ IsReal a16 ∧ IsReal a17 ∧ IsReal a18) := by
  have h0 := congrFun h ix0
  dsimp only [Cert.Pre_finite_inputs.fn, fn_part1, fn_part2, fn_part3, fn_part4, andi] at h0
  simp only [IntOp.andi_eq_one] at h0
  obtain ⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩ := h0
  exact ⟨⟨isReal_of_all a0 _ _ _ h0, isReal_of_all a3 _ _ _ h3, isReal_of_all a5 _ _ _ h5,
      isReal_of_all a7 _ _ _ h7, isReal_of_all a9 _ _ _ h9⟩,
    isReal_of_all a4 _ _ _ h4, isReal_of_all a6 _ _ _ h6, isReal_of_all a8 _ _ _ h8, isReal_of_all a10 _ _ _ h10,
    isReal_of_all a11 _ _ _ h11, isReal_of_all a12 _ _ _ h12, isReal_of_all a13 _ _ _ h13,
    isReal_of_all a14 _ _ _ h14, isReal_of_all a15 _ _ _ h15, isReal_of_all a16 _ _ _ h16,
    isReal_of_all a17 _ _ _ h17, isReal_of_all a18 _ _ _ h18⟩

/-- The five arrays the algebra needs: the node features, the edge weights and the three 64×64 matrices. -/
theorem reals_of_pre (a0 : FVec Ideal S4x25000x64 .f32) (a1 a2 : IVec S1600000 32) (a3 : FVec Ideal S1600000 .f32)
    (a4 : FVec Ideal S100000x64 .f32) (a5 : FVec Ideal S64x64 .f32) (a6 : FVec Ideal S64 .f32)
    (a7 : FVec Ideal S64x64 .f32) (a8 : FVec Ideal S64 .f32) (a9 : FVec Ideal S64x64 .f32)
    (a10 : FVec Ideal S64 .f32) (a11 : FVec Ideal S128x64 .f32) (a12 : FVec Ideal S64 .f32)
    (a13 : FVec Ideal S128x64 .f32) (a14 : FVec Ideal S64 .f32) (a15 : FVec Ideal S128x64 .f32)
    (a16 : FVec Ideal S64 .f32) (a17 : FVec Ideal S64x1 .f32) (a18 : FVec Ideal S1 .f32)
    (h : Cert.Pre_finite_inputs.fn (F := Ideal) a0 a1 a2 a3 a4 a5 a6 a7 a8 a9 a10 a11 a12 a13 a14 a15 a16 a17 a18
      = (fun _ => 1#1)) :
    IsReal a0 ∧ IsReal a3 ∧ IsReal a5 ∧ IsReal a7 ∧ IsReal a9 :=
  (reals_of_pre_all a0 a1 a2 a3 a4 a5 a6 a7 a8 a9 a10 a11 a12 a13 a14 a15 a16 a17 a18 h).1

/-- The other twelve float arrays. -/
theorem reals_of_pre_rest (a0 : FVec Ideal S4x25000x64 .f32) (a1 a2 : IVec S1600000 32) (a3 : FVec Ideal S1600000 .f32)
    (a4 : FVec Ideal S100000x64 .f32) (a5 : FVec Ideal S64x64 .f32) (a6 : FVec Ideal S64 .f32)
    (a7 : FVec Ideal S64x64 .f32) (a8 : FVec Ideal S64 .f32) (a9 : FVec Ideal S64x64 .f32)
    (a10 : FVec Ideal S64 .f32) (a11 : FVec Ideal S128x64 .f32) (a12 : FVec Ideal S64 .f32)
    (a13 : FVec Ideal S128x64 .f32) (a14 : FVec Ideal S64 .f32) (a15 : FVec Ideal S128x64 .f32)
    (a16 : FVec Ideal S64 .f32) (a17 : FVec Ideal S64x1 .f32) (a18 : FVec Ideal S1 .f32)
    (h : Cert.Pre_finite_inputs.fn (F := Ideal) a0 a1 a2 a3 a4 a5 a6 a7 a8 a9 a10 a11 a12 a13 a14 a15 a16 a17 a18
      = (fun _ => 1#1)) :
    IsReal a4 ∧ IsReal a6 ∧ IsReal a8 ∧ IsReal a10 ∧ IsReal a11 ∧ IsReal a12 ∧ IsReal a13 ∧ IsReal a14 ∧
      IsReal a15 ∧ IsReal a16 ∧ IsReal a17 ∧ IsReal a18 :=
  (reals_of_pre_all a0 a1 a2 a3 a4 a5 a6 a7 a8 a9 a10 a11 a12 a13 a14 a15 a16 a17 a18 h).2

end Cert.FiniteInputs

end
-- ==== Proof.RefConv.lean ====
/-
  The reference's three graph-convolution outputs are projections of the propagated features.

  The reference program projects the node features by a 64 × 64 matrix W first and then propagates the projected
  rows along the edges (gather by source, weight by the edge's normalisation, segment-sum by destination), adding a
  bias row. The propagation is linear, so this equals propagating the RAW feature rows once and projecting the
  propagated rows by W:
      out (i, j) = (∑ k, prop (i, k) · W (k, j)) + b j.
  The reference does this three times (for the update gate, the reset gate and the candidate state), each time
  recomputing the same edge list and the same weights under other names; all three are the same statement with their
  own W and b.
-/
import proofs.«162937_j28424093565280_2_alg».proof.Proof.GraphTerms
import proofs.«162937_j28424093565280_2_alg».proof.Proof.Gen.ReferenceIdeal.Read
import proofs.«162937_j28424093565280_2_alg».proof.Proof.LibConvLinear
import proofs.«162937_j28424093565280_2_alg».proof.Proof.FiniteInputs

noncomputable section

open scoped BigOperators

namespace Cert.RefConv

open Idealize.ShloMosaic Idealize.ShloMosaic.ValueIdx Cert.ReferenceIdeal Cert.ReferenceIdeal.Gen Cert.ReferenceIdeal.Read
open Cert.Lib.SegmentRows Cert.Lib.PlainDot Cert.Lib.ConvLinear

/-! ## The program's dimension records are the library's -/

/-- The program's row scatter is the library's, at 100000 rows, 1700000 updates, 64 columns. -/
theorem scatter_eq : scatter_S100000x64_S1700000x1_S1700000x64_1_0_0_1
    = rowsS 100000 1700000 64 Facts₀.scatter_S100000x64_S1700000x1_S1700000x64_1_0_0_1_wf := rfl

/-- The program's row gather is the library's. -/
theorem gather_eq : gather_S100000x64_S1700000x1_S1700000x64_1_0_n_n_0_1_164
    = rowsG 100000 1700000 64 Facts₀.gather_S100000x64_S1700000x1_S1700000x64_1_0_n_n_0_1_164_wf := rfl

/-- The program's 100000 × 64 by 64 × 64 product has the plain dimension numbers. -/
theorem dot_eq : dot_S100000x64_S64x64_S100000x64_1_0_0_1_n_n = DotDims.plain 100000 64 64 := rfl

/-- The scatter's zero operand is zero everywhere. -/
theorem v40_zero (i : S100000x64.Idx) : val_main_v40 (F := Ideal) i = 0 := by
  rw [val_main_v40_apply, val_main_cst_8_apply, Ideal.ofBits_def]
  exact Ideal.ofBits_zero_f32

/-- The bias, broadcast over the rows, read at (i, j). -/
theorem bias_apply (b : FVec Ideal S64 .f32) (i : Fin 100000) (j : Fin 64) :
    val_main_v44 (F := Ideal) b (ix2 i j) = b (ix1 j) := by
  rw [val_main_v44_apply, val_main_v43_apply]
  congr 1
  funext a
  match a with
  | ⟨0, _⟩ => rfl

/-! ## One convolution -/

/-- The projection crosses the propagation, over the program's dimension records, for any table, matrix, index arrays
    and weights: the library law, restated with the host operations the program applies. -/
theorem conv_core (X : FVec Ideal S100000x64 .f32) (W : FVec Ideal S64x64 .f32) (SI DI : IVec S1700000x1 32)
    (NB : FVec Ideal S1700000x64 .f32) (Z0 : FVec Ideal S100000x64 .f32) (n : Fin 1700000 → EReal)
    (hNB : ∀ (e : Fin 1700000) (c : Fin 64), NB (ix2 e c) = n e) (hZ0 : ∀ i, Z0 i = 0)
    (hX : ∀ i, ∃ r : ℝ, X i = (r : EReal)) (hW : ∀ i, ∃ r : ℝ, W i = (r : EReal)) (hn : ∀ e, ∃ r : ℝ, n e = (r : EReal))
    (i : Fin 100000) (j : Fin 64) :
    Host.scatterAdd (F := Ideal) scatter_S100000x64_S1700000x1_S1700000x64_1_0_0_1 Z0 DI
        (mulf (Host.gather gather_S100000x64_S1700000x1_S1700000x64_1_0_n_n_0_1_164
            (Host.dotGeneral (φ₁ := .f32) (φ₂ := .f32) dot_S100000x64_S64x64_S100000x64_1_0_0_1_n_n none X W) SI) NB) (ix2 i j)
      = ∑ k : Fin 64, Host.scatterAdd (F := Ideal) scatter_S100000x64_S1700000x1_S1700000x64_1_0_0_1 Z0 DI
          (mulf (Host.gather gather_S100000x64_S1700000x1_S1700000x64_1_0_n_n_0_1_164 X SI) NB) (ix2 i k) * W (ix2 k j) := by
  have hd : Host.dotGeneral (F := Ideal) (φ₁ := .f32) (φ₂ := .f32) dot_S100000x64_S64x64_S100000x64_1_0_0_1_n_n none X W
      = mm X W := dotGeneral (φ₁ := .f32) (φ₂ := .f32) none X W
  rw [hd]
  exact conv_linear (N := 100000) (E := 1700000) (C := 64) (w := 32) (φ := .f32) (by decide)
    Facts₀.scatter_S100000x64_S1700000x1_S1700000x64_1_0_0_1_wf
    Facts₀.gather_S100000x64_S1700000x1_S1700000x64_1_0_n_n_0_1_164_wf X W SI DI NB n hNB Z0 hZ0 hX hW hn i j

/-- THE PROJECTION CROSSES THE PROPAGATION, in the program's vocabulary: propagating the rows of (features · W) is
    projecting the propagated raw rows by W. -/
theorem conv_gate (x0 : FVec Ideal S4x25000x64 .f32) (x1 x2 : IVec S1600000 32) (x3 : FVec Ideal S1600000 .f32)
    (W : FVec Ideal S64x64 .f32)
    (hX : Cert.FiniteInputs.IsReal (val_main_v0 (F := Ideal) x0)) (hW : Cert.FiniteInputs.IsReal W)
    (hn : ∃ n : Fin 1700000 → ℝ, ∀ (e : Fin 1700000) (c : Fin 64),
      val_main_v38 (F := Ideal) x1 x2 x3 (ix2 e c) = ((n e : ℝ) : EReal))
    (i : Fin 100000) (j : Fin 64) :
    Host.scatterAdd (F := Ideal) scatter_S100000x64_S1700000x1_S1700000x64_1_0_0_1 (val_main_v40 (F := Ideal))
        (val_main_v41 (F := Ideal) x2)
        (mulf (Host.gather gather_S100000x64_S1700000x1_S1700000x64_1_0_n_n_0_1_164
            (Host.dotGeneral (φ₁ := .f32) (φ₂ := .f32) dot_S100000x64_S64x64_S100000x64_1_0_0_1_n_n none
              (val_main_v0 (F := Ideal) x0) W)
            (val_main_v35 (F := Ideal) x1))
          (val_main_v38 (F := Ideal) x1 x2 x3)) (ix2 i j)
      = ∑ k : Fin 64, Cert.Graph.prop x0 x1 x2 x3 (ix2 i k) * W (ix2 k j) := by
  obtain ⟨n, hn⟩ := hn
  unfold Cert.Graph.prop
  exact conv_core (val_main_v0 (F := Ideal) x0) W (val_main_v35 (F := Ideal) x1) (val_main_v41 (F := Ideal) x2)
    (val_main_v38 (F := Ideal) x1 x2 x3) (val_main_v40 (F := Ideal)) (fun e => ((n e : ℝ) : EReal)) hn v40_zero hX hW
    (fun e => ⟨n e, rfl⟩) i j

/-! ## The reset and candidate gates recompute the same edge list and weights -/

/-- The reset gate's edge weights are the update gate's. -/
theorem v94_eq (x1 x2 : IVec S1600000 32) (x3 : FVec Ideal S1600000 .f32) :
    val_main_v94 (F := Ideal) x1 x2 x3 = val_main_v38 (F := Ideal) x1 x2 x3 := rfl
/-- The reset gate's destination indices are the update gate's. -/
theorem v97_eq (x2 : IVec S1600000 32) : val_main_v97 (F := Ideal) x2 = val_main_v41 (F := Ideal) x2 := rfl
/-- The reset gate's source indices are the update gate's. -/
theorem v91_eq (x1 : IVec S1600000 32) : val_main_v91 (F := Ideal) x1 = val_main_v35 (F := Ideal) x1 := rfl
/-- The reset gate's zero operand is the update gate's. -/
theorem v96_eq : val_main_v96 (F := Ideal) = val_main_v40 (F := Ideal) := rfl
/-- The candidate's edge weights are the update gate's. -/
theorem v150_eq (x1 x2 : IVec S1600000 32) (x3 : FVec Ideal S1600000 .f32) :
    val_main_v150 (F := Ideal) x1 x2 x3 = val_main_v38 (F := Ideal) x1 x2 x3 := rfl
/-- The candidate's destination indices are the update gate's. -/
theorem v153_eq (x2 : IVec S1600000 32) : val_main_v153 (F := Ideal) x2 = val_main_v41 (F := Ideal) x2 := rfl
/-- The candidate's source indices are the update gate's. -/
theorem v147_eq (x1 : IVec S1600000 32) : val_main_v147 (F := Ideal) x1 = val_main_v35 (F := Ideal) x1 := rfl
/-- The candidate's zero operand is the update gate's. -/
theorem v152_eq : val_main_v152 (F := Ideal) = val_main_v40 (F := Ideal) := rfl
/-- The reset gate's broadcast bias is the update gate's broadcast, of its own bias row. -/
theorem v100_eq (b : FVec Ideal S64 .f32) : val_main_v100 (F := Ideal) b = val_main_v44 (F := Ideal) b := rfl
/-- The candidate's broadcast bias is the update gate's broadcast, of its own bias row. -/
theorem v156_eq (b : FVec Ideal S64 .f32) : val_main_v156 (F := Ideal) b = val_main_v44 (F := Ideal) b := rfl

/-! ## The three outputs -/

section Outputs
variable (x0 : FVec Ideal S4x25000x64 .f32) (x1 x2 : IVec S1600000 32) (x3 : FVec Ideal S1600000 .f32)
  (W : FVec Ideal S64x64 .f32) (b : FVec Ideal S64 .f32)
  (hX : Cert.FiniteInputs.IsReal (val_main_v0 (F := Ideal) x0)) (hW : Cert.FiniteInputs.IsReal W)
  (hn : ∃ n : Fin 1700000 → ℝ, ∀ (e : Fin 1700000) (c : Fin 64),
    val_main_v38 (F := Ideal) x1 x2 x3 (ix2 e c) = ((n e : ℝ) : EReal))
include hX hW hn

/-- The update gate's convolution. -/
theorem conv_z (i : Fin 100000) (j : Fin 64) :
    val_main_v45 (F := Ideal) x0 x1 x2 x3 W b (ix2 i j)
      = (∑ k : Fin 64, Cert.Graph.prop x0 x1 x2 x3 (ix2 i k) * W (ix2 k j)) + b (ix1 j) := by
  rw [val_main_v45_apply, Ideal.addf_def, bias_apply b i j]
  unfold val_main_v42 val_main_v39 val_main_v36 val_main_v29
  rw [conv_gate x0 x1 x2 x3 W hX hW hn i j]

/-- The reset gate's convolution. -/
theorem conv_r (i : Fin 100000) (j : Fin 64) :
    val_main_v101 (F := Ideal) x0 x1 x2 x3 W b (ix2 i j)
      = (∑ k : Fin 64, Cert.Graph.prop x0 x1 x2 x3 (ix2 i k) * W (ix2 k j)) + b (ix1 j) := by
  rw [val_main_v101_apply, Ideal.addf_def, v100_eq, bias_apply b i j]
  unfold val_main_v98 val_main_v95 val_main_v92 val_main_v85
  rw [v94_eq, v97_eq, v91_eq, v96_eq, conv_gate x0 x1 x2 x3 W hX hW hn i j]

/-- The candidate state's convolution. -/
theorem conv_h (i : Fin 100000) (j : Fin 64) :
    val_main_v157 (F := Ideal) x0 x1 x2 x3 W b (ix2 i j)
      = (∑ k : Fin 64, Cert.Graph.prop x0 x1 x2 x3 (ix2 i k) * W (ix2 k j)) + b (ix1 j) := by
  rw [val_main_v157_apply, Ideal.addf_def, v156_eq, bias_apply b i j]
  unfold val_main_v154 val_main_v151 val_main_v148 val_main_v141
  rw [v150_eq, v153_eq, v147_eq, v152_eq, conv_gate x0 x1 x2 x3 W hX hW hn i j]

end Outputs

end Cert.RefConv

end
-- ==== Proof.NormReal.lean ====
/-
  The edge normalisation weights and the reshaped node features are real-valued.

  The reference builds, from the edge weights w (followed by one weight 1 per node, the self-loops), the degree of
  every node d(i) = 0 + Σ over edges e into i of w(e), then s(i) = 1/√d(i) where d(i) > 0 and 0 elsewhere, and the
  weight of edge e as s(source e) · w(e) · s(destination e), broadcast over the 64 columns. When every given weight
  is a real number, every stage is: a finite sum of reals is a real, the reciprocal square root of a positive real is
  a real, and products of reals are reals. The features are only re-indexed by the reshape.
-/
import proofs.«162937_j28424093565280_2_alg».proof.Proof.Gen.ReferenceIdeal.Read
import proofs.«162937_j28424093565280_2_alg».proof.Proof.FiniteInputs
import proofs.«162937_j28424093565280_2_alg».proof.Proof.LibSegmentRows
import Idealize.ShloMosaic.Lib.Pipeline.Value
import Idealize.ShloMosaic.Lib.ValueIdx
import Idealize.ShloMosaic.Lib.IdealHost

noncomputable section

namespace Cert.NormReal

open Cert.ReferenceIdeal Cert.ReferenceIdeal.Gen Cert.ReferenceIdeal.Read Idealize.ShloMosaic Idealize.ShloMosaic.ValueIdx
open Cert.Lib.SegmentRows
open Cert.FiniteInputs (IsReal)

/-! ## The features -/

/-- The reshape [4, 25000, 64] → [100000, 64] reads one element of its operand. -/
theorem feat_real (x0 : FVec Ideal S4x25000x64 .f32) (h0 : IsReal x0) :
    IsReal (val_main_v0 (F := Ideal) x0) := by
  intro i
  rw [val_main_v0_apply]
  exact h0 _

/-! ## The two constant words -/

/-- The word of 1.0 is a real. -/
theorem one_real : ∃ r : ℝ, FloatOps.ofBits (F := Ideal) .f32 0x3F800000#32 = (r : EReal) :=
  ⟨1, by rw [Ideal.ofBits_def, Ideal.ofBits_one_f32, EReal.coe_one]⟩

/-- The word of 0.0 is the real 0. -/
theorem zero_real : FloatOps.ofBits (F := Ideal) .f32 0x00000000#32 = ((0 : ℝ) : EReal) := by
  rw [Ideal.ofBits_def, Ideal.ofBits_zero_f32, EReal.coe_zero]

/-! ## The weights with the self-loops appended -/

/-- Every entry of the extended weight array is a given weight or the word of 1.0. -/
theorem v5_real (x3 : FVec Ideal S1600000 .f32) (h3 : IsReal x3) (e : Fin 1700000) :
    ∃ r : ℝ, val_main_v5 (F := Ideal) x3 (ix1 e) = (r : EReal) := by
  by_cases he : e.val < 1600000
  · obtain ⟨r, hr⟩ := h3 (ix1 ⟨e.val, he⟩)
    exact ⟨r, (concatenate_pair_apply_left (0 : Fin S1700000.rank) x3 (val_main_v4 (F := Ideal))
      concatenates_S1600000_S100000_S1700000_d0 (ix1 e) rfl (ix1 ⟨e.val, he⟩)
      (fun c => by match c with | ⟨0, _⟩ => rfl)).trans hr⟩
  · obtain ⟨r, hr⟩ := one_real
    refine ⟨r, (concatenate_pair_apply_right (0 : Fin S1700000.rank) x3 (val_main_v4 (F := Ideal))
      concatenates_S1600000_S100000_S1700000_d0 (ix1 e) rfl rfl
      (ix1 ⟨e.val - 1600000, by have := e.isLt; omega⟩)
      (fun c hc => by match c, hc with | ⟨0, _⟩, hc => exact absurd rfl hc)
      (by show (e.val - 1600000) + 1600000 = e.val; omega)).trans ?_⟩
    rw [val_main_v4_apply, val_main_cst_apply]
    exact hr

/-! ## The degrees -/

/-- The degree array is the entry scatter-add of the extended weights into zeros at the destination indices (the
    program's dimension record is the entry scatter's, field by field). -/
theorem v8_eq (x2 : IVec S1600000 32) (x3 : FVec Ideal S1600000 .f32) :
    val_main_v8 (F := Ideal) x2 x3
      = Ideal.hostScatterAdd (entriesS 100000 1700000 scatter_S100000_S1700000x1_S1700000_n_0_0_1_wf)
          (val_main_v6 (F := Ideal)) (val_main_v7 (F := Ideal) x2) (val_main_v5 (F := Ideal) x3) := by
  unfold val_main_v8 Host.scatterAdd
  rfl

/-- The degree of node i: zero plus the weights of the edges whose destination index is i. -/
theorem v8_real (x2 : IVec S1600000 32) (x3 : FVec Ideal S1600000 .f32) (h3 : IsReal x3) (i : Fin 100000) :
    ∃ r : ℝ, val_main_v8 (F := Ideal) x2 x3 (ix1 i) = (r : EReal) := by
  rw [v8_eq, scatterAdd_entries_apply]
  refine isReal_add ⟨0, ?_⟩ (isReal_sum _ _ fun e _ => v5_real x3 h3 e)
  rw [val_main_v6_apply, val_main_cst_0_apply]
  exact zero_real

/-! ## The reciprocal square roots of the degrees -/

/-- A comparison "greater than the zero word" that came out 1 says the real is positive. -/
theorem pos_of_ogt (r : ℝ) (h : FloatOps.cmpf (F := Ideal) (φ := .f32) .ogt (r : EReal) (FloatOps.ofBits (F := Ideal) .f32 0x00000000#32) = 1#1) :
    0 < r := by
  have h' : Ideal.cmp .ogt (r : EReal) (Ideal.ofBits .f32 0x00000000#32) = 1#1 := h
  rw [Ideal.ofBits_zero_f32] at h'
  by_contra hn
  have hn' : ¬ ((0 : EReal) < (r : EReal)) := fun hh => hn (EReal.coe_pos.mp hh)
  have : Ideal.cmp .ogt (r : EReal) 0 = 0#1 := by simp [Ideal.cmp, hn']
  rw [this] at h'
  exact absurd h' (by decide)

/-- 1/√d(i) where the degree is positive, the zero word elsewhere: a real either way. -/
theorem v12_real (x2 : IVec S1600000 32) (x3 : FVec Ideal S1600000 .f32) (h3 : IsReal x3) (i : Fin 100000) :
    ∃ r : ℝ, val_main_v12 (F := Ideal) x2 x3 (ix1 i) = (r : EReal) := by
  rw [val_main_v12_apply]
  by_cases hb : val_main_v10 (F := Ideal) x2 x3 (ix1 i) = 1#1
  · rw [hb, select_one, val_main_v11_apply]
    obtain ⟨r, hr⟩ := v8_real x2 x3 h3 i
    rw [val_main_v10_apply, hr, val_main_v9_apply, val_main_cst_1_apply] at hb
    rw [hr]
    exact rsqrt_isReal_of_pos r (pos_of_ogt r hb)
  · rw [eq_zero_of_ne_one hb, select_zero, val_main_call0_v1_apply, val_main_call0_v0_apply, val_main_cst_2_apply]
    exact ⟨0, zero_real⟩

/-! ## The two gathers and the products -/

/-- The program's entry-gather record is the entry gather's, field by field. -/
theorem gatherDims_eq : gather_S100000_S1700000x1_S1700000_n_0_n_n_0_1_1
    = entriesG 100000 1700000 gather_S100000_S1700000x1_S1700000_n_0_n_n_0_1_1_wf := rfl

theorem v19_eq (x1 x2 : IVec S1600000 32) (x3 : FVec Ideal S1600000 .f32) :
    val_main_v19 (F := Ideal) x1 x2 x3
      = Host.gather (entriesG 100000 1700000 gather_S100000_S1700000x1_S1700000_n_0_n_n_0_1_1_wf)
          (val_main_v12 (F := Ideal) x2 x3) (val_main_v18 (F := Ideal) x1) := by
  unfold val_main_v19
  rw [gatherDims_eq]

theorem v27_eq (x2 : IVec S1600000 32) (x3 : FVec Ideal S1600000 .f32) :
    val_main_v27 (F := Ideal) x2 x3
      = Host.gather (entriesG 100000 1700000 gather_S100000_S1700000x1_S1700000_n_0_n_n_0_1_1_wf)
          (val_main_v12 (F := Ideal) x2 x3) (val_main_v26 (F := Ideal) x2) := by
  unfold val_main_v27
  rw [gatherDims_eq]

/-- The factor of edge e at its source node. -/
theorem v19_real (x1 x2 : IVec S1600000 32) (x3 : FVec Ideal S1600000 .f32) (h3 : IsReal x3) (e : Fin 1700000) :
    ∃ r : ℝ, val_main_v19 (F := Ideal) x1 x2 x3 (ix1 e) = (r : EReal) := by
  rw [v19_eq, gather_entries_apply (by omega : 0 < 100000)]
  exact v12_real x2 x3 h3 _

/-- The factor of edge e at its destination node. -/
theorem v27_real (x2 : IVec S1600000 32) (x3 : FVec Ideal S1600000 .f32) (h3 : IsReal x3) (e : Fin 1700000) :
    ∃ r : ℝ, val_main_v27 (F := Ideal) x2 x3 (ix1 e) = (r : EReal) := by
  rw [v27_eq, gather_entries_apply (by omega : 0 < 100000)]
  exact v12_real x2 x3 h3 _

/-- The weight of edge e: source factor times weight times destination factor. -/
theorem v28_real (x1 x2 : IVec S1600000 32) (x3 : FVec Ideal S1600000 .f32) (h3 : IsReal x3) (e : Fin 1700000) :
    ∃ r : ℝ, val_main_v28 (F := Ideal) x1 x2 x3 (ix1 e) = (r : EReal) := by
  rw [val_main_v28_apply, val_main_v20_apply, Ideal.mulf_def, Ideal.mulf_def]
  exact isReal_mul (isReal_mul (v19_real x1 x2 x3 h3 e) (v5_real x3 h3 e)) (v27_real x2 x3 h3 e)

/-! ## The weights broadcast over the columns -/

/-- The broadcast weight array reads, at (e, c), the weight of edge e: one real per edge. -/
theorem norm_real (x1 x2 : IVec S1600000 32) (x3 : FVec Ideal S1600000 .f32) (h3 : IsReal x3) :
    ∃ n : Fin 1700000 → ℝ, ∀ (e : Fin 1700000) (c : Fin 64),
      val_main_v38 (F := Ideal) x1 x2 x3 (ix2 e c) = ((n e : ℝ) : EReal) := by
  choose n hn using fun e : Fin 1700000 => v28_real x1 x2 x3 h3 e
  refine ⟨n, fun e c => ?_⟩
  rw [val_main_v38_apply, val_main_v37_apply]
  have hi : idx_main_v37 (idx_main_v38 (ix2 e c)) = ix1 e :=
    funext fun a => Fin.ext (by match a with | ⟨0, _⟩ => rfl)
  rw [hi]
  exact hn e

end Cert.NormReal

end
-- ==== Proof.Bridge.lean ====
/-
  The two programs compute the same two arrays, at the exact values, from finite inputs.

  Node i's new hidden row is the same gated-recurrent update (Cert.Spec.gruRow) on both sides once its three convolution
  rows agree; they do by linearity: the reference projects the features by W before the weighted segment sum, the kernel
  program projects the weighted segment sum — for real-valued features, weights and matrices these are one number
  (Cert.RefConv.conv_z / conv_r / conv_h). The read-out is the same head of the same hidden row, and the reshape to
  [4, 25000, 1] reads row b·25000 + r on both sides.
-/
import proofs.«162937_j28424093565280_2_alg».proof.Proof.KernelValueRun
import proofs.«162937_j28424093565280_2_alg».proof.Proof.KernelHostProp
import proofs.«162937_j28424093565280_2_alg».proof.Proof.RefGates
import proofs.«162937_j28424093565280_2_alg».proof.Proof.RefConv
import proofs.«162937_j28424093565280_2_alg».proof.Proof.NormReal
import proofs.«162937_j28424093565280_2_alg».proof.Proof.FiniteInputs

noncomputable section

namespace Cert.Bridge

open Idealize.ShloMosaic Idealize.ShloMosaic.ValueIdx Cert.Spec Cert.FiniteInputs
open Cert.ReferenceIdeal (S4x25000x64 S1600000 S100000x64 S64x64 S64 S128x64 S64x1 S1 S100000x1 S4x25000x1)
open Cert.ReferenceIdeal.Read Cert.KernelIdeal.Arrays

variable (x0 : FVec Ideal S4x25000x64 .f32) (x1 x2 : IVec S1600000 32) (x3 : FVec Ideal S1600000 .f32)
  (x4 : FVec Ideal S100000x64 .f32) (x5 : FVec Ideal S64x64 .f32) (x6 : FVec Ideal S64 .f32)
  (x7 : FVec Ideal S64x64 .f32) (x8 : FVec Ideal S64 .f32) (x9 : FVec Ideal S64x64 .f32) (x10 : FVec Ideal S64 .f32)
  (x11 : FVec Ideal S128x64 .f32) (x12 : FVec Ideal S64 .f32) (x13 : FVec Ideal S128x64 .f32) (x14 : FVec Ideal S64 .f32)
  (x15 : FVec Ideal S128x64 .f32) (x16 : FVec Ideal S64 .f32) (x17 : FVec Ideal S64x1 .f32) (x18 : FVec Ideal S1 .f32)

/-- Node i's update at j, from the propagated features: the reference's hidden array at (i, j). -/
theorem hidden_eq (h0 : IsReal x0) (h3 : IsReal x3) (h5 : IsReal x5) (h7 : IsReal x7) (h9 : IsReal x9)
    (i : Fin 100000) (j : Fin 64) :
    hiddenOf (Cert.Graph.prop x0 x1 x2 x3) x4 x5 x6 x7 x8 x9 x10 x11 x12 x13 x14 x15 x16 i j
      = val_main_v169 (F := Ideal) x0 x1 x2 x3 x4 x5 x6 x7 x8 x9 x10 x11 x12 x13 x14 x15 x16 (ix2 i j) := by
  have hX := Cert.NormReal.feat_real x0 h0
  have hn := Cert.NormReal.norm_real x1 x2 x3 h3
  rw [Cert.RefGates.ref_hidden_apply]
  unfold hiddenOf
  refine congrFun (gruRow_congr (funext fun k => ?_) (funext fun k => ?_) (funext fun k => ?_) _ _ _ _ _ _ _) j
  · exact (Cert.RefConv.conv_z x0 x1 x2 x3 x5 x6 hX h5 hn i k).symm
  · exact (Cert.RefConv.conv_r x0 x1 x2 x3 x7 x8 hX h7 hn i k).symm
  · exact (Cert.RefConv.conv_h x0 x1 x2 x3 x9 x10 hX h9 hn i k).symm

/-- The first result: the whole hidden array. -/
theorem hidden_array_eq (h0 : IsReal x0) (h3 : IsReal x3) (h5 : IsReal x5) (h7 : IsReal x7) (h9 : IsReal x9) :
    (fun y : S100000x64.Idx => hiddenOf (Cert.Graph.prop x0 x1 x2 x3) x4 x5 x6 x7 x8 x9 x10 x11 x12 x13 x14 x15 x16
        ⟨(y 0).val, idx2_lt0 y⟩ ⟨(y 1).val, idx2_lt1 y⟩)
      = val_main_v169 (F := Ideal) x0 x1 x2 x3 x4 x5 x6 x7 x8 x9 x10 x11 x12 x13 x14 x15 x16 := by
  funext y
  rw [hidden_eq x0 x1 x2 x3 x4 x5 x6 x7 x8 x9 x10 x11 x12 x13 x14 x15 x16 h0 h3 h5 h7 h9]
  exact congrArg _ (eq_ix2 y).symm

/-- The second result: the read-outs, reshaped to [4, 25000, 1]. -/
theorem head_array_eq (h0 : IsReal x0) (h3 : IsReal x3) (h5 : IsReal x5) (h7 : IsReal x7) (h9 : IsReal x9)
    (hs : Cert.KernelIdeal.S100000x1.ShapeCasts Cert.KernelIdeal.S4x25000x1) :
    shapeCast Cert.KernelIdeal.S4x25000x1 (fun y : Cert.KernelIdeal.S100000x1.Idx =>
        headRow (fun k => hiddenOf (Cert.Graph.prop x0 x1 x2 x3) x4 x5 x6 x7 x8 x9 x10 x11 x12 x13 x14 x15 x16
          ⟨(y 0).val, idx2_lt0 y⟩ k) x17 x18) hs
      = val_main_v175 (F := Ideal) x0 x1 x2 x3 x4 x5 x6 x7 x8 x9 x10 x11 x12 x13 x14 x15 x16 x17 x18 := by
  funext y
  obtain ⟨b, r, z, rfl⟩ : ∃ (b : Fin 4) (r : Fin 25000) (z : Fin 1), y = ix3 b r z := ⟨y 0, y 1, y 2, eq_ix3 y⟩
  obtain rfl : z = 0 := Subsingleton.elim _ _
  rw [Cert.RefGates.ref_head_apply]
  rw [shapeCast_apply _ hs (ix3 b r 0) (ix2 (⟨b.val * 25000 + r.val, by have := b.isLt; have := r.isLt; omega⟩ : Fin 100000) (0 : Fin 1))
    (by rw [Shape.rowMajor_val_two, Shape.rowMajor_val_three]
        show (b.val * 25000 + r.val) * 1 + 0 = (b.val * 25000 + r.val) * 1 + 0
        rfl)]
  refine congrArg (fun f => headRow f x17 x18) (funext fun k => ?_)
  exact hidden_eq x0 x1 x2 x3 x4 x5 x6 x7 x8 x9 x10 x11 x12 x13 x14 x15 x16 h0 h3 h5 h7 h9 _ k

end Cert.Bridge

end
-- ==== Proof.lean ====
/-
  The five claims about the fused graph-convolution / gated-recurrent kernel and its plain reference.

  Frames. The kernel program (as printed, and read at the exact values) runs its host graph operations, its one region
  of 50 grid points and the final reshape to the end without a fault and leaves its nineteen argument arrays as
  launched (Cert.Kernel.Hand.frame, Cert.KernelIdeal.Hand.frame: the region's body run once at a symbolic grid point,
  the launch around it by the library's theorem for a region between host operations). The reference is a straight line
  of host operations; its run is read back operation by operation.

  Preservation. The exact-value reading rewrote no operation: nothing to show.

  Equality of the results at the exact values. Write P for the propagated features — for each node, the sum over its
  incoming edges (self-loop included) of the source node's raw feature row times the edge's normalisation weight. The
  kernel program computes P on the host and, per node, projects P's row by the three 64×64 matrices inside the kernel;
  the reference projects all feature rows first and accumulates the projected rows. Features, edge weights and the
  three matrices being finite (the precondition), so are the normalisation weights (a degree is a finite sum; its
  reciprocal square root is taken only where it is positive), and a finite sum of finite products may be regrouped:
  the three convolution rows of every node agree. From there on both programs apply the same gated-recurrent update
  and the same read-out to the same rows, the kernel 2000 nodes at a time, the reference to the whole arrays.
-/
import proofs.«162937_j28424093565280_2_alg».proof.Defs
import proofs.«162937_j28424093565280_2_alg».proof.Proof.Gen.Kernel
import proofs.«162937_j28424093565280_2_alg».proof.Proof.Gen.Kernel.Skeleton
import proofs.«162937_j28424093565280_2_alg».proof.Proof.Gen.Kernel.Launch
import proofs.«162937_j28424093565280_2_alg».proof.Proof.Gen.Kernel.Points
import proofs.«162937_j28424093565280_2_alg».proof.Proof.Gen.KernelIdeal
import proofs.«162937_j28424093565280_2_alg».proof.Proof.Gen.KernelIdeal.Skeleton
import proofs.«162937_j28424093565280_2_alg».proof.Proof.Gen.KernelIdeal.Launch
import proofs.«162937_j28424093565280_2_alg».proof.Proof.Gen.KernelIdeal.Points
import proofs.«162937_j28424093565280_2_alg».proof.Proof.Gen.ReferenceIdeal
import proofs.«162937_j28424093565280_2_alg».proof.Proof.Gen.Pre_finite_inputs
import proofs.«162937_j28424093565280_2_alg».proof.Proof.Gen.ReferenceIdeal.Run
import proofs.«162937_j28424093565280_2_alg».proof.Proof.Gen.ReferenceIdeal.Read
import proofs.«162937_j28424093565280_2_alg».proof.Proof.KernelRun
import proofs.«162937_j28424093565280_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs to the end and keeps its arguments. -/
theorem frame_kernel : Cert.frame_Kernel := fun m ρ _ => Cert.Kernel.Hand.frame m ρ

/-- So does its reading at the exact values. -/
theorem frame_kernelIdeal : Cert.frame_KernelIdeal := fun m ρ _ => Cert.KernelIdeal.Hand.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

set_option maxHeartbeats 4000000 in
open Cert.KernelIdeal.Hand Cert.KernelIdeal.HostVals Cert.KernelIdeal.Arrays Cert.KernelIdeal.ValueRun in
/-- Both programs end with the same hidden array and the same read-outs, from memories that agree on finite arguments. -/
theorem algebraic : Cert.algebraic_KernelIdeal_ReferenceIdeal := by
  intro m ρ m' ρ' hpre hagree
  refine ⟨fun c => zOut m c, fun c => G12 m c, run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h3, h5, h7, h9⟩ := Cert.FiniteInputs.reals_of_pre _ _ _ _ _ _ _ _ _ _ _ _ _ _ _ _ _ _ _ (hpre c)
    obtain ⟨a0, a1, a2, a3, a4, a5, a6, a7, a8, a9, a10, a11, a12, a13, a14, a15, a16, a17, a18⟩ := hagree c
    show Cert.ReferenceIdeal.Value.res_main_v175 m' c = zOut m c
    rw [Cert.ReferenceIdeal.Read.val_main_v175_eq, a0, a1, a2, a3, a4, a5, a6, a7, a8, a9, a10, a11, a12, a13, a14, a15, a16, a17, a18]
    unfold zOut G13 Cert.KernelIdeal.Arrays.hidden
    rw [V_prop, V_main_arg4, V_main_arg11, V_main_arg12, V_main_arg13, V_main_arg14, V_main_arg15, V_main_arg16,
      V_main_arg17, V_main_arg18]
    exact (Cert.Bridge.head_array_eq _ _ _ _ _ _ _ _ _ _ _ _ _ _ _ _ _ _ _ h0 h3 h5 h7 h9 _).symm
  · obtain ⟨h0, h3, h5, h7, h9⟩ := Cert.FiniteInputs.reals_of_pre _ _ _ _ _ _ _ _ _ _ _ _ _ _ _ _ _ _ _ (hpre c)
    obtain ⟨a0, a1, a2, a3, a4, a5, a6, a7, a8, a9, a10, a11, a12, a13, a14, a15, a16, a17, a18⟩ := hagree c
    show Cert.ReferenceIdeal.Value.res_main_v169 m' c = G12 m c
    rw [Cert.ReferenceIdeal.Read.val_main_v169_eq, a0, a1, a2, a3, a4, a5, a6, a7, a8, a9, a10, a11, a12, a13, a14, a15, a16]
    unfold G12 Cert.KernelIdeal.Arrays.hidden
    rw [V_prop, V_main_arg4, V_main_arg11, V_main_arg12, V_main_arg13, V_main_arg14, V_main_arg15, V_main_arg16]
    exact (Cert.Bridge.hidden_array_eq _ _ _ _ _ _ _ _ _ _ _ _ _ _ _ _ _ h0 h3 h5 h7 h9).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
